-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2048x2048 : S_.BroadcastsInDim S2048x2048 (![] : Fin 0 → Fin S2048x2048.rank)
  reducesTo_S2048x2048_S_d0_1 : S2048x2048.ReducesTo [0, 1] S_
  reducesTo_S_S_d : S_.ReducesTo [] S_

variable [Facts]

def fn_part4 {F : FTy → Type} [FloatOps F] (main_arg14 : FVec F S_ .f32) (main_arg15 : FVec F S_ .f32) (main_v63 : IVec S_ 1) (main_v67 : IVec S_ 1) : IVec S_ 1 :=
  let main_v68 : IVec S_ 1 := andi main_v63 main_v67
  let main_v69 : FVec F S_ .f32 := Host.absf main_arg14
  let main_cst_26 : FVec F S_ .f32 := constant S_ .f32 0x7F800000#32
  let main_v70 : IVec S_ 1 := cmpf .olt main_v69 main_cst_26
  let main_c_27 : IVec S_ 1 := constantI S_ 1 1#1
  let main_v71 : IVec S_ 1 := (fun x v => Host.reduce IntOp.andi x v reducesTo_S_S_d h_S_) main_v70 main_c_27
  let main_v72 : IVec S_ 1 := andi main_v68 main_v71
  let main_v73 : FVec F S_ .f32 := Host.absf main_arg15
  let main_cst_28 : FVec F S_ .f32 := constant S_ .f32 0x7F800000#32
  let main_v74 : IVec S_ 1 := cmpf .olt main_v73 main_cst_28
  let main_c_29 : IVec S_ 1 := constantI S_ 1 1#1
  let main_v75 : IVec S_ 1 := (fun x v => Host.reduce IntOp.andi x v reducesTo_S_S_d h_S_) main_v74 main_c_29
  let main_v76 : IVec S_ 1 := andi main_v72 main_v75
  main_v76

def fn_part3 {F : FTy → Type} [FloatOps F] (main_arg11 : FVec F S2048 .f32) (main_arg12 : FVec F S2048 .f32) (main_arg13 : FVec F S2048 .f32) (main_arg14 : FVec F S_ .f32) (main_arg15 : FVec F S_ .f32) (main_v48 : IVec S_ 1) (main_v49 : FVec F S2048x4096 .f32) (main_v50 : FVec F S2048x4096 .f32) : IVec S_ 1 :=
  let main_v51 : IVec S2048x4096 1 := cmpf .olt main_v49 main_v50
  let main_c_19 : IVec S_ 1 := constantI S_ 1 1#1
  let main_v52 : IVec S_ 1 := (fun x v => Host.reduce IntOp.andi x v reducesTo_S2048x4096_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x4096 .f32 := Host.absf main_arg10
  let main_cst_18 : FVec F S_ .f32 := constant S_ .f32 0x7F800000#32
  let main_v50 : FVec F S2048x4096 .f32 := broadcastInDim S2048x4096 ![] bcast_S_S2048x4096 main_cst_18
  fn_part3 (F := F) main_arg11 main_arg12 main_arg13 main_arg14 main_arg15 main_v48 main_v49 main_v50

def fn_part1 {F : FTy → Type} [FloatOps F] (main_arg4 : FVec F S4096x4096 .f32) (main_arg5 : FVec F S4096 .f32) (main_arg6 : FVec F S2048x4096 .f32) (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8x4096x2048 .f32) (main_arg1 : FVec F S8x4096x2048 .f32) (main_arg2 : FVec F S2048x4096 .f32) (main_arg3 : FVec F S2048 .f32) (main_arg4 : FVec F S4096x4096 .f32) (main_arg5 : FVec F S4096 .f32) (main_arg6 : FVec F S2048x4096 .f32) (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩
abbrev S8x1x4096 : Shape := ⟨3, ![8, 1, 4096]⟩
abbrev S1x1024x2048 : Shape := ⟨3, ![1, 1024, 2048]⟩
abbrev S1x1x4096 : Shape := ⟨3, ![1, 1, 4096]⟩
abbrev S1x1x2048 : Shape := ⟨3, ![1, 1, 2048]⟩
abbrev S1x2048 : Shape := ⟨2, ![1, 2048]⟩
abbrev S8x4096 : Shape := ⟨2, ![8, 4096]⟩
abbrev S4096x2048 : Shape := ⟨2, ![4096, 2048]⟩
abbrev S8x2048 : Shape := ⟨2, ![8, 2048]⟩
abbrev S1x4096 : Shape := ⟨2, ![1, 4096]⟩
abbrev S8x1x2048 : Shape := ⟨3, ![8, 1, 2048]⟩
abbrev S1x1024 : Shape := ⟨2, ![1, 1024]⟩
abbrev S1x1024x1 : Shape := ⟨3, ![1, 1024, 1]⟩

abbrev nBuf : Space → Nat
  | .hbm => 84
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048x4096, .f32⟩
  | .hbm, ⟨3, _⟩ => ⟨S2048, .f32⟩
  | .hbm, ⟨4, _⟩ => ⟨S4096x4096, .f32⟩
  | .hbm, ⟨5, _⟩ => ⟨S4096, .f32⟩
  | .hbm, ⟨6, _⟩ => ⟨S2048x4096, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x4096, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S8x1x4096, .f32⟩
  | .hbm, ⟨17, _⟩ => ⟨S8x4096, .f32⟩
  | .hbm, ⟨18, _⟩ => ⟨S4096x2048, .f32⟩
  | .hbm, ⟨19, _⟩ => ⟨S8x2048, .f32⟩
  | .hbm, ⟨20, _⟩ => ⟨S1x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S4096x4096, .f32⟩
  | .hbm, ⟨32, _⟩ => ⟨S8x4096, .f32⟩
  | .hbm, ⟨33, _⟩ => ⟨S1x4096, .f32⟩
  | .hbm, ⟨34, _⟩ => ⟨S8x4096, .f32⟩
  | .hbm, ⟨35, _⟩ => ⟨S8x4096, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S8x4096, .f32⟩
  | .hbm, ⟨45, _⟩ => ⟨S4096x2048, .f32⟩
  | .hbm, ⟨46, _⟩ => ⟨S8x2048, .f32⟩
  | .hbm, ⟨47, _⟩ => ⟨S1x2048, .f32⟩
  | .hbm, ⟨48, _⟩ => ⟨S8x2048, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S2048x2048, .f32⟩
  | .hbm, ⟨60, _⟩ => ⟨S8x2048, .f32⟩
  | .hbm, ⟨61, _⟩ => ⟨S1x2048, .f32⟩
  | .hbm, ⟨62, _⟩ => ⟨S8x2048, .f32⟩
  | .hbm, ⟨63, _⟩ => ⟨S8x2048, .f32⟩
  | .hbm, ⟨64, _⟩ => ⟨S4096x2048, .f32⟩
  | .hbm, ⟨65, _⟩ => ⟨S8x2048, .f32⟩
  | .hbm, ⟨66, _⟩ => ⟨S1x2048, .f32⟩
  | .hbm, ⟨67, _⟩ => ⟨S8x2048, .f32⟩
  | .hbm, ⟨68, _⟩ => ⟨S8x2048, .f32⟩
  | .hbm, ⟨69, _⟩ => ⟨S8x2048, .f32⟩
  | .hbm, ⟨70, _⟩ => ⟨S8x2048, .f32⟩
  | .hbm, ⟨71, _⟩ => ⟨S8x2048, .f32⟩
  | .hbm, ⟨72, _⟩ => ⟨S8x2048, .f32⟩
  | .hbm, ⟨73, _⟩ => ⟨S8x2048, .f32⟩
  | .hbm, ⟨74, _⟩ => ⟨S8x2048, .f32⟩
  | .hbm, ⟨75, _⟩ => ⟨S8x1x2048, .f32⟩
  | .hbm, ⟨76, _⟩ => ⟨S8x1x2048, .f32⟩
  | .hbm, ⟨77, _⟩ => ⟨S1x1x2048, .f32⟩
  | .hbm, ⟨78, _⟩ => ⟨S1x1x2048, .f32⟩
  | .hbm, ⟨79, _⟩ => ⟨S8x4096x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x4096, .f32⟩
  | .local _ .vmem, ⟨5, _⟩ => ⟨S1x1x4096, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x2048, .f32⟩
  | .local _ .vmem, ⟨9, _⟩ => ⟨S1x1024x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1024x2048, .f32⟩
  | .local _ .vmem, ⟨19, _⟩ => ⟨S1x1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_1 : Ref sig .tc := ⟨.hbm, 80, rfl⟩
abbrev main_v46 : Ref sig .tc := ⟨.hbm, 81, rfl⟩
abbrev main_cst_2 : Ref sig .tc := ⟨.hbm, 82, rfl⟩
abbrev main_v47 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_19 : BitVec 32 := 0#32
  let v21 : BitVec 1 := Scalar.cmpi .ne v20 c0_i32_19
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x1024x2048_S1x1024x2048_0_0_0 : ∀ a, (![0, 0, 0] : Fin 3 → Nat) a + S1x1024x2048.size a ≤ S1x1024x2048.size a
  h_S1x1024x2048 : 0 < S1x1024x2048.numel
  reduces_S1x1024x2048_S1x2048 : S1x1024x2048.Reduces [1] S1x2048
  shapeCasts_S1x2048_S1x1x2048 : S1x2048.ShapeCasts S1x1x2048
  inb_S1x1x4096_S1x1x2048_0_0_0 : ∀ a, (![0, 0, 0] : Fin 3 → Nat) a + S1x1x2048.size a ≤ S1x1x4096.size a
  inb_S1x1x4096_S1x1x2048_0_0_2048 : ∀ a, (![0, 0, 2048] : Fin 3 → Nat) a + S1x1x2048.size a ≤ S1x1x4096.size a
  shapeCasts_S8x1x4096_S8x4096 : S8x1x4096.ShapeCasts S8x4096
  transposes_S2048x4096_S4096x2048_1_0 : S2048x4096.Transposes [1, 0] S4096x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S_S8x2048 : S_.BroadcastsInDim S8x2048 (![] : Fin 0 → Fin S8x2048.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S_S8x4096 : S_.BroadcastsInDim S8x4096 (![] : Fin 0 → Fin S8x4096.rank)
  transposes_S2048x2048_S2048x2048_1_0 : S2048x2048.Transposes [1, 0] S2048x2048
  bcast_S8x2048_S8x1x2048_0_2 : S8x2048.BroadcastsInDim S8x1x2048 (![0, 2] : Fin 2 → Fin S8x1x2048.rank)
  shapeCasts_S2048_S1x1x2048 : S2048.ShapeCasts S1x1x2048
  broadcasts_S1x1x2048_S1x1024x2048 : S1x1x2048.Broadcasts S1x1024x2048
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  reducesTo_S8x2048_S_d0_1 : S8x2048.ReducesTo [0, 1] S_
  h_S_ : 0 < S_.numel
  dot_S8x4096_S4096x2048_S8x2048_1_0_0_1_n_n_wf : DotDims.WF S8x4096 S4096x2048 S8x2048 [1] [0] [0] [1] [] []
  dot_S8x4096_S4096x4096_S8x4096_1_0_0_1_n_n_wf : DotDims.WF S8x4096 S4096x4096 S8x4096 [1] [0] [0] [1] [] []
  dot_S8x2048_S2048x2048_S8x2048_1_0_0_1_n_n_wf : DotDims.WF S8x2048 S2048x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .f32 = 32 ∨ (Rect.block (s := S8x4096x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S8x4096x2048.size a
  hwx1_0 : ∀ i : grid1.Coords, EltTy.bits .f32 = 32 ∨ (Rect.block (s := S8x4096x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S8x4096x2048.size a
  hwx1_1 : ∀ i : grid1.Coords, EltTy.bits .f32 = 32 ∨ (Rect.block (s := S8x4096x2048) S1x1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S8x1x2048.size a
  hwx1_2 : ∀ i : grid1.Coords, EltTy.bits .f32 = 32 ∨ (Rect.block (s := S8x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x2048.size a ≤ S1x1x2048.size a
  hwx1_4 : ∀ i : grid1.Coords, EltTy.bits .f32 = 32 ∨ (Rect.block (s := S1x1x2048) S1x1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x2048.size a ≤ S1x1x2048.size a
  hwx1_5 : ∀ i : grid1.Coords, EltTy.bits .f32 = 32 ∨ (Rect.block (s := S1x1x2048) S1x1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x2048.size a ≤ S8x4096x2048.size a
  hwx1_6 : ∀ i : grid1.Coords, EltTy.bits .f32 = 32 ∨ (Rect.block (s := S8x4096x2048) S1x1024x2048.size (cc1_transform_6 i) (hinb1_6 i)).WholeWords (EltTy.packing .f32)

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1024x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩
abbrev S8x2048 : Shape := ⟨2, ![8, 2048]⟩
abbrev S8x4096 : Shape := ⟨2, ![8, 4096]⟩
abbrev S4096x2048 : Shape := ⟨2, ![4096, 2048]⟩
abbrev S1x2048 : Shape := ⟨2, ![1, 2048]⟩
abbrev S8x1x2048 : Shape := ⟨3, ![8, 1, 2048]⟩
abbrev S1x4096 : Shape := ⟨2, ![1, 4096]⟩
abbrev S8x4096x1 : Shape := ⟨3, ![8, 4096, 1]⟩
abbrev S1x1x2048 : Shape := ⟨3, ![1, 1, 2048]⟩

abbrev nBuf : Space → Nat
  | .hbm => 146
  | .vmem => 0
  | .smem => 0
  | _ => 0

abbrev hbmTy0_0 (i : Nat) : BufTy := match i % 128 with
  | 0 => ⟨S8x4096x2048, .f32⟩
  | 1 => ⟨S8x4096x2048, .f32⟩
  | 2 => ⟨S2048x4096, .f32⟩
  | 3 => ⟨S2048, .f32⟩
  | 4 => ⟨S4096x4096, .f32⟩
  | 5 => ⟨S4096, .f32⟩
  | 6 => ⟨S2048x4096, .f32⟩
  | 7 => ⟨S2048, .f32⟩
  | 8 => ⟨S2048x2048, .f32⟩
  | 9 => ⟨S2048, .f32⟩
  | 10 => ⟨S2048x4096, .f32⟩
  | 11 => ⟨S2048, .f32⟩
  | 12 => ⟨S2048, .f32⟩
  | 13 => ⟨S2048, .f32⟩
  | 14 => ⟨S_, .f32⟩
  | 15 => ⟨S_, .f32⟩
  | 16 => ⟨S_, .f32⟩
  | 17 => ⟨S8x2048, .f32⟩
  | 18 => ⟨S_, .f32⟩
  | 19 => ⟨S8x2048, .f32⟩
  | 20 => ⟨S8x2048, .f32⟩
  | 21 => ⟨S_, .f32⟩
  | 22 => ⟨S8x2048, .f32⟩
  | 23 => ⟨S_, .f32⟩
  | 24 => ⟨S8x2048, .f32⟩
  | 25 => ⟨S8x2048, .f32⟩
  | 26 => ⟨S8x4096, .f32⟩
  | 27 => ⟨S4096x2048, .f32⟩
  | 28 => ⟨S8x2048, .f32⟩
  | 29 => ⟨S1x2048, .f32⟩
  | 30 => ⟨S8x2048, .f32⟩
  | 31 => ⟨S8x2048, .f32⟩
  | 32 => ⟨S8x2048, .f32⟩
  | 33 => ⟨S8x2048, .f32⟩
  | 34 => ⟨S_, .f32⟩
  | 35 => ⟨S8x2048, .f32⟩
  | 36 => ⟨S8x2048, .f32⟩
  | 37 => ⟨S_, .f32⟩
  | 38 => ⟨S8x2048, .f32⟩
  | 39 => ⟨S8x2048, .f32⟩
  | 40 => ⟨S8x1x2048, .f32⟩
  | 41 => ⟨S_, .f32⟩
  | 42 => ⟨S8x1x2048, .f32⟩
  | 43 => ⟨S8x1x2048, .f32⟩
  | 44 => ⟨S8x4096x2048, .f32⟩
  | 45 => ⟨S8x4096x2048, .f32⟩
  | 46 => ⟨S8x4096x2048, .f32⟩
  | 47 => ⟨S8x4096x2048, .f32⟩
  | 48 => ⟨S8x4096x2048, .f32⟩
  | 49 => ⟨S4096x4096, .f32⟩
  | 50 => ⟨S8x4096, .f32⟩
  | 51 => ⟨S1x4096, .f32⟩
  | 52 => ⟨S8x4096, .f32⟩
  | 53 => ⟨S8x4096, .f32⟩
  | 54 => ⟨S8x4096, .f32⟩
  | 55 => ⟨S8x4096, .f32⟩
  | 56 => ⟨S_, .f32⟩
  | 57 => ⟨S8x4096, .f32⟩
  | 58 => ⟨S8x4096, .f32⟩
  | 59 => ⟨S_, .f32⟩
  | 60 => ⟨S8x4096, .f32⟩
  | 61 => ⟨S8x4096, .f32⟩
  | 62 => ⟨S8x4096, .f32⟩
  | 63 => ⟨S4096x2048, .f32⟩
  | 64 => ⟨S8x2048, .f32⟩
  | 65 => ⟨S1x2048, .f32⟩
  | 66 => ⟨S8x2048, .f32⟩
  | 67 => ⟨S8x2048, .f32⟩
  | 68 => ⟨S8x2048, .f32⟩
  | 69 => ⟨S8x2048, .f32⟩
  | 70 => ⟨S_, .f32⟩
  | 71 => ⟨S8x2048, .f32⟩
  | 72 => ⟨S8x2048, .f32⟩
  | 73 => ⟨S_, .f32⟩
  | 74 => ⟨S8x2048, .f32⟩
  | 75 => ⟨S8x2048, .f32⟩
  | 76 => ⟨S8x2048, .f32⟩
  | 77 => ⟨S2048x2048, .f32⟩
  | 78 => ⟨S8x2048, .f32⟩
  | 79 => ⟨S1x2048, .f32⟩
  | 80 => ⟨S8x2048, .f32⟩
  | 81 => ⟨S8x2048, .f32⟩
  | 82 => ⟨S4096x2048, .f32⟩
  | 83 => ⟨S8x2048, .f32⟩
  | 84 => ⟨S1x2048, .f32⟩
  | 85 => ⟨S8x2048, .f32⟩
  | 86 => ⟨S8x2048, .f32⟩
  | 87 => ⟨S8x2048, .f32⟩
  | 88 => ⟨S8x1x2048, .f32⟩
  | 89 => ⟨S8x1x2048, .f32⟩
  | 90 => ⟨S8x1x2048, .f32⟩
  | 91 => ⟨S8x4096x2048, .f32⟩
  | 92 => ⟨S8x4096x2048, .f32⟩
  | 93 => ⟨S8x1x2048, .f32⟩
  | 94 => ⟨S8x1x2048, .f32⟩
  | 95 => ⟨S8x1x2048, .f32⟩
  | 96 => ⟨S8x4096x2048, .f32⟩
  | 97 => ⟨S8x4096x2048, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S_, .i32⟩
  | 105 => ⟨S_, .f32⟩
  | 106 => ⟨S8x4096, .f32⟩
  | 107 => ⟨S8x4096x1, .f32⟩
  | 108 => ⟨S_, .f32⟩
  | 109 => ⟨S8x4096x1, .f32⟩
  | 110 => ⟨S8x4096x1, .f32⟩
  | 111 => ⟨S8x4096x2048, .f32⟩
  | 112 => ⟨S8x4096x2048, .f32⟩
  | 113 => ⟨S8x4096x2048, .f32⟩
  | 114 => ⟨S_, .f32⟩
  | 115 => ⟨S_, .f32⟩
  | 116 => ⟨S_, .f32⟩
  | 117 => ⟨S_, .f32⟩
  | 118 => ⟨S8x4096, .f32⟩
  | 119 => ⟨S8x4096x1, .f32⟩
  | 120 => ⟨S8x4096x1, .f32⟩
  | 121 => ⟨S8x4096x1, .f32⟩
  | 122 => ⟨S_, .f32⟩
  | 123 => ⟨S_, .i1⟩
  | 124 => ⟨S_, .f32⟩
  | 125 => ⟨S_, .f32⟩
  | 126 => ⟨S8x4096x1, .f32⟩
  | 127 => ⟨S8x4096x1, .f32⟩
  | _ => ⟨S8x4096x2048, .f32⟩

abbrev hbmTy0_1 (i : Nat) : BufTy := match i % 128 with
  | 0 => ⟨S8x4096x2048, .f32⟩
  | 1 => ⟨S8x4096x2048, .f32⟩
  | 2 => ⟨S_, .f32⟩
  | 3 => ⟨S8x4096x1, .f32⟩
  | 4 => ⟨S8x4096x1, .f32⟩
  | 5 => ⟨S8x4096x1, .f32⟩
  | 6 => ⟨S8x4096x2048, .f32⟩
  | 7 => ⟨S8x4096x2048, .f32⟩
  | 8 => ⟨S1x1x2048, .f32⟩
  | 9 => ⟨S8x4096x2048, .f32⟩
  | 10 => ⟨S8x4096x2048, .f32⟩
  | 11 => ⟨S1x1x2048, .f32⟩
  | 12 => ⟨S8x4096x2048, .f32⟩
  | 13 => ⟨S8x4096x2048, .f32⟩
  | 14 => ⟨S_, .f32⟩
  | 15 => ⟨S_, .f32⟩
  | 16 => ⟨S_, .f32⟩
  | 17 => ⟨S_, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_cst_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_c : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_cst_3 : Ref sig .tc := ⟨.hbm, 122, rfl⟩
abbrev main_call2_v13 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_8 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_9 : Ref sig .tc := ⟨.hbm, 142, rfl⟩
abbrev main_v77 : Ref sig .tc := ⟨.hbm, 143, rfl⟩
abbrev main_cst_10 : Ref sig .tc := ⟨.hbm, 144, rfl⟩
abbrev main_v78 : Ref sig .tc := ⟨.hbm, 145, rfl⟩

abbrev nD : Nat := 1
abbrev τ : Topo := Topo.v7x

variable {F : FTy → Type} [FloatOps F]

class Facts₀ : Prop where
  reducesTo_S8x4096x2048_S8x2048_d1 : S8x4096x2048.ReducesTo [1] S8x2048
  h_S_ : 0 < S_.numel
  bcast_S_S8x2048 : S_.BroadcastsInDim S8x2048 (![] : Fin 0 → Fin S8x2048.rank)
  concatenates_S8x2048_S8x2048_S8x4096_d1 : Shape.Concatenates [S8x2048, S8x2048] S8x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x4096x2048_0_1_2 : S8x1x2048.BroadcastsInDim S8x4096x2048 (![0, 1, 2] : Fin 3 → Fin S8x4096x2048.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S_S8x4096 : S_.BroadcastsInDim S8x4096 (![] : Fin 0 → Fin S8x4096.rank)
  transposes_S2048x2048_S2048x2048_1_0 : S2048x2048.Transposes [1, 0] S2048x2048
  reducesTo_S8x4096x2048_S8x4096_d2 : S8x4096x2048.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  reducesTo_S8x2048_S_d0_1 : S8x2048.ReducesTo [0, 1] S_
  dot_S8x4096_S4096x2048_S8x2048_1_0_0_1_n_n_wf : DotDims.WF S8x4096 S4096x2048 S8x2048 [1] [0] [0] [1] [] []
  dot_S8x4096_S4096x4096_S8x4096_1_0_0_1_n_n_wf : DotDims.WF S8x4096 S4096x4096 S8x4096 [1] [0] [0] [1] [] []
  dot_S8x2048_S2048x2048_S8x2048_1_0_0_1_n_n_wf : DotDims.WF S8x2048 S2048x2048 S8x2048 [1] [0] [0] [1] [] []

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf

class Facts : Prop extends Facts₀ where

variable [Facts]
-- ==== Proof.Bits.R0Runs.lean ====
/-
  The pooling region (the first pallas_call): what its body's three control cases share.

  The grid is 8 batch rows by 4 tiles of 1024 positions; point t is batch row t / 4, tile t % 4. At tile 0 the body
  first zeroes its two accumulators; at every tile it adds the tile's column sums of the left and of the right input
  to them; at tile 3 it writes both accumulators, scaled by 1/4096, side by side into the output block of the row.
  Here: each window's block at a point read off the array the region finds; the two branch conditions decided over the
  grid; where the output window is idle; the staging and accumulator memrefs; and the region's resting invariant spelt
  out: the two accumulators at some contents, the other pallas_call's staging buffers at some contents, the
  generator register at some state.
-/
import proofs.«129208_j55336358642849_2_alg».proof.Proof.Gen.Kernel.Launch
import proofs.«129208_j55336358642849_2_alg».proof.Proof.Gen.Kernel.Skeleton
import proofs.«129208_j55336358642849_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
-- the TensorCore's buffer contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left input's current staging buffer holds its block at every point, for any proof data whose array is the
    region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, decided over the grid -/

/-- "This is tile 0": the accumulators are zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is tile 3": the scaled accumulators are written to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At tile 0 the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At tiles 1 and 2 likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At tile 3 it is live: the body stores into it. -/
theorem liveAt0_2_C : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S1x1x2048 .f32 := Memref.whole cc0_scratch0
abbrev scM0_1 : Memref sig .tc .vmem S1x1x2048 .f32 := Memref.whole cc0_scratch1
/-- Views through which contents are stated. -/
abbrev VO0_2 : View sig .tc .vmem S1x1x4096 .f32 := (Memref.whole cc0_stg2_0 : Memref sig .tc .vmem S1x1x4096 .f32).view
abbrev VS0_0 : View sig .tc .vmem S1x1x2048 .f32 := scM0_0.view
abbrev VS0_1 : View sig .tc .vmem S1x1x2048 .f32 := scM0_1.view

/-- The other pallas_call's staging buffers, each whole at some contents: scoped buffers this region never touches. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's resting invariant spelt out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.Hand

end
-- ==== Proof.Bits.R0RunA.lean ====
/-
  The pooling body at tile 0: both accumulators are zeroed, then each takes its tile's column sums; the output block is
  not touched. On whole memrefs — the two input blocks at their contents, the output buffer at contents handed back
  untouched, the accumulators at anything — the body runs to the end with each accumulator's stores as a list of pieces
  (last first), which the run itself determines.
-/
import proofs.«129208_j55336358642849_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_A (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 x1 : Vec F S1x1024x2048 .f32) :
    Σ' (L2 : List (View.Piece (Elt F) S1x1x4096 .f32)) (LS0 : List (View.Piece (Elt F) S1x1x2048 .f32)), { LS1 : List (View.Piece (Elt F) S1x1x2048 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Hand

end
-- ==== Proof.Bits.R0RunB.lean ====
/-
  The pooling body at tiles 1 and 2: each accumulator, found at what the tile before left, takes its tile's column
  sums; the output block is not touched. The accumulators' stores come out as lists of pieces the run determines.
-/
import proofs.«129208_j55336358642849_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_B (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 x1 : Vec F S1x1024x2048 .f32) (xs0 xs1 : Vec F S1x1x2048 .f32) :
    Σ' (L2 : List (View.Piece (Elt F) S1x1x4096 .f32)) (LS0 : List (View.Piece (Elt F) S1x1x2048 .f32)), { LS1 : List (View.Piece (Elt F) S1x1x2048 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Hand

end
-- ==== Proof.Bits.R0RunC.lean ====
/-
  The pooling body at tile 3: each accumulator, found at what tile 2 left, takes its tile's column sums; then the left
  accumulator times 1/4096 is stored into the first half of the output block and the right one into the second half.
  The stores into the accumulators and into the output buffer come out as lists of pieces the run determines.
-/
import proofs.«129208_j55336358642849_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 x1 : Vec F S1x1024x2048 .f32) (xs0 xs1 : Vec F S1x1x2048 .f32) :
    Σ' (L2 : List (View.Piece (Elt F) S1x1x4096 .f32)) (LS0 : List (View.Piece (Elt F) S1x1x2048 .f32)), { LS1 : List (View.Piece (Elt F) S1x1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; iexact HS1

end Cert.Kernel.Hand

end
-- ==== Proof.Bits.R0Pieces.lean ====
/-
  The pooling region: what each control case of its body leaves in the output buffer and the two accumulators.

  Each is the case's list of stores, which its run found, read back as one vector; the stores into an accumulator
  always cover it, and at tile 3 the two stores into the output buffer cover it.
-/
import proofs.«129208_j55336358642849_2_alg».proof.Proof.Bits.R0RunA
import proofs.«129208_j55336358642849_2_alg».proof.Proof.Bits.R0RunB
import proofs.«129208_j55336358642849_2_alg».proof.Proof.Bits.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, read back from the pieces its run found -/

/-- Tile 0 leaves the output buffer alone: a placeholder nothing consults. -/
def out0_A_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)
theorem scover0_A_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) (y : S1x1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x2048.size (by sl_kernel_rfl) y
theorem scover0_A_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) (y : S1x1x2048.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1x2048.size (by sl_kernel_rfl) y
/-- What tile 0 leaves in the left accumulator, -/
def sout0_A_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x2048 .f32 :=
  VS0_0.read (Elt F) (VS0_0.writes (Elt F) VS0_0.junk (kernelRun0_A c i arg2 harg2 arg3 harg3 arg4 harg4 arg5 harg5 arg6 harg6 hc0 hc1 x0 x1).2.1)
/-- and in the right one. -/
def sout0_A_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x2048 .f32 :=
  VS0_1.read (Elt F) (VS0_1.writes (Elt F) VS0_1.junk (kernelRun0_A c i arg2 harg2 arg3 harg3 arg4 harg4 arg5 harg5 arg6 harg6 hc0 hc1 x0 x1).2.2.1)

/-- Tiles 1 and 2 leave the output buffer alone too. -/
def out0_B_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0 xs1).1)
theorem scover0_B_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x1x2048.size (by sl_kernel_rfl) y
theorem scover0_B_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1x2048.size (by sl_kernel_rfl) y
def sout0_B_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x2048 .f32 :=
  VS0_0.read (Elt F) (VS0_0.writes (Elt F) VS0_0.junk (kernelRun0_B c i arg2 harg2 arg3 harg3 arg4 harg4 arg5 harg5 arg6 harg6 hc0 hc1 x0 x1 xs0 xs1).2.1)
def sout0_B_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x2048 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- At tile 3 the two stores into the output buffer tile it. -/
theorem cover0_C_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x4096.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y
/-- What tile 3 leaves in the output buffer. -/
def out0_C_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0 xs1).1)
theorem scover0_C_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x1x2048.size (by sl_kernel_rfl) y
theorem scover0_C_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1x2048.size (by sl_kernel_rfl) y
def sout0_C_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x2048 .f32 :=
  VS0_0.read (Elt F) (VS0_0.writes (Elt F) VS0_0.junk (kernelRun0_C c i arg2 harg2 arg3 harg3 arg4 harg4 arg5 harg5 arg6 harg6 hc0 hc1 x0 x1 xs0 xs1).2.1)
def sout0_C_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x2048 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

end Cert.Kernel.Hand

end
-- ==== Proof.Bits.R0Acc.lean ====
/-
  The pooling region: what its buffers hold after every grid point, and its body obligation.

  After point t (batch row t / 4, tile t % 4) the left accumulator holds the column sums of the row's first t % 4 + 1
  tiles of the left input, the right accumulator those of the right input: at tile 0 the body starts from zero, at a
  later tile from what the point before left (`outsAt0`, by recursion on the point through `stepAt0`). The
  region's invariant after a point says exactly that of the two accumulators (`PhiS`); the output window's buffer
  matters only at tile 3, where it holds the two accumulators scaled by 1/4096, side by side. The obligation is the
  case's run at every point.
-/
import proofs.«129208_j55336358642849_2_alg».proof.Proof.Bits.R0Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Contents nothing consults. -/
abbrev junkS : Vec F S1x1x2048 .f32 := VS0_0.read (Elt F) VS0_0.junk

/-- ONE POINT: what the output buffer and the two accumulators hold after the body at point `t`, given what the
    accumulators held before it (`prev`, which tile 0 ignores): the case the tile selects. -/
def stepAt0 (c : Dev nD) (t : Fin cfg0.N) (prev : Vec F S1x1x2048 .f32 × Vec F S1x1x2048 .f32) :
    Vec F S1x1x4096 .f32 × Vec F S1x1x2048 .f32 × Vec F S1x1x2048 .f32 :=
  if h0 : t.val % 4 = 0 then
    (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t),
     sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t),
     sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t))
  else if h1 : t.val % 4 = 3 then
    (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2,
     sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2,
     sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2)
  else
    (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2,
     sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2,
     sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)

/-- THE ACCUMULATION: what the output buffer and the two accumulators hold after the body at position `n`. -/
def outsAt0 (c : Dev nD) : (n : ℕ) → n < cfg0.N → Vec F S1x1x4096 .f32 × Vec F S1x1x2048 .f32 × Vec F S1x1x2048 .f32
  | 0, hn => stepAt0 V c ⟨0, hn⟩ (junkS, junkS)
  | n + 1, hn => stepAt0 V c ⟨n + 1, hn⟩ (outsAt0 c n (Nat.lt_of_succ_lt hn)).2

/-- What the accumulators hold before point `t`. -/
def prevAt0 (c : Dev nD) (t : Fin cfg0.N) : Vec F S1x1x2048 .f32 × Vec F S1x1x2048 .f32 :=
  if h : t.val = 0 then (junkS, junkS) else (outsAt0 V c (t.val - 1) (by have := t.isLt; omega)).2

theorem outsAt0_eq (c : Dev nD) (t : Fin cfg0.N) : outsAt0 V c t.val t.isLt = stepAt0 V c t (prevAt0 V c t) := by
  obtain ⟨n, hn⟩ := t
  cases n with
  | zero => rfl
  | succ n => rfl

/-- The region invariant before position `n`: before the first point the resting one; afterwards the two
    accumulators at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Hand

end
-- ==== Proof.Bits.R0Body.lean ====
/-
  The pooling region's body obligation: at every grid point the body, called on the windows' staging buffers and the
  two accumulators as the invariant holds them, leaves the invariant of the next point.

  Tile 0 takes the accumulators at anything (the resting invariant at the very first point, the row before's final
  sums afterwards) and leaves them at the first tile's column sums; tiles 1 and 2 take them at what the point before
  left; tile 3 also fills the output buffer. The output window is idle at tiles 0 to 2: its buffer is handed back as
  found. The core owes nothing throughout.
-/
import proofs.«129208_j55336358642849_2_alg».proof.Proof.Bits.R0Acc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [outsAt0_eq V c t]
  by_cases h0 : t.val % 4 = 0
  · -- tile 0
    have h1 : ¬ t.val % 4 = 3 := by omega
    rw [Dat.leavesExact_idle (dat0 V c) 2 t (idleAt0_2_A t ((hcond0_0 t).mpr h0) (fun h => by have := (hcond0_1 t).mp h; omega)) (noFlush0_2_A t ((hcond0_0 t).mpr h0) (fun h => by have := (hcond0_1 t).mp h; omega))]
    rw [show stepAt0 V c t (prevAt0 V c t) = _ from dif_pos h0]
    unfold sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => by have := (hcond0_1 t).mp h; omega) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => by have := (hcond0_1 t).mp h; omega) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 4 = 3
    · -- tile 3
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2, outsAt0_eq V c t]
      rw [show stepAt0 V c t (prevAt0 V c t) = _ from (dif_neg h0).trans (dif_pos h1)]
      unfold out0_C_2 sout0_C_0 sout0_C_1; (try dsimp only)
      rw [PhiS_castSucc V c t, PhiS_pos V c _ _ hz, show prevAt0 V c t = _ from dif_neg hz]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · -- tiles 1 and 2
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [show stepAt0 V c t (prevAt0 V c t) = _ from (dif_neg h0).trans (dif_neg h1)]
      unfold sout0_B_0 sout0_B_1; (try dsimp only)
      rw [PhiS_castSucc V c t, PhiS_pos V c _ _ hz, show prevAt0 V c t = _ from dif_neg hz]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.Bits.R1Frame.lean ====
/-
  The second grid region (the layer normalisation over the gated mix) as a pipeline of seven windows, at any float
  instance: what each window's staging buffer holds when the body runs at a grid point, what the body leaves in the
  output window's buffer as a function of the six input blocks, and the body's obligation at every grid point.

  The grid is 8 × 4: point (b, q) handles rows 1024·q … 1024·q + 1023 of batch row b. Windows 0 and 1 are the
  [1, 1024, 2048] blocks of the two inputs at (b, q); windows 2 and 3 the [1, 1, 2048] rows of the gate and of the
  bias at b (the same block for the four points of a batch row); windows 4 and 5 the whole [1, 1, 2048] scale and
  shift (one block for all points); window 6 the [1, 1024, 2048] block of the result at (b, q). The body reads the six
  input blocks whole and writes the whole output block once, so what it leaves there is that one write's value.
-/
import proofs.«129208_j55336358642849_2_alg».proof.Proof.Gen.Kernel.Launch
import proofs.«129208_j55336358642849_2_alg».proof.Proof.Gen.Kernel.Skeleton
import proofs.«129208_j55336358642849_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the core's buffers when the region is entered: a parameter
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block there, whether the
    block was moved in at that point or is the one already present because the block index did not change. -/
theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer holds the window's block there, whether the
    block was moved in at that point or is the one already present because the block index did not change. -/
theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer holds the window's block there, whether the
    block was moved in at that point or is the one already present because the block index did not change. -/
theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer holds the window's block there, whether the
    block was moved in at that point or is the one already present because the block index did not change. -/
theorem holds1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its current staging buffer holds the window's block there, whether the
    block was moved in at that point or is the one already present because the block index did not change. -/
theorem holds1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every grid point its current staging buffer holds the window's block there, whether the
    block was moved in at that point or is the one already present because the block index did not change. -/
theorem holds1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

/-- The whole of a [1, 1024, 2048] buffer. -/
abbrev wholeBlk : Rect S1x1024x2048 := Rect.unit (s := S1x1024x2048) ![0, 0, 0] S1x1024x2048.size inb_S1x1024x2048_S1x1024x2048_0_0_0
/-- The whole of a [1, 1, 2048] buffer. -/
abbrev wholeRow : Rect S1x1x2048 := Rect.unit (s := S1x1x2048) ![0, 0, 0] S1x1x2048.size inb_S1x1x2048_S1x1x2048_0_0_0

/-! ## What the body leaves in the output window's buffer -/

/-- The output window's buffer after the body, from the six input blocks: the one store's value, which is the
    normalised mix times the scale (computed from windows 0–4) plus the shift (window 5). -/
def out1_6 (x0 x1 : Vec F S1x1024x2048 .f32) (x2 x3 x4 x5 : Vec F S1x1x2048 .f32) : Vec F S1x1024x2048 .f32 :=
  View.canon [⟨wholeBlk, k1_pay1 (k1_pay2 (View.ld x0 wholeBlk) (View.ld x1 wholeBlk) (View.ld x2 wholeRow) (View.ld x3 wholeRow) (View.ld x4 wholeRow)) (View.ld x5 wholeRow)⟩]

/-- The one store is of the whole buffer, so it covers it. -/
theorem covers1_6 (p0 : Vec F S1x1024x2048 .f32) (y : S1x1024x2048.Idx) :
    ∃ pc ∈ ([⟨wholeBlk, p0⟩] : List (View.Piece (Elt F) S1x1024x2048 .f32)), y ∈ pc.1.set :=
  View.cover_of_tiled [⟨wholeBlk, p0⟩] S1x1024x2048.size (by rfl) y

/-! ## The body's triple -/

set_option maxHeartbeats 1000000 in
/-- The body on whole staging buffers, the six inputs' reading `x0 … x5` and the output's holding anything, runs to
    the continuation with the inputs' unchanged and the output's reading `out1_6 x0 … x5`. -/
theorem sound_kernel1 (c : Dev nD) (E : Set ℕ) (i : grid1.Coords) (arg2 : Memref sig .tc .vmem S1x1024x2048 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x2048 .f32) (harg8 : arg8.IsWhole)
    (x0 x1 : Vec F S1x1024x2048 .f32) (x2 x3 x4 x5 : Vec F S1x1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (covers1_6 _)

/-! ## The pipeline's proof data -/

/-- The proof data of the region's pipeline on core `c`: the arrays as the region finds them; after the body at point
    `t` each input's buffer still at its block and the output's at `out1_6` of the six input blocks; nothing owed,
    full shares, and the invariant that only carries the untouched rest along. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d
theorem holds1_3 (c : Dev nD) (t : Fin cfg1.N) (d) : (dat1 V c).before 3 t d = iblk1 V c 3 t :=
  holds1_3_of V (dat1 V c) (A_eq1 V c 3) (after1_3 V c) t d
theorem holds1_4 (c : Dev nD) (t : Fin cfg1.N) (d) : (dat1 V c).before 4 t d = iblk1 V c 4 t :=
  holds1_4_of V (dat1 V c) (A_eq1 V c 4) (after1_4 V c) t d
theorem holds1_5 (c : Dev nD) (t : Fin cfg1.N) (d) : (dat1 V c).before 5 t d = iblk1 V c 5 t :=
  holds1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2, holds1_3, holds1_4, holds1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Bits.Run.lean ====
/-
  The whole run of the kernel program: @main is the pooling region, five stretches of host operations, the
  normalisation region, one last stretch. The contents of the TensorCore's unscoped buffers at every boundary are a
  fold from the launch memory: a region replaces its arrays by what its write-backs leave, a stretch applies its
  operations. Every weakly fair execution terminates and ends with every unscoped buffer at the last contents of that
  fold; the argument arrays, which nothing writes, end as launched.
-/
import proofs.«129208_j55336358642849_2_alg».proof.Proof.Bits.R0Body
import proofs.«129208_j55336358642849_2_alg».proof.Proof.Bits.R1Frame
import proofs.«129208_j55336358642849_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the pooling region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
/-- The normalisation region's entry contents. -/
abbrev V6 : (c : Dev nD) → (b : Ref sig .tc) → Buf (Elt F) ((c : Thread nD τ).loc b) := fun c b => W6 m ρ c b

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- At the end. -/
abbrev W8 : Dev nD → Valuation τ sig (Elt F) := fun c => StableHlo.after hostOps2 (W7 m ρ c)

/-! ## The proof data family and the thread state -/

abbrev adm' : (p : Fin 2) → (pcfgs (F := F) p).Adm := fun p => (cfgs p).toPCfg_adm
local notation "adm" => adm'
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    have hin := hin0 (V0 m ρ) c
    iintro ⟨Hp, -, Hr⟩
    iapply hin
    unfold Pipeline.ΦA
    isplitl [Hr]; · iexact Hr
    iexact Hp
  hout c := by
    rw [Pipeline.ownSems0_none, show (pdats m ρ 0 c).Φ (Fin.last _) = (dat0 (V0 m ρ) c).Φ (Fin.last cfg0.N) from rfl]
    have hout := hout0 (V0 m ρ) c
    iintro HΦ
    ihave H' := hout $$ HΦ
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ),
    .host (hseg hostOps2 hostOps2_sub hostOps2_fresh (W7 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.Bits.Frame.lean ====
/-
  The frame of the kernel program: nothing writes an argument array. A host stretch writes only its own results; the
  pooling region's arrays are the two big inputs (read through input windows: their write-back fold is the identity)
  and its output; the normalisation region's arrays are the two big inputs again, four host results and its output.
  So the fold of buffer contents, read at an argument, walks back to the launch memory, and the run's last contents
  give the frame.
-/
import proofs.«129208_j55336358642849_2_alg».proof.Proof.Bits.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A reference no stretch between the regions writes keeps, at the normalisation region's entry, what the pooling
    region left. -/
theorem W6_keep (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m ρ c r = W1 m ρ c r :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- An argument neither region stages bypasses both. -/
theorem W8_bypass (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) (h6 : ∀ w, Pipeline.arrRef spec1 w ≠ r) (h7 : r ∉ hostOps2_W) :
    W8 m ρ c r = m ((c : Thread nD τ).loc r) :=
  calc W8 m ρ c r
    _ = W7 m ρ c r := StableHlo.after_of_writes_sub hostOps2 _ hostOps2_writes h7
    _ = W6 m ρ c r := W7_of_ne m ρ c r h6
    _ = W1 m ρ c r := W6_keep m ρ c r h1 h2 h3 h4 h5
    _ = W0 m ρ c r := W1_of_ne m ρ c r h0
    _ = m ((c : Thread nD τ).loc r) := rfl

/-- The left input: an input array of both regions. -/
theorem W8_main_arg0 (c : Dev nD) : W8 m ρ c main_arg0 = m ((c : Thread nD τ).loc main_arg0) :=
  calc W8 m ρ c main_arg0
    _ = W7 m ρ c main_arg0 := StableHlo.after_of_writes_sub hostOps2 _ hostOps2_writes (by decide)
    _ = W6 m ρ c main_arg0 := (W7_arr m ρ c 0).trans (((dat1 (V6 m ρ) c).arrAt_in 0 rfl _).trans (A_eq1 (V6 m ρ) c 0))
    _ = W1 m ρ c main_arg0 := W6_keep m ρ c main_arg0 (by decide) (by decide) (by decide) (by decide) (by decide)
    _ = W0 m ρ c main_arg0 := (W1_arr m ρ c 0).trans (((dat0 (V0 m ρ) c).arrAt_in 0 rfl _).trans (A_eq0 (V0 m ρ) c 0))
    _ = m ((c : Thread nD τ).loc main_arg0) := rfl

/-- The right input likewise. -/
theorem W8_main_arg1 (c : Dev nD) : W8 m ρ c main_arg1 = m ((c : Thread nD τ).loc main_arg1) :=
  calc W8 m ρ c main_arg1
    _ = W7 m ρ c main_arg1 := StableHlo.after_of_writes_sub hostOps2 _ hostOps2_writes (by decide)
    _ = W6 m ρ c main_arg1 := (W7_arr m ρ c 1).trans (((dat1 (V6 m ρ) c).arrAt_in 1 rfl _).trans (A_eq1 (V6 m ρ) c 1))
    _ = W1 m ρ c main_arg1 := W6_keep m ρ c main_arg1 (by decide) (by decide) (by decide) (by decide) (by decide)
    _ = W0 m ρ c main_arg1 := (W1_arr m ρ c 1).trans (((dat0 (V0 m ρ) c).arrAt_in 1 rfl _).trans (A_eq0 (V0 m ρ) c 1))
    _ = m ((c : Thread nD τ).loc main_arg1) := rfl

theorem W8_main_arg2 (c : Dev nD) : W8 m ρ c main_arg2 = m ((c : Thread nD τ).loc main_arg2) :=
  W8_bypass m ρ c main_arg2 (by decide) (by decide) (by decide) (by decide) (by decide) (by decide) (by decide) (by decide)
theorem W8_main_arg3 (c : Dev nD) : W8 m ρ c main_arg3 = m ((c : Thread nD τ).loc main_arg3) :=
  W8_bypass m ρ c main_arg3 (by decide) (by decide) (by decide) (by decide) (by decide) (by decide) (by decide) (by decide)
theorem W8_main_arg4 (c : Dev nD) : W8 m ρ c main_arg4 = m ((c : Thread nD τ).loc main_arg4) :=
  W8_bypass m ρ c main_arg4 (by decide) (by decide) (by decide) (by decide) (by decide) (by decide) (by decide) (by decide)
theorem W8_main_arg5 (c : Dev nD) : W8 m ρ c main_arg5 = m ((c : Thread nD τ).loc main_arg5) :=
  W8_bypass m ρ c main_arg5 (by decide) (by decide) (by decide) (by decide) (by decide) (by decide) (by decide) (by decide)
theorem W8_main_arg6 (c : Dev nD) : W8 m ρ c main_arg6 = m ((c : Thread nD τ).loc main_arg6) :=
  W8_bypass m ρ c main_arg6 (by decide) (by decide) (by decide) (by decide) (by decide) (by decide) (by decide) (by decide)
theorem W8_main_arg7 (c : Dev nD) : W8 m ρ c main_arg7 = m ((c : Thread nD τ).loc main_arg7) :=
  W8_bypass m ρ c main_arg7 (by decide) (by decide) (by decide) (by decide) (by decide) (by decide) (by decide) (by decide)
theorem W8_main_arg8 (c : Dev nD) : W8 m ρ c main_arg8 = m ((c : Thread nD τ).loc main_arg8) :=
  W8_bypass m ρ c main_arg8 (by decide) (by decide) (by decide) (by decide) (by decide) (by decide) (by decide) (by decide)
theorem W8_main_arg9 (c : Dev nD) : W8 m ρ c main_arg9 = m ((c : Thread nD τ).loc main_arg9) :=
  W8_bypass m ρ c main_arg9 (by decide) (by decide) (by decide) (by decide) (by decide) (by decide) (by decide) (by decide)
theorem W8_main_arg10 (c : Dev nD) : W8 m ρ c main_arg10 = m ((c : Thread nD τ).loc main_arg10) :=
  W8_bypass m ρ c main_arg10 (by decide) (by decide) (by decide) (by decide) (by decide) (by decide) (by decide) (by decide)
theorem W8_main_arg11 (c : Dev nD) : W8 m ρ c main_arg11 = m ((c : Thread nD τ).loc main_arg11) :=
  W8_bypass m ρ c main_arg11 (by decide) (by decide) (by decide) (by decide) (by decide) (by decide) (by decide) (by decide)
theorem W8_main_arg12 (c : Dev nD) : W8 m ρ c main_arg12 = m ((c : Thread nD τ).loc main_arg12) :=
  W8_bypass m ρ c main_arg12 (by decide) (by decide) (by decide) (by decide) (by decide) (by decide) (by decide) (by decide)
theorem W8_main_arg13 (c : Dev nD) : W8 m ρ c main_arg13 = m ((c : Thread nD τ).loc main_arg13) :=
  W8_bypass m ρ c main_arg13 (by decide) (by decide) (by decide) (by decide) (by decide) (by decide) (by decide) (by decide)
theorem W8_main_arg14 (c : Dev nD) : W8 m ρ c main_arg14 = m ((c : Thread nD τ).loc main_arg14) :=
  W8_bypass m ρ c main_arg14 (by decide) (by decide) (by decide) (by decide) (by decide) (by decide) (by decide) (by decide)
theorem W8_main_arg15 (c : Dev nD) : W8 m ρ c main_arg15 = m ((c : Thread nD τ).loc main_arg15) :=
  W8_bypass m ρ c main_arg15 (by decide) (by decide) (by decide) (by decide) (by decide) (by decide) (by decide) (by decide)

/-- THE FRAME, at any float instance: every weakly fair execution terminates, nothing faulting, and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.Kernel.Hand

end
-- ==== Proof.R0Runs.lean ====
/-
  The pooling region (the first pallas_call): what its body's three control cases share.

  The grid is 8 batch rows by 4 tiles of 1024 positions; point t is batch row t / 4, tile t % 4. At tile 0 the body
  first zeroes its two accumulators; at every tile it adds the tile's column sums of the left and of the right input
  to them; at tile 3 it writes both accumulators, scaled by 1/4096, side by side into the output block of the row.
  Here: each window's block at a point read off the array the region finds; the two branch conditions decided over the
  grid; where the output window is idle; the staging and accumulator memrefs; and the region's resting invariant spelt
  out: the two accumulators at some contents, the other pallas_call's staging buffers at some contents, the
  generator register at some state.
-/
import proofs.«129208_j55336358642849_2_alg».proof.Proof.Gen.KernelIdeal.Launch
import proofs.«129208_j55336358642849_2_alg».proof.Proof.Gen.KernelIdeal.Skeleton
import proofs.«129208_j55336358642849_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
-- the TensorCore's buffer contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left input's current staging buffer holds its block at every point, for any proof data whose array is the
    region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, decided over the grid -/

/-- "This is tile 0": the accumulators are zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is tile 3": the scaled accumulators are written to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At tile 0 the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At tiles 1 and 2 likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At tile 3 it is live: the body stores into it. -/
theorem liveAt0_2_C : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S1x1x2048 .f32 := Memref.whole cc0_scratch0
abbrev scM0_1 : Memref sig .tc .vmem S1x1x2048 .f32 := Memref.whole cc0_scratch1
/-- Views through which contents are stated. -/
abbrev VO0_2 : View sig .tc .vmem S1x1x4096 .f32 := (Memref.whole cc0_stg2_0 : Memref sig .tc .vmem S1x1x4096 .f32).view
abbrev VS0_0 : View sig .tc .vmem S1x1x2048 .f32 := scM0_0.view
abbrev VS0_1 : View sig .tc .vmem S1x1x2048 .f32 := scM0_1.view

/-- The other pallas_call's staging buffers, each whole at some contents: scoped buffers this region never touches. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's resting invariant spelt out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.Hand

end
-- ==== Proof.R0RunA.lean ====
/-
  The pooling body at tile 0: both accumulators are zeroed, then each takes its tile's column sums; the output block is
  not touched. On whole memrefs — the two input blocks at their contents, the output buffer at contents handed back
  untouched, the accumulators at anything — the body runs to the end with each accumulator's stores as a list of pieces
  (last first), which the run itself determines.
-/
import proofs.«129208_j55336358642849_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun0_A (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 x1 : Vec F S1x1024x2048 .f32) :
    Σ' (L2 : List (View.Piece (Elt F) S1x1x4096 .f32)) (LS0 : List (View.Piece (Elt F) S1x1x2048 .f32)), { LS1 : List (View.Piece (Elt F) S1x1x2048 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Hand

end
-- ==== Proof.R0RunB.lean ====
/-
  The pooling body at tiles 1 and 2: each accumulator, found at what the tile before left, takes its tile's column
  sums; the output block is not touched. The accumulators' stores come out as lists of pieces the run determines.
-/
import proofs.«129208_j55336358642849_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun0_B (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 x1 : Vec F S1x1024x2048 .f32) (xs0 xs1 : Vec F S1x1x2048 .f32) :
    Σ' (L2 : List (View.Piece (Elt F) S1x1x4096 .f32)) (LS0 : List (View.Piece (Elt F) S1x1x2048 .f32)), { LS1 : List (View.Piece (Elt F) S1x1x2048 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Hand

end
-- ==== Proof.R0RunC.lean ====
/-
  The pooling body at tile 3: each accumulator, found at what tile 2 left, takes its tile's column sums; then the left
  accumulator times 1/4096 is stored into the first half of the output block and the right one into the second half.
  The stores into the accumulators and into the output buffer come out as lists of pieces the run determines.
-/
import proofs.«129208_j55336358642849_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 x1 : Vec F S1x1024x2048 .f32) (xs0 xs1 : Vec F S1x1x2048 .f32) :
    Σ' (L2 : List (View.Piece (Elt F) S1x1x4096 .f32)) (LS0 : List (View.Piece (Elt F) S1x1x2048 .f32)), { LS1 : List (View.Piece (Elt F) S1x1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; iexact HS1

end Cert.KernelIdeal.Hand

end
-- ==== Proof.R0Pieces.lean ====
/-
  The pooling region: what each control case of its body leaves in the output buffer and the two accumulators.

  Each is the case's list of stores, which its run found, read back as one vector; the stores into an accumulator
  always cover it, and at tile 3 the two stores into the output buffer cover it.
-/
import proofs.«129208_j55336358642849_2_alg».proof.Proof.R0RunA
import proofs.«129208_j55336358642849_2_alg».proof.Proof.R0RunB
import proofs.«129208_j55336358642849_2_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, read back from the pieces its run found -/

/-- Tile 0 leaves the output buffer alone: a placeholder nothing consults. -/
def out0_A_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)
theorem scover0_A_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) (y : S1x1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x2048.size (by sl_kernel_rfl) y
theorem scover0_A_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) (y : S1x1x2048.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1x2048.size (by sl_kernel_rfl) y
/-- What tile 0 leaves in the left accumulator, -/
def sout0_A_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x2048 .f32 :=
  VS0_0.read (Elt F) (VS0_0.writes (Elt F) VS0_0.junk (kernelRun0_A c i arg2 harg2 arg3 harg3 arg4 harg4 arg5 harg5 arg6 harg6 hc0 hc1 x0 x1).2.1)
/-- and in the right one. -/
def sout0_A_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) : Vec F S1x1x2048 .f32 :=
  VS0_1.read (Elt F) (VS0_1.writes (Elt F) VS0_1.junk (kernelRun0_A c i arg2 harg2 arg3 harg3 arg4 harg4 arg5 harg5 arg6 harg6 hc0 hc1 x0 x1).2.2.1)

/-- Tiles 1 and 2 leave the output buffer alone too. -/
def out0_B_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0 xs1).1)
theorem scover0_B_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x1x2048.size (by sl_kernel_rfl) y
theorem scover0_B_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1x2048.size (by sl_kernel_rfl) y
def sout0_B_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x2048 .f32 :=
  VS0_0.read (Elt F) (VS0_0.writes (Elt F) VS0_0.junk (kernelRun0_B c i arg2 harg2 arg3 harg3 arg4 harg4 arg5 harg5 arg6 harg6 hc0 hc1 x0 x1 xs0 xs1).2.1)
def sout0_B_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) : Vec F S1x1x2048 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- At tile 3 the two stores into the output buffer tile it. -/
theorem cover0_C_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x4096.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y
/-- What tile 3 leaves in the output buffer. -/
def out0_C_2 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0 xs1).1)
theorem scover0_C_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x1x2048.size (by sl_kernel_rfl) y
theorem scover0_C_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1x2048.size (by sl_kernel_rfl) y
def sout0_C_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x2048 .f32 :=
  VS0_0.read (Elt F) (VS0_0.writes (Elt F) VS0_0.junk (kernelRun0_C c i arg2 harg2 arg3 harg3 arg4 harg4 arg5 harg5 arg6 harg6 hc0 hc1 x0 x1 xs0 xs1).2.1)
def sout0_C_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) : Vec F S1x1x2048 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

end Cert.KernelIdeal.Hand

end
-- ==== Proof.R0Acc.lean ====
/-
  The pooling region: what its buffers hold after every grid point, and its body obligation.

  After point t (batch row t / 4, tile t % 4) the left accumulator holds the column sums of the row's first t % 4 + 1
  tiles of the left input, the right accumulator those of the right input: at tile 0 the body starts from zero, at a
  later tile from what the point before left (`outsAt0`, by recursion on the point through `stepAt0`). The
  region's invariant after a point says exactly that of the two accumulators (`PhiS`); the output window's buffer
  matters only at tile 3, where it holds the two accumulators scaled by 1/4096, side by side. The obligation is the
  case's run at every point.
-/
import proofs.«129208_j55336358642849_2_alg».proof.Proof.R0Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Contents nothing consults. -/
abbrev junkS : Vec F S1x1x2048 .f32 := VS0_0.read (Elt F) VS0_0.junk

/-- ONE POINT: what the output buffer and the two accumulators hold after the body at point `t`, given what the
    accumulators held before it (`prev`, which tile 0 ignores): the case the tile selects. -/
def stepAt0 (c : Dev nD) (t : Fin cfg0.N) (prev : Vec F S1x1x2048 .f32 × Vec F S1x1x2048 .f32) :
    Vec F S1x1x4096 .f32 × Vec F S1x1x2048 .f32 × Vec F S1x1x2048 .f32 :=
  if h0 : t.val % 4 = 0 then
    (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t),
     sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t),
     sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => by have := (hcond0_1 t).mp h; omega) (iblk0 V c 0 t) (iblk0 V c 1 t))
  else if h1 : t.val % 4 = 3 then
    (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2,
     sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2,
     sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2)
  else
    (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2,
     sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2,
     sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)

/-- THE ACCUMULATION: what the output buffer and the two accumulators hold after the body at position `n`. -/
def outsAt0 (c : Dev nD) : (n : ℕ) → n < cfg0.N → Vec F S1x1x4096 .f32 × Vec F S1x1x2048 .f32 × Vec F S1x1x2048 .f32
  | 0, hn => stepAt0 V c ⟨0, hn⟩ (junkS, junkS)
  | n + 1, hn => stepAt0 V c ⟨n + 1, hn⟩ (outsAt0 c n (Nat.lt_of_succ_lt hn)).2

/-- What the accumulators hold before point `t`. -/
def prevAt0 (c : Dev nD) (t : Fin cfg0.N) : Vec F S1x1x2048 .f32 × Vec F S1x1x2048 .f32 :=
  if h : t.val = 0 then (junkS, junkS) else (outsAt0 V c (t.val - 1) (by have := t.isLt; omega)).2

theorem outsAt0_eq (c : Dev nD) (t : Fin cfg0.N) : outsAt0 V c t.val t.isLt = stepAt0 V c t (prevAt0 V c t) := by
  obtain ⟨n, hn⟩ := t
  cases n with
  | zero => rfl
  | succ n => rfl

/-- The region invariant before position `n`: before the first point the resting one; afterwards the two
    accumulators at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Hand

end
-- ==== Proof.R0Body.lean ====
/-
  The pooling region's body obligation: at every grid point the body, called on the windows' staging buffers and the
  two accumulators as the invariant holds them, leaves the invariant of the next point.

  Tile 0 takes the accumulators at anything (the resting invariant at the very first point, the row before's final
  sums afterwards) and leaves them at the first tile's column sums; tiles 1 and 2 take them at what the point before
  left; tile 3 also fills the output buffer. The output window is idle at tiles 0 to 2: its buffer is handed back as
  found. The core owes nothing throughout.
-/
import proofs.«129208_j55336358642849_2_alg».proof.Proof.R0Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [outsAt0_eq V c t]
  by_cases h0 : t.val % 4 = 0
  · -- tile 0
    have h1 : ¬ t.val % 4 = 3 := by omega
    rw [Dat.leavesExact_idle (dat0 V c) 2 t (idleAt0_2_A t ((hcond0_0 t).mpr h0) (fun h => by have := (hcond0_1 t).mp h; omega)) (noFlush0_2_A t ((hcond0_0 t).mpr h0) (fun h => by have := (hcond0_1 t).mp h; omega))]
    rw [show stepAt0 V c t (prevAt0 V c t) = _ from dif_pos h0]
    unfold sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => by have := (hcond0_1 t).mp h; omega) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => by have := (hcond0_1 t).mp h; omega) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 4 = 3
    · -- tile 3
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2, outsAt0_eq V c t]
      rw [show stepAt0 V c t (prevAt0 V c t) = _ from (dif_neg h0).trans (dif_pos h1)]
      unfold out0_C_2 sout0_C_0 sout0_C_1; (try dsimp only)
      rw [PhiS_castSucc V c t, PhiS_pos V c _ _ hz, show prevAt0 V c t = _ from dif_neg hz]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · -- tiles 1 and 2
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [show stepAt0 V c t (prevAt0 V c t) = _ from (dif_neg h0).trans (dif_neg h1)]
      unfold sout0_B_0 sout0_B_1; (try dsimp only)
      rw [PhiS_castSucc V c t, PhiS_pos V c _ _ hz, show prevAt0 V c t = _ from dif_neg hz]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.R1Frame.lean ====
/-
  The second grid region (the layer normalisation over the gated mix) as a pipeline of seven windows, at any float
  instance: what each window's staging buffer holds when the body runs at a grid point, what the body leaves in the
  output window's buffer as a function of the six input blocks, and the body's obligation at every grid point.

  The grid is 8 × 4: point (b, q) handles rows 1024·q … 1024·q + 1023 of batch row b. Windows 0 and 1 are the
  [1, 1024, 2048] blocks of the two inputs at (b, q); windows 2 and 3 the [1, 1, 2048] rows of the gate and of the
  bias at b (the same block for the four points of a batch row); windows 4 and 5 the whole [1, 1, 2048] scale and
  shift (one block for all points); window 6 the [1, 1024, 2048] block of the result at (b, q). The body reads the six
  input blocks whole and writes the whole output block once, so what it leaves there is that one write's value.
-/
import proofs.«129208_j55336358642849_2_alg».proof.Proof.Gen.KernelIdeal.Launch
import proofs.«129208_j55336358642849_2_alg».proof.Proof.Gen.KernelIdeal.Skeleton
import proofs.«129208_j55336358642849_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the core's buffers when the region is entered: a parameter
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block there, whether the
    block was moved in at that point or is the one already present because the block index did not change. -/
theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer holds the window's block there, whether the
    block was moved in at that point or is the one already present because the block index did not change. -/
theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer holds the window's block there, whether the
    block was moved in at that point or is the one already present because the block index did not change. -/
theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer holds the window's block there, whether the
    block was moved in at that point or is the one already present because the block index did not change. -/
theorem holds1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its current staging buffer holds the window's block there, whether the
    block was moved in at that point or is the one already present because the block index did not change. -/
theorem holds1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every grid point its current staging buffer holds the window's block there, whether the
    block was moved in at that point or is the one already present because the block index did not change. -/
theorem holds1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

/-- The whole of a [1, 1024, 2048] buffer. -/
abbrev wholeBlk : Rect S1x1024x2048 := Rect.unit (s := S1x1024x2048) ![0, 0, 0] S1x1024x2048.size inb_S1x1024x2048_S1x1024x2048_0_0_0
/-- The whole of a [1, 1, 2048] buffer. -/
abbrev wholeRow : Rect S1x1x2048 := Rect.unit (s := S1x1x2048) ![0, 0, 0] S1x1x2048.size inb_S1x1x2048_S1x1x2048_0_0_0

/-! ## What the body leaves in the output window's buffer -/

/-- The output window's buffer after the body, from the six input blocks: the one store's value, which is the
    normalised mix times the scale (computed from windows 0–4) plus the shift (window 5). -/
def out1_6 (x0 x1 : Vec F S1x1024x2048 .f32) (x2 x3 x4 x5 : Vec F S1x1x2048 .f32) : Vec F S1x1024x2048 .f32 :=
  View.canon [⟨wholeBlk, k1_pay1 (k1_pay2 (View.ld x0 wholeBlk) (View.ld x1 wholeBlk) (View.ld x2 wholeRow) (View.ld x3 wholeRow) (View.ld x4 wholeRow)) (View.ld x5 wholeRow)⟩]

/-- The one store is of the whole buffer, so it covers it. -/
theorem covers1_6 (p0 : Vec F S1x1024x2048 .f32) (y : S1x1024x2048.Idx) :
    ∃ pc ∈ ([⟨wholeBlk, p0⟩] : List (View.Piece (Elt F) S1x1024x2048 .f32)), y ∈ pc.1.set :=
  View.cover_of_tiled [⟨wholeBlk, p0⟩] S1x1024x2048.size (by rfl) y

/-! ## The body's triple -/

set_option maxHeartbeats 1000000 in
/-- The body on whole staging buffers, the six inputs' reading `x0 … x5` and the output's holding anything, runs to
    the continuation with the inputs' unchanged and the output's reading `out1_6 x0 … x5`. -/
theorem sound_kernel1 (c : Dev nD) (E : Set ℕ) (i : grid1.Coords) (arg2 : Memref sig .tc .vmem S1x1024x2048 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x2048 .f32) (harg8 : arg8.IsWhole)
    (x0 x1 : Vec F S1x1024x2048 .f32) (x2 x3 x4 x5 : Vec F S1x1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (covers1_6 _)

/-! ## The pipeline's proof data -/

/-- The proof data of the region's pipeline on core `c`: the arrays as the region finds them; after the body at point
    `t` each input's buffer still at its block and the output's at `out1_6` of the six input blocks; nothing owed,
    full shares, and the invariant that only carries the untouched rest along. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d
theorem holds1_3 (c : Dev nD) (t : Fin cfg1.N) (d) : (dat1 V c).before 3 t d = iblk1 V c 3 t :=
  holds1_3_of V (dat1 V c) (A_eq1 V c 3) (after1_3 V c) t d
theorem holds1_4 (c : Dev nD) (t : Fin cfg1.N) (d) : (dat1 V c).before 4 t d = iblk1 V c 4 t :=
  holds1_4_of V (dat1 V c) (A_eq1 V c 4) (after1_4 V c) t d
theorem holds1_5 (c : Dev nD) (t : Fin cfg1.N) (d) : (dat1 V c).before 5 t d = iblk1 V c 5 t :=
  holds1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2, holds1_3, holds1_4, holds1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole run of the kernel program: @main is the pooling region, five stretches of host operations, the
  normalisation region, one last stretch. The contents of the TensorCore's unscoped buffers at every boundary are a
  fold from the launch memory: a region replaces its arrays by what its write-backs leave, a stretch applies its
  operations. Every weakly fair execution terminates and ends with every unscoped buffer at the last contents of that
  fold; the argument arrays, which nothing writes, end as launched.
-/
import proofs.«129208_j55336358642849_2_alg».proof.Proof.R0Body
import proofs.«129208_j55336358642849_2_alg».proof.Proof.R1Frame
import proofs.«129208_j55336358642849_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the pooling region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
/-- The normalisation region's entry contents. -/
abbrev V6 : (c : Dev nD) → (b : Ref sig .tc) → Buf (Elt F) ((c : Thread nD τ).loc b) := fun c b => W6 m ρ c b

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- At the end. -/
abbrev W8 : Dev nD → Valuation τ sig (Elt F) := fun c => StableHlo.after hostOps2 (W7 m ρ c)

/-! ## The proof data family and the thread state -/

abbrev adm' : (p : Fin 2) → (pcfgs (F := F) p).Adm := fun p => (cfgs p).toPCfg_adm
local notation "adm" => adm'
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    have hin := hin0 (V0 m ρ) c
    iintro ⟨Hp, -, Hr⟩
    iapply hin
    unfold Pipeline.ΦA
    isplitl [Hr]; · iexact Hr
    iexact Hp
  hout c := by
    rw [Pipeline.ownSems0_none, show (pdats m ρ 0 c).Φ (Fin.last _) = (dat0 (V0 m ρ) c).Φ (Fin.last cfg0.N) from rfl]
    have hout := hout0 (V0 m ρ) c
    iintro HΦ
    ihave H' := hout $$ HΦ
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ),
    .host (hseg hostOps2 hostOps2_sub hostOps2_fresh (W7 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.Frame.lean ====
/-
  The frame of the kernel program: nothing writes an argument array. A host stretch writes only its own results; the
  pooling region's arrays are the two big inputs (read through input windows: their write-back fold is the identity)
  and its output; the normalisation region's arrays are the two big inputs again, four host results and its output.
  So the fold of buffer contents, read at an argument, walks back to the launch memory, and the run's last contents
  give the frame.
-/
import proofs.«129208_j55336358642849_2_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A reference no stretch between the regions writes keeps, at the normalisation region's entry, what the pooling
    region left. -/
theorem W6_keep (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m ρ c r = W1 m ρ c r :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- An argument neither region stages bypasses both. -/
theorem W8_bypass (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) (h6 : ∀ w, Pipeline.arrRef spec1 w ≠ r) (h7 : r ∉ hostOps2_W) :
    W8 m ρ c r = m ((c : Thread nD τ).loc r) :=
  calc W8 m ρ c r
    _ = W7 m ρ c r := StableHlo.after_of_writes_sub hostOps2 _ hostOps2_writes h7
    _ = W6 m ρ c r := W7_of_ne m ρ c r h6
    _ = W1 m ρ c r := W6_keep m ρ c r h1 h2 h3 h4 h5
    _ = W0 m ρ c r := W1_of_ne m ρ c r h0
    _ = m ((c : Thread nD τ).loc r) := rfl

/-- The left input: an input array of both regions. -/
theorem W8_main_arg0 (c : Dev nD) : W8 m ρ c main_arg0 = m ((c : Thread nD τ).loc main_arg0) :=
  calc W8 m ρ c main_arg0
    _ = W7 m ρ c main_arg0 := StableHlo.after_of_writes_sub hostOps2 _ hostOps2_writes (by decide)
    _ = W6 m ρ c main_arg0 := (W7_arr m ρ c 0).trans (((dat1 (V6 m ρ) c).arrAt_in 0 rfl _).trans (A_eq1 (V6 m ρ) c 0))
    _ = W1 m ρ c main_arg0 := W6_keep m ρ c main_arg0 (by decide) (by decide) (by decide) (by decide) (by decide)
    _ = W0 m ρ c main_arg0 := (W1_arr m ρ c 0).trans (((dat0 (V0 m ρ) c).arrAt_in 0 rfl _).trans (A_eq0 (V0 m ρ) c 0))
    _ = m ((c : Thread nD τ).loc main_arg0) := rfl

/-- The right input likewise. -/
theorem W8_main_arg1 (c : Dev nD) : W8 m ρ c main_arg1 = m ((c : Thread nD τ).loc main_arg1) :=
  calc W8 m ρ c main_arg1
    _ = W7 m ρ c main_arg1 := StableHlo.after_of_writes_sub hostOps2 _ hostOps2_writes (by decide)
    _ = W6 m ρ c main_arg1 := (W7_arr m ρ c 1).trans (((dat1 (V6 m ρ) c).arrAt_in 1 rfl _).trans (A_eq1 (V6 m ρ) c 1))
    _ = W1 m ρ c main_arg1 := W6_keep m ρ c main_arg1 (by decide) (by decide) (by decide) (by decide) (by decide)
    _ = W0 m ρ c main_arg1 := (W1_arr m ρ c 1).trans (((dat0 (V0 m ρ) c).arrAt_in 1 rfl _).trans (A_eq0 (V0 m ρ) c 1))
    _ = m ((c : Thread nD τ).loc main_arg1) := rfl

theorem W8_main_arg2 (c : Dev nD) : W8 m ρ c main_arg2 = m ((c : Thread nD τ).loc main_arg2) :=
  W8_bypass m ρ c main_arg2 (by decide) (by decide) (by decide) (by decide) (by decide) (by decide) (by decide) (by decide)
theorem W8_main_arg3 (c : Dev nD) : W8 m ρ c main_arg3 = m ((c : Thread nD τ).loc main_arg3) :=
  W8_bypass m ρ c main_arg3 (by decide) (by decide) (by decide) (by decide) (by decide) (by decide) (by decide) (by decide)
theorem W8_main_arg4 (c : Dev nD) : W8 m ρ c main_arg4 = m ((c : Thread nD τ).loc main_arg4) :=
  W8_bypass m ρ c main_arg4 (by decide) (by decide) (by decide) (by decide) (by decide) (by decide) (by decide) (by decide)
theorem W8_main_arg5 (c : Dev nD) : W8 m ρ c main_arg5 = m ((c : Thread nD τ).loc main_arg5) :=
  W8_bypass m ρ c main_arg5 (by decide) (by decide) (by decide) (by decide) (by decide) (by decide) (by decide) (by decide)
theorem W8_main_arg6 (c : Dev nD) : W8 m ρ c main_arg6 = m ((c : Thread nD τ).loc main_arg6) :=
  W8_bypass m ρ c main_arg6 (by decide) (by decide) (by decide) (by decide) (by decide) (by decide) (by decide) (by decide)
theorem W8_main_arg7 (c : Dev nD) : W8 m ρ c main_arg7 = m ((c : Thread nD τ).loc main_arg7) :=
  W8_bypass m ρ c main_arg7 (by decide) (by decide) (by decide) (by decide) (by decide) (by decide) (by decide) (by decide)
theorem W8_main_arg8 (c : Dev nD) : W8 m ρ c main_arg8 = m ((c : Thread nD τ).loc main_arg8) :=
  W8_bypass m ρ c main_arg8 (by decide) (by decide) (by decide) (by decide) (by decide) (by decide) (by decide) (by decide)
theorem W8_main_arg9 (c : Dev nD) : W8 m ρ c main_arg9 = m ((c : Thread nD τ).loc main_arg9) :=
  W8_bypass m ρ c main_arg9 (by decide) (by decide) (by decide) (by decide) (by decide) (by decide) (by decide) (by decide)
theorem W8_main_arg10 (c : Dev nD) : W8 m ρ c main_arg10 = m ((c : Thread nD τ).loc main_arg10) :=
  W8_bypass m ρ c main_arg10 (by decide) (by decide) (by decide) (by decide) (by decide) (by decide) (by decide) (by decide)
theorem W8_main_arg11 (c : Dev nD) : W8 m ρ c main_arg11 = m ((c : Thread nD τ).loc main_arg11) :=
  W8_bypass m ρ c main_arg11 (by decide) (by decide) (by decide) (by decide) (by decide) (by decide) (by decide) (by decide)
theorem W8_main_arg12 (c : Dev nD) : W8 m ρ c main_arg12 = m ((c : Thread nD τ).loc main_arg12) :=
  W8_bypass m ρ c main_arg12 (by decide) (by decide) (by decide) (by decide) (by decide) (by decide) (by decide) (by decide)
theorem W8_main_arg13 (c : Dev nD) : W8 m ρ c main_arg13 = m ((c : Thread nD τ).loc main_arg13) :=
  W8_bypass m ρ c main_arg13 (by decide) (by decide) (by decide) (by decide) (by decide) (by decide) (by decide) (by decide)
theorem W8_main_arg14 (c : Dev nD) : W8 m ρ c main_arg14 = m ((c : Thread nD τ).loc main_arg14) :=
  W8_bypass m ρ c main_arg14 (by decide) (by decide) (by decide) (by decide) (by decide) (by decide) (by decide) (by decide)
theorem W8_main_arg15 (c : Dev nD) : W8 m ρ c main_arg15 = m ((c : Thread nD τ).loc main_arg15) :=
  W8_bypass m ρ c main_arg15 (by decide) (by decide) (by decide) (by decide) (by decide) (by decide) (by decide) (by decide)

/-- THE FRAME, at any float instance: every weakly fair execution terminates, nothing faulting, and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.KernelIdeal.Hand

end
-- ==== Proof.RefOps.lean ====
/-
  The reference's operations, in order, as lists: one list per step of the computation, the outlined
  functions' operations standing at their call sites over the buffers of that call.  The first eight lists
  are the statements of the first printed window, the other five those of the second.
-/
import proofs.«129208_j55336358642849_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two column means over the 4096 positions and their concatenation. -/
abbrev opsPool : List (HloOp τ sig (Elt F)) :=
  [ nullary main_cst (constant S_ .f32 0x00000000#32),
    binary main_arg0 main_cst main_v0 ((fun x v => Host.reduceAdd x v reducesTo_S8x4096x2048_S8x2048_d1 h_S_) : (⟨S8x4096x2048, .f32⟩ : BufTy).Contents (Elt F) → (⟨S_, .f32⟩ : BufTy).Contents (Elt F) → (⟨S8x2048, .f32⟩ : BufTy).Contents (Elt F)),
    nullary main_cst_0 (constant S_ .f32 0x45800000#32),
    unary main_cst_0 main_v1 (broadcastInDim S8x2048 ![] bcast_S_S8x2048 : (⟨S_, .f32⟩ : BufTy).Contents (Elt F) → (⟨S8x2048, .f32⟩ : BufTy).Contents (Elt F)),
    binary main_v0 main_v1 main_v2 (Host.divf : (⟨S8x2048, .f32⟩ : BufTy).Contents (Elt F) → (⟨S8x2048, .f32⟩ : BufTy).Contents (Elt F) → (⟨S8x2048, .f32⟩ : BufTy).Contents (Elt F)),
    nullary main_cst_1 (constant S_ .f32 0x00000000#32),
    binary main_arg1 main_cst_1 main_v3 ((fun x v => Host.reduceAdd x v reducesTo_S8x4096x2048_S8x2048_d1 h_S_) : (⟨S8x4096x2048, .f32⟩ : BufTy).Contents (Elt F) → (⟨S_, .f32⟩ : BufTy).Contents (Elt F) → (⟨S8x2048, .f32⟩ : BufTy).Contents (Elt F)),
    nullary main_cst_2 (constant S_ .f32 0x45800000#32),
    unary main_cst_2 main_v4 (broadcastInDim S8x2048 ![] bcast_S_S8x2048 : (⟨S_, .f32⟩ : BufTy).Contents (Elt F) → (⟨S8x2048, .f32⟩ : BufTy).Contents (Elt F)),
    binary main_v3 main_v4 main_v5 (Host.divf : (⟨S8x2048, .f32⟩ : BufTy).Contents (Elt F) → (⟨S8x2048, .f32⟩ : BufTy).Contents (Elt F) → (⟨S8x2048, .f32⟩ : BufTy).Contents (Elt F)),
    binary main_v2 main_v5 main_v6 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)) ]

/-- The gate: the logistic function of the first linear layer of the pooled row. -/
abbrev opsGate : List (HloOp τ sig (Elt F)) :=
  [ unary main_arg2 main_v7 ((transpose S4096x2048 [1, 0] · transposes_S2048x4096_S4096x2048_1_0) : (⟨S2048x4096, .f32⟩ : BufTy).Contents (Elt F) → (⟨S4096x2048, .f32⟩ : BufTy).Contents (Elt F)),
    binary main_v6 main_v7 main_v8 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    unary main_arg3 main_v9 (broadcastInDim S1x2048 ![1] bcast_S2048_S1x2048_1 : (⟨S2048, .f32⟩ : BufTy).Contents (Elt F) → (⟨S1x2048, .f32⟩ : BufTy).Contents (Elt F)),
    unary main_v9 main_v10 (broadcastInDim S8x2048 ![0, 1] bcast_S1x2048_S8x2048_0_1 : (⟨S1x2048, .f32⟩ : BufTy).Contents (Elt F) → (⟨S8x2048, .f32⟩ : BufTy).Contents (Elt F)),
    binary main_v8 main_v10 main_v11 (addf : (⟨S8x2048, .f32⟩ : BufTy).Contents (Elt F) → (⟨S8x2048, .f32⟩ : BufTy).Contents (Elt F) → (⟨S8x2048, .f32⟩ : BufTy).Contents (Elt F)),
    unary main_v11 main_v12 (Host.negf : (⟨S8x2048, .f32⟩ : BufTy).Contents (Elt F) → (⟨S8x2048, .f32⟩ : BufTy).Contents (Elt F)),
    unary main_v12 main_v13 (Host.exp : (⟨S8x2048, .f32⟩ : BufTy).Contents (Elt F) → (⟨S8x2048, .f32⟩ : BufTy).Contents (Elt F)),
    nullary main_cst_3 (constant S_ .f32 0x3F800000#32),
    unary main_cst_3 main_v14 (broadcastInDim S8x2048 ![] bcast_S_S8x2048 : (⟨S_, .f32⟩ : BufTy).Contents (Elt F) → (⟨S8x2048, .f32⟩ : BufTy).Contents (Elt F)),
    binary main_v14 main_v13 main_v15 (addf : (⟨S8x2048, .f32⟩ : BufTy).Contents (Elt F) → (⟨S8x2048, .f32⟩ : BufTy).Contents (Elt F) → (⟨S8x2048, .f32⟩ : BufTy).Contents (Elt F)),
    nullary main_cst_4 (constant S_ .f32 0x3F800000#32),
    unary main_cst_4 main_v16 (broadcastInDim S8x2048 ![] bcast_S_S8x2048 : (⟨S_, .f32⟩ : BufTy).Contents (Elt F) → (⟨S8x2048, .f32⟩ : BufTy).Contents (Elt F)),
    binary main_v16 main_v15 main_v17 (Host.divf : (⟨S8x2048, .f32⟩ : BufTy).Contents (Elt F) → (⟨S8x2048, .f32⟩ : BufTy).Contents (Elt F) → (⟨S8x2048, .f32⟩ : BufTy).Contents (Elt F)) ]

/-- The gated mix of the two inputs. -/
abbrev opsMix : List (HloOp τ sig (Elt F)) :=
  [ unary main_v17 main_v18 (broadcastInDim S8x1x2048 ![0, 2] bcast_S8x2048_S8x1x2048_0_2 : (⟨S8x2048, .f32⟩ : BufTy).Contents (Elt F) → (⟨S8x1x2048, .f32⟩ : BufTy).Contents (Elt F)),
    nullary main_cst_5 (constant S_ .f32 0x3F800000#32),
    unary main_cst_5 main_v19 (broadcastInDim S8x1x2048 ![] bcast_S_S8x1x2048 : (⟨S_, .f32⟩ : BufTy).Contents (Elt F) → (⟨S8x1x2048, .f32⟩ : BufTy).Contents (Elt F)),
    binary main_v19 main_v18 main_v20 (subf : (⟨S8x1x2048, .f32⟩ : BufTy).Contents (Elt F) → (⟨S8x1x2048, .f32⟩ : BufTy).Contents (Elt F) → (⟨S8x1x2048, .f32⟩ : BufTy).Contents (Elt F)),
    unary main_v20 main_v21 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    binary main_v21 main_arg0 main_v22 (mulf : (⟨S8x4096x2048, .f32⟩ : BufTy).Contents (Elt F) → (⟨S8x4096x2048, .f32⟩ : BufTy).Contents (Elt F) → (⟨S8x4096x2048, .f32⟩ : BufTy).Contents (Elt F)),
    unary main_v18 main_v23 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    binary main_v23 main_arg1 main_v24 (mulf : (⟨S8x4096x2048, .f32⟩ : BufTy).Contents (Elt F) → (⟨S8x4096x2048, .f32⟩ : BufTy).Contents (Elt F) → (⟨S8x4096x2048, .f32⟩ : BufTy).Contents (Elt F)),
    binary main_v22 main_v24 main_v25 (addf : (⟨S8x4096x2048, .f32⟩ : BufTy).Contents (Elt F) → (⟨S8x4096x2048, .f32⟩ : BufTy).Contents (Elt F) → (⟨S8x4096x2048, .f32⟩ : BufTy).Contents (Elt F)) ]

/-- The fusion branch's first layer: a linear layer and x * logistic x. -/
abbrev opsFusionA : List (HloOp τ sig (Elt F)) :=
  [ unary main_arg4 main_v26 ((transpose S4096x4096 [1, 0] · transposes_S4096x4096_S4096x4096_1_0) : (⟨S4096x4096, .f32⟩ : BufTy).Contents (Elt F) → (⟨S4096x4096, .f32⟩ : BufTy).Contents (Elt F)),
    binary main_v6 main_v26 main_v27 ((fun l r => Host.dotGeneral dot_S8x4096_S4096x4096_S8x4096_1_0_0_1_n_n none l r) : (⟨S8x4096, .f32⟩ : BufTy).Contents (Elt F) → (⟨S4096x4096, .f32⟩ : BufTy).Contents (Elt F) → (⟨S8x4096, .f32⟩ : BufTy).Contents (Elt F)),
    unary main_arg5 main_v28 (broadcastInDim S1x4096 ![1] bcast_S4096_S1x4096_1 : (⟨S4096, .f32⟩ : BufTy).Contents (Elt F) → (⟨S1x4096, .f32⟩ : BufTy).Contents (Elt F)),
    unary main_v28 main_v29 (broadcastInDim S8x4096 ![0, 1] bcast_S1x4096_S8x4096_0_1 : (⟨S1x4096, .f32⟩ : BufTy).Contents (Elt F) → (⟨S8x4096, .f32⟩ : BufTy).Contents (Elt F)),
    binary main_v27 main_v29 main_v30 (addf : (⟨S8x4096, .f32⟩ : BufTy).Contents (Elt F) → (⟨S8x4096, .f32⟩ : BufTy).Contents (Elt F) → (⟨S8x4096, .f32⟩ : BufTy).Contents (Elt F)),
    TRef.unary (.of main_v30 : StableHlo.TRef sig ⟨S8x4096, .f32⟩) main_call0.v0 Host.negf,
    TRef.unary main_call0.v0 main_call0.v1 Host.exp,
    TRef.nullary main_call0.cst (constant S_ .f32 0x3F800000#32),
    TRef.unary main_call0.cst main_call0.v2 (broadcastInDim S8x4096 ![] bcast_S_S8x4096),
    TRef.binary main_call0.v2 main_call0.v1 main_call0.v3 addf,
    TRef.nullary main_call0.cst_0 (constant S_ .f32 0x3F800000#32),
    TRef.unary main_call0.cst_0 main_call0.v4 (broadcastInDim S8x4096 ![] bcast_S_S8x4096),
    TRef.binary main_call0.v4 main_call0.v3 main_call0.v5 Host.divf,
    TRef.binary (.of main_v30 : StableHlo.TRef sig ⟨S8x4096, .f32⟩) main_call0.v5 main_call0.v6 mulf ]

/-- Its second layer, the same shape. -/
abbrev opsFusionB : List (HloOp τ sig (Elt F)) :=
  [ unary main_arg6 main_v32 ((transpose S4096x2048 [1, 0] · transposes_S2048x4096_S4096x2048_1_0) : (⟨S2048x4096, .f32⟩ : BufTy).Contents (Elt F) → (⟨S4096x2048, .f32⟩ : BufTy).Contents (Elt F)),
    binary main_v31 main_v32 main_v33 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    unary main_arg7 main_v34 (broadcastInDim S1x2048 ![1] bcast_S2048_S1x2048_1 : (⟨S2048, .f32⟩ : BufTy).Contents (Elt F) → (⟨S1x2048, .f32⟩ : BufTy).Contents (Elt F)),
    unary main_v34 main_v35 (broadcastInDim S8x2048 ![0, 1] bcast_S1x2048_S8x2048_0_1 : (⟨S1x2048, .f32⟩ : BufTy).Contents (Elt F) → (⟨S8x2048, .f32⟩ : BufTy).Contents (Elt F)),
    binary main_v33 main_v35 main_v36 (addf : (⟨S8x2048, .f32⟩ : BufTy).Contents (Elt F) → (⟨S8x2048, .f32⟩ : BufTy).Contents (Elt F) → (⟨S8x2048, .f32⟩ : BufTy).Contents (Elt F)),
    TRef.unary (.of main_v36 : StableHlo.TRef sig ⟨S8x2048, .f32⟩) main_call1.v0 Host.negf,
    TRef.unary main_call1.v0 main_call1.v1 Host.exp,
    TRef.nullary main_call1.cst (constant S_ .f32 0x3F800000#32),
    TRef.unary main_call1.cst main_call1.v2 (broadcastInDim S8x2048 ![] bcast_S_S8x2048),
    TRef.binary main_call1.v2 main_call1.v1 main_call1.v3 addf,
    TRef.nullary main_call1.cst_0 (constant S_ .f32 0x3F800000#32),
    TRef.unary main_call1.cst_0 main_call1.v4 (broadcastInDim S8x2048 ![] bcast_S_S8x2048),
    TRef.binary main_call1.v4 main_call1.v3 main_call1.v5 Host.divf,
    TRef.binary (.of main_v36 : StableHlo.TRef sig ⟨S8x2048, .f32⟩) main_call1.v5 main_call1.v6 mulf ]

/-- Its last linear layer. -/
abbrev opsFusionC : List (HloOp τ sig (Elt F)) :=
  [ unary main_arg8 main_v38 ((transpose S2048x2048 [1, 0] · transposes_S2048x2048_S2048x2048_1_0) : (⟨S2048x2048, .f32⟩ : BufTy).Contents (Elt F) → (⟨S2048x2048, .f32⟩ : BufTy).Contents (Elt F)),
    binary main_v37 main_v38 main_v39 ((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F)),
    unary main_arg9 main_v40 (broadcastInDim S1x2048 ![1] bcast_S2048_S1x2048_1 : (⟨S2048, .f32⟩ : BufTy).Contents (Elt F) → (⟨S1x2048, .f32⟩ : BufTy).Contents (Elt F)),
    unary main_v40 main_v41 (broadcastInDim S8x2048 ![0, 1] bcast_S1x2048_S8x2048_0_1 : (⟨S1x2048, .f32⟩ : BufTy).Contents (Elt F) → (⟨S8x2048, .f32⟩ : BufTy).Contents (Elt F)),
    binary main_v39 main_v41 main_v42 (addf : (⟨S8x2048, .f32⟩ : BufTy).Contents (Elt F) → (⟨S8x2048, .f32⟩ : BufTy).Contents (Elt F) → (⟨S8x2048, .f32⟩ : BufTy).Contents (Elt F)) ]

/-- The reflex branch: a linear layer and the hyperbolic tangent. -/
abbrev opsReflex : List (HloOp τ sig (Elt F)) :=
  [ unary main_arg10 main_v43 ((transpose S4096x2048 [1, 0] · transposes_S2048x4096_S4096x2048_1_0) : (⟨S2048x4096, .f32⟩ : BufTy).Contents (Elt F) → (⟨S4096x2048, .f32⟩ : BufTy).Contents (Elt F)),
    binary main_v6 main_v43 main_v44 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    unary main_arg11 main_v45 (broadcastInDim S1x2048 ![1] bcast_S2048_S1x2048_1 : (⟨S2048, .f32⟩ : BufTy).Contents (Elt F) → (⟨S1x2048, .f32⟩ : BufTy).Contents (Elt F)),
    unary main_v45 main_v46 (broadcastInDim S8x2048 ![0, 1] bcast_S1x2048_S8x2048_0_1 : (⟨S1x2048, .f32⟩ : BufTy).Contents (Elt F) → (⟨S8x2048, .f32⟩ : BufTy).Contents (Elt F)),
    binary main_v44 main_v46 main_v47 (addf : (⟨S8x2048, .f32⟩ : BufTy).Contents (Elt F) → (⟨S8x2048, .f32⟩ : BufTy).Contents (Elt F) → (⟨S8x2048, .f32⟩ : BufTy).Contents (Elt F)),
    unary main_v47 main_v48 (Host.tanh : (⟨S8x2048, .f32⟩ : BufTy).Contents (Elt F) → (⟨S8x2048, .f32⟩ : BufTy).Contents (Elt F)) ]

/-- The scaled fusion term, broadcast to every position. -/
abbrev opsBiasA : List (HloOp τ sig (Elt F)) :=
  [ unary main_v42 main_v49 (broadcastInDim S8x1x2048 ![0, 2] bcast_S8x2048_S8x1x2048_0_2 : (⟨S8x2048, .f32⟩ : BufTy).Contents (Elt F) → (⟨S8x1x2048, .f32⟩ : BufTy).Contents (Elt F)),
    unary main_arg14 main_v50 (broadcastInDim S8x1x2048 ![] bcast_S_S8x1x2048 : (⟨S_, .f32⟩ : BufTy).Contents (Elt F) → (⟨S8x1x2048, .f32⟩ : BufTy).Contents (Elt F)),
    binary main_v50 main_v49 main_v51 (mulf : (⟨S8x1x2048, .f32⟩ : BufTy).Contents (Elt F) → (⟨S8x1x2048, .f32⟩ : BufTy).Contents (Elt F) → (⟨S8x1x2048, .f32⟩ : BufTy).Contents (Elt F)),
    unary main_v51 main_v52 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)) ]

/-- The two bias terms added, one after the other, to the mix. -/
abbrev opsBiasB : List (HloOp τ sig (Elt F)) :=
  [ binary main_v25 main_v52 main_v53 (addf : (⟨S8x4096x2048, .f32⟩ : BufTy).Contents (Elt F) → (⟨S8x4096x2048, .f32⟩ : BufTy).Contents (Elt F) → (⟨S8x4096x2048, .f32⟩ : BufTy).Contents (Elt F)),
    unary main_v48 main_v54 (broadcastInDim S8x1x2048 ![0, 2] bcast_S8x2048_S8x1x2048_0_2 : (⟨S8x2048, .f32⟩ : BufTy).Contents (Elt F) → (⟨S8x1x2048, .f32⟩ : BufTy).Contents (Elt F)),
    unary main_arg15 main_v55 (broadcastInDim S8x1x2048 ![] bcast_S_S8x1x2048 : (⟨S_, .f32⟩ : BufTy).Contents (Elt F) → (⟨S8x1x2048, .f32⟩ : BufTy).Contents (Elt F)),
    binary main_v55 main_v54 main_v56 (mulf : (⟨S8x1x2048, .f32⟩ : BufTy).Contents (Elt F) → (⟨S8x1x2048, .f32⟩ : BufTy).Contents (Elt F) → (⟨S8x1x2048, .f32⟩ : BufTy).Contents (Elt F)),
    unary main_v56 main_v57 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    binary main_v53 main_v57 main_v58 (addf : (⟨S8x4096x2048, .f32⟩ : BufTy).Contents (Elt F) → (⟨S8x4096x2048, .f32⟩ : BufTy).Contents (Elt F) → (⟨S8x4096x2048, .f32⟩ : BufTy).Contents (Elt F)) ]

/-- The mean of each row of 2048 entries. -/
abbrev opsRowMean : List (HloOp τ sig (Elt F)) :=
  [ nullary main_cst_6 (constant S_ .f32 0x00000000#32),
    binary main_v58 main_cst_6 main_v59 ((fun x v => Host.reduceAdd x v reducesTo_S8x4096x2048_S8x4096_d2 h_S_) : (⟨S8x4096x2048, .f32⟩ : BufTy).Contents (Elt F) → (⟨S_, .f32⟩ : BufTy).Contents (Elt F) → (⟨S8x4096, .f32⟩ : BufTy).Contents (Elt F)),
    unary main_v59 main_v60 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_7 (constant S_ .f32 0x45000000#32),
    unary main_cst_7 main_v61 (broadcastInDim S8x4096x1 ![] bcast_S_S8x4096x1 : (⟨S_, .f32⟩ : BufTy).Contents (Elt F) → (⟨S8x4096x1, .f32⟩ : BufTy).Contents (Elt F)),
    binary main_v60 main_v61 main_v62 (Host.divf : (⟨S8x4096x1, .f32⟩ : BufTy).Contents (Elt F) → (⟨S8x4096x1, .f32⟩ : BufTy).Contents (Elt F) → (⟨S8x4096x1, .f32⟩ : BufTy).Contents (Elt F)) ]

/-- The variance of each row: the mean of the squares of the centred row, guarded by a comparison of the divisor with zero. -/
abbrev opsVar : List (HloOp τ sig (Elt F)) :=
  [ nullary main_c (constantI S_ 32 0#32),
    TRef.nullary main_call2.cst (constant S_ .f32 0x00000000#32),
    TRef.binary (.of main_v58 : StableHlo.TRef sig ⟨S8x4096x2048, .f32⟩) main_call2.cst main_call2.v0 (fun x v => Host.reduceAdd x v reducesTo_S8x4096x2048_S8x4096_d2 h_S_),
    TRef.unary main_call2.v0 main_call2.v1 (broadcastInDim S8x4096x1 ![0, 1] bcast_S8x4096_S8x4096x1_0_1),
    TRef.nullary main_call2.cst_0 (constant S_ .f32 0x45000000#32),
    TRef.unary main_call2.cst_0 main_call2.v2 (broadcastInDim S8x4096x1 ![] bcast_S_S8x4096x1),
    TRef.binary main_call2.v1 main_call2.v2 main_call2.v3 Host.divf,
    TRef.unary main_call2.v3 main_call2.v4 (broadcastInDim S8x4096x2048 ![0, 1, 2] bcast_S8x4096x1_S8x4096x2048_0_1_2),
    TRef.binary (.of main_v58 : StableHlo.TRef sig ⟨S8x4096x2048, .f32⟩) main_call2.v4 main_call2.v5 subf,
    TRef.binary main_call2.v5 main_call2.v5 main_call2.v6 mulf,
    TRef.unary (.of main_c : StableHlo.TRef sig ⟨S_, .i32⟩) main_call2.v7 (sitofp .f32),
    TRef.nullary main_call2.cst_1 (constant S_ .f32 0x45000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x4096x2048_S8x4096_d2 h_S_),
    TRef.unary main_call2.v9 main_call2.v10 (broadcastInDim S8x4096x1 ![0, 1] bcast_S8x4096_S8x4096x1_0_1),
    TRef.unary main_call2.v8 main_call2.v11 (broadcastInDim S8x4096x1 ![] bcast_S_S8x4096x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S8x4096x1 ![] bcast_S_S8x4096x1),
    TRef.ternary main_call2.v13 main_call2.v12 main_call2.call0.v1 main_call2.call0.v2 (fun p a b => select (broadcastInDim S8x4096x1 ![] bcast_S_S8x4096x1 p) a b) ]

/-- The normalisation: centre, scale by the inverse root, then the scale and the shift. -/
abbrev opsLn : List (HloOp τ sig (Elt F)) :=
  [ unary main_v62 main_v64 (broadcastInDim S8x4096x2048 ![0, 1, 2] bcast_S8x4096x1_S8x4096x2048_0_1_2 : (⟨S8x4096x1, .f32⟩ : BufTy).Contents (Elt F) → (⟨S8x4096x2048, .f32⟩ : BufTy).Contents (Elt F)),
    binary main_v58 main_v64 main_v65 (subf : (⟨S8x4096x2048, .f32⟩ : BufTy).Contents (Elt F) → (⟨S8x4096x2048, .f32⟩ : BufTy).Contents (Elt F) → (⟨S8x4096x2048, .f32⟩ : BufTy).Contents (Elt F)),
    nullary main_cst_8 (constant S_ .f32 0x3727C5AC#32),
    unary main_cst_8 main_v66 (broadcastInDim S8x4096x1 ![] bcast_S_S8x4096x1 : (⟨S_, .f32⟩ : BufTy).Contents (Elt F) → (⟨S8x4096x1, .f32⟩ : BufTy).Contents (Elt F)),
    binary main_v63 main_v66 main_v67 (addf : (⟨S8x4096x1, .f32⟩ : BufTy).Contents (Elt F) → (⟨S8x4096x1, .f32⟩ : BufTy).Contents (Elt F) → (⟨S8x4096x1, .f32⟩ : BufTy).Contents (Elt F)),
    unary main_v67 main_v68 (Host.rsqrt : (⟨S8x4096x1, .f32⟩ : BufTy).Contents (Elt F) → (⟨S8x4096x1, .f32⟩ : BufTy).Contents (Elt F)),
    unary main_v68 main_v69 (broadcastInDim S8x4096x2048 ![0, 1, 2] bcast_S8x4096x1_S8x4096x2048_0_1_2 : (⟨S8x4096x1, .f32⟩ : BufTy).Contents (Elt F) → (⟨S8x4096x2048, .f32⟩ : BufTy).Contents (Elt F)),
    binary main_v65 main_v69 main_v70 (mulf : (⟨S8x4096x2048, .f32⟩ : BufTy).Contents (Elt F) → (⟨S8x4096x2048, .f32⟩ : BufTy).Contents (Elt F) → (⟨S8x4096x2048, .f32⟩ : BufTy).Contents (Elt F)),
    unary main_arg12 main_v71 (broadcastInDim S1x1x2048 ![2] bcast_S2048_S1x1x2048_2 : (⟨S2048, .f32⟩ : BufTy).Contents (Elt F) → (⟨S1x1x2048, .f32⟩ : BufTy).Contents (Elt F)),
    unary main_v71 main_v72 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v70 main_v72 main_v73 (mulf : (⟨S8x4096x2048, .f32⟩ : BufTy).Contents (Elt F) → (⟨S8x4096x2048, .f32⟩ : BufTy).Contents (Elt F) → (⟨S8x4096x2048, .f32⟩ : BufTy).Contents (Elt F)),
    unary main_arg13 main_v74 (broadcastInDim S1x1x2048 ![2] bcast_S2048_S1x1x2048_2 : (⟨S2048, .f32⟩ : BufTy).Contents (Elt F) → (⟨S1x1x2048, .f32⟩ : BufTy).Contents (Elt F)),
    unary main_v74 main_v75 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v73 main_v75 main_v76 (addf : (⟨S8x4096x2048, .f32⟩ : BufTy).Contents (Elt F) → (⟨S8x4096x2048, .f32⟩ : BufTy).Contents (Elt F) → (⟨S8x4096x2048, .f32⟩ : BufTy).Contents (Elt F)) ]

/-- The second result: the mean of the gate. -/
abbrev opsGateMean : List (HloOp τ sig (Elt F)) :=
  [ nullary main_cst_9 (constant S_ .f32 0x00000000#32),
    binary main_v17 main_cst_9 main_v77 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    nullary main_cst_10 (constant S_ .f32 0x46800000#32),
    binary main_v77 main_cst_10 main_v78 (Host.divf : (⟨S_, .f32⟩ : BufTy).Contents (Elt F) → (⟨S_, .f32⟩ : BufTy).Contents (Elt F) → (⟨S_, .f32⟩ : BufTy).Contents (Elt F)) ]

/-- The first window's operations. -/
abbrev ops0 : List (HloOp τ sig (Elt F)) := opsPool ++ opsGate ++ opsMix ++ opsFusionA ++ opsFusionB ++ opsFusionC ++ opsReflex ++ opsBiasA

/-- The second window's operations. -/
abbrev ops1 : List (HloOp τ sig (Elt F)) := opsBiasB ++ opsRowMean ++ opsVar ++ opsLn ++ opsGateMean

/-- All of them. -/
abbrev ops : List (HloOp τ sig (Elt F)) := ops0 ++ ops1

end Cert.ReferenceIdeal.RefRun

end
-- ==== Proof.RefMain.lean ====
/-
  The reference's program is the straight line of its operations: each printed window is the sequence of
  its lists (the outlined functions unfold at their calls), every operation touches buffers of the
  TensorCore only and determines its result, and so every weakly fair execution terminates with each
  buffer at the fold of the operations over the launch contents.
-/
import proofs.«129208_j55336358642849_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

/-- The program is the two windows run one after the other. -/
theorem main_eq (c : Dev nD) : main (F := F) c = seq ops := by
  show (main_part0 (F := F) c >>= fun _ => main_part1 (F := F) c) = seq (ops0 ++ ops1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem opsPool_sub : (opsPool : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub ..⟩
theorem opsPool_fresh : ∀ op ∈ (opsPool : List (HloOp τ sig (Elt F))), op.fresh = ∅ := by
  intro _ h; (repeat (cases h with | head => rfl | tail _ h => ?_)); exact nomatch h

theorem opsGate_sub : (opsGate : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsGate_fresh : ∀ op ∈ (opsGate : List (HloOp τ sig (Elt F))), op.fresh = ∅ := by
  intro _ h; (repeat (cases h with | head => rfl | tail _ h => ?_)); exact nomatch h

theorem opsMix_sub : (opsMix : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., binary_bufs_sub ..⟩
theorem opsMix_fresh : ∀ op ∈ (opsMix : List (HloOp τ sig (Elt F))), op.fresh = ∅ := by
  intro _ h; (repeat (cases h with | head => rfl | tail _ h => ?_)); exact nomatch h

theorem opsFusionA_sub : (opsFusionA : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem opsFusionA_fresh : ∀ op ∈ (opsFusionA : List (HloOp τ sig (Elt F))), op.fresh = ∅ := by
  intro _ h; (repeat (cases h with | head => rfl | tail _ h => ?_)); exact nomatch h

theorem opsFusionB_sub : (opsFusionB : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem opsFusionB_fresh : ∀ op ∈ (opsFusionB : List (HloOp τ sig (Elt F))), op.fresh = ∅ := by
  intro _ h; (repeat (cases h with | head => rfl | tail _ h => ?_)); exact nomatch h

theorem opsFusionC_sub : (opsFusionC : List (HloOp τ sig (Elt F))).Forall fun op => op.bufs ⊆ tcRefs τ sig :=
  ⟨unary_bufs_sub .., binary_bufs_sub .., unary_bufs_sub .., unary_bufs_sub .., binary_bufs_sub ..⟩
theorem opsFusionC_fresh : ∀ op ∈ (opsFusionC : List (HloOp τ sig (Elt F))), op.fresh = ∅ := by
  intro _ h; (repeat (cases h with | head => rfl | tail _ h => ?_)); exact nomatch h

theorem opsReflex_sub : (opsReflex : List (HloOp τ sig (Elt F))).Forall fun op => op.bufs ⊆ tcRefs τ sig :=
  ⟨unary_bufs_sub .., binary_bufs_sub .., unary_bufs_sub .., unary_bufs_sub .., binary_bufs_sub .., unary_bufs_sub ..⟩
theorem opsReflex_fresh : ∀ op ∈ (opsReflex : List (HloOp τ sig (Elt F))), op.fresh = ∅ := by
  intro _ h; (repeat (cases h with | head => rfl | tail _ h => ?_)); exact nomatch h

theorem opsBiasA_sub : (opsBiasA : List (HloOp τ sig (Elt F))).Forall fun op => op.bufs ⊆ tcRefs τ sig :=
  ⟨unary_bufs_sub .., unary_bufs_sub .., binary_bufs_sub .., unary_bufs_sub ..⟩
theorem opsBiasA_fresh : ∀ op ∈ (opsBiasA : List (HloOp τ sig (Elt F))), op.fresh = ∅ := by
  intro _ h; (repeat (cases h with | head => rfl | tail _ h => ?_)); exact nomatch h

theorem opsBiasB_sub : (opsBiasB : List (HloOp τ sig (Elt F))).Forall fun op => op.bufs ⊆ tcRefs τ sig :=
  ⟨binary_bufs_sub .., unary_bufs_sub .., unary_bufs_sub .., binary_bufs_sub .., unary_bufs_sub .., binary_bufs_sub ..⟩
theorem opsBiasB_fresh : ∀ op ∈ (opsBiasB : List (HloOp τ sig (Elt F))), op.fresh = ∅ := by
  intro _ h; (repeat (cases h with | head => rfl | tail _ h => ?_)); exact nomatch h

theorem opsRowMean_sub : (opsRowMean : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem opsRowMean_fresh : ∀ op ∈ (opsRowMean : List (HloOp τ sig (Elt F))), op.fresh = ∅ := by
  intro _ h; (repeat (cases h with | head => rfl | tail _ h => ?_)); exact nomatch h

theorem opsVar_sub : (opsVar : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsVar_fresh : ∀ op ∈ (opsVar : List (HloOp τ sig (Elt F))), op.fresh = ∅ := by
  intro _ h; (repeat (cases h with | head => rfl | tail _ h => ?_)); exact nomatch h

theorem opsLn_sub : (opsLn : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsLn_fresh : ∀ op ∈ (opsLn : List (HloOp τ sig (Elt F))), op.fresh = ∅ := by
  intro _ h; (repeat (cases h with | head => rfl | tail _ h => ?_)); exact nomatch h

theorem opsGateMean_sub : (opsGateMean : List (HloOp τ sig (Elt F))).Forall fun op => op.bufs ⊆ tcRefs τ sig :=
  ⟨nullary_bufs_sub .., binary_bufs_sub .., nullary_bufs_sub .., binary_bufs_sub ..⟩
theorem opsGateMean_fresh : ∀ op ∈ (opsGateMean : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, ops0, ops1, List.mem_append, or_assoc] at h
    rcases h with h | h | h | h | h | h | h | h | h | h | h | h | h
    exacts [List.forall_iff_forall_mem.mp opsPool_sub op h,
      List.forall_iff_forall_mem.mp opsGate_sub op h,
      List.forall_iff_forall_mem.mp opsMix_sub op h,
      List.forall_iff_forall_mem.mp opsFusionA_sub op h,
      List.forall_iff_forall_mem.mp opsFusionB_sub op h,
      List.forall_iff_forall_mem.mp opsFusionC_sub op h,
      List.forall_iff_forall_mem.mp opsReflex_sub op h,
      List.forall_iff_forall_mem.mp opsBiasA_sub op h,
      List.forall_iff_forall_mem.mp opsBiasB_sub op h,
      List.forall_iff_forall_mem.mp opsRowMean_sub op h,
      List.forall_iff_forall_mem.mp opsVar_sub op h,
      List.forall_iff_forall_mem.mp opsLn_sub op h,
      List.forall_iff_forall_mem.mp opsGateMean_sub op h]

theorem ops_fresh : ∀ op ∈ (ops : List (HloOp τ sig (Elt F))), op.fresh = ∅ := by
  intro op h
  simp only [ops, ops0, ops1, List.mem_append, or_assoc] at h
  rcases h with h | h | h | h | h | h | h | h | h | h | h | h | h
  exacts [opsPool_fresh op h, opsGate_fresh op h, opsMix_fresh op h, opsFusionA_fresh op h, opsFusionB_fresh op h, opsFusionC_fresh op h, opsReflex_fresh op h, opsBiasA_fresh op h, opsBiasB_fresh op h, opsRowMean_fresh op h, opsVar_fresh op h, opsLn_fresh op h, opsGateMean_fresh op h]

/-- Every weakly fair execution of the reference terminates, without a fault, with every buffer of the
    TensorCore at the fold of the operations over what the launch put there. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference's values, step by step, as functions of the arrays they are computed from: each definition
  is the composition of the operations of one step, written as the program writes them.  `hcatR` is the
  pooled row (the two column means, side by side); `alphaR`, `fusionR` and `reflexR` are the gate, the
  fusion branch and the reflex branch as functions of ANY pooled row `h`; `mixR` is the gated mix with the
  two bias terms added one after the other; `rowMeanR`, `varR` and `lnR` are the mean, the variance and the
  normalisation of the rows of 2048 entries; `gateMeanR` is the mean of the gate.  `R76` and `R78` are the
  two results as functions of the sixteen arguments.
-/
import proofs.«129208_j55336358642849_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The mean over the 4096 positions: the sum from zero, divided by the splat of 4096. -/
def pooledMean (x : FVec F S8x4096x2048 .f32) : FVec F S8x2048 .f32 :=
  Host.divf (Host.reduceAdd x (constant S_ .f32 0x00000000#32) reducesTo_S8x4096x2048_S8x2048_d1 h_S_)
    (broadcastInDim S8x2048 ![] bcast_S_S8x2048 (constant S_ .f32 0x45800000#32))

/-- The pooled row: the means of the left input, then those of the right one. -/
def hcatR (xl xr : FVec F S8x4096x2048 .f32) : FVec F S8x4096 .f32 :=
  concatenate S8x4096 1 [⟨S8x2048, pooledMean xl⟩, ⟨S8x2048, pooledMean xr⟩] concatenates_S8x2048_S8x2048_S8x4096_d1

/-- A linear layer from 4096 to 2048 features: the product with the transposed weight, plus the bias on every row. -/
def lin4096x2048 (h : FVec F S8x4096 .f32) (W : FVec F S2048x4096 .f32) (b : FVec F S2048 .f32) : FVec F S8x2048 .f32 :=
  addf (Host.dotGeneral dot_S8x4096_S4096x2048_S8x2048_1_0_0_1_n_n none h (transpose S4096x2048 [1, 0] W transposes_S2048x4096_S4096x2048_1_0))
    (broadcastInDim S8x2048 ![0, 1] bcast_S1x2048_S8x2048_0_1 (broadcastInDim S1x2048 ![1] bcast_S2048_S1x2048_1 b))

/-- The same from 4096 to 4096 features. -/
def lin4096x4096 (h : FVec F S8x4096 .f32) (W : FVec F S4096x4096 .f32) (b : FVec F S4096 .f32) : FVec F S8x4096 .f32 :=
  addf (Host.dotGeneral dot_S8x4096_S4096x4096_S8x4096_1_0_0_1_n_n none h (transpose S4096x4096 [1, 0] W transposes_S4096x4096_S4096x4096_1_0))
    (broadcastInDim S8x4096 ![0, 1] bcast_S1x4096_S8x4096_0_1 (broadcastInDim S1x4096 ![1] bcast_S4096_S1x4096_1 b))

/-- The same from 2048 to 2048 features. -/
def lin2048x2048 (h : FVec F S8x2048 .f32) (W : FVec F S2048x2048 .f32) (b : FVec F S2048 .f32) : FVec F S8x2048 .f32 :=
  addf (Host.dotGeneral dot_S8x2048_S2048x2048_S8x2048_1_0_0_1_n_n none h (transpose S2048x2048 [1, 0] W transposes_S2048x2048_S2048x2048_1_0))
    (broadcastInDim S8x2048 ![0, 1] bcast_S1x2048_S8x2048_0_1 (broadcastInDim S1x2048 ![1] bcast_S2048_S1x2048_1 b))

/-- The gate: 1 / (1 + exp (-(h·Wgᵀ + bg))). -/
def alphaR (h : FVec F S8x4096 .f32) (Wg : FVec F S2048x4096 .f32) (bg : FVec F S2048 .f32) : FVec F S8x2048 .f32 :=
  Host.divf (broadcastInDim S8x2048 ![] bcast_S_S8x2048 (constant S_ .f32 0x3F800000#32))
    (addf (broadcastInDim S8x2048 ![] bcast_S_S8x2048 (constant S_ .f32 0x3F800000#32)) (Host.exp (Host.negf (lin4096x2048 h Wg bg))))

/-- x · (1 / (1 + exp (-x))) on rows of 4096 entries. -/
def siluA (x : FVec F S8x4096 .f32) : FVec F S8x4096 .f32 :=
  mulf x (Host.divf (broadcastInDim S8x4096 ![] bcast_S_S8x4096 (constant S_ .f32 0x3F800000#32))
    (addf (broadcastInDim S8x4096 ![] bcast_S_S8x4096 (constant S_ .f32 0x3F800000#32)) (Host.exp (Host.negf x))))

/-- The same on rows of 2048 entries. -/
def siluB (x : FVec F S8x2048 .f32) : FVec F S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- The fusion branch: three linear layers, the first two followed by x · logistic x. -/
def fusionR (h : FVec F S8x4096 .f32) (W1 : FVec F S4096x4096 .f32) (b1 : FVec F S4096 .f32) (W2 : FVec F S2048x4096 .f32)
    (b2 : FVec F S2048 .f32) (W3 : FVec F S2048x2048 .f32) (b3 : FVec F S2048 .f32) : FVec F S8x2048 .f32 :=
  lin2048x2048 (siluB (lin4096x2048 (siluA (lin4096x4096 h W1 b1)) W2 b2)) W3 b3

/-- The reflex branch: the hyperbolic tangent of a linear layer. -/
def reflexR (h : FVec F S8x4096 .f32) (Wr : FVec F S2048x4096 .f32) (br : FVec F S2048 .f32) : FVec F S8x2048 .f32 :=
  Host.tanh (lin4096x2048 h Wr br)

/-- An [8, 2048] array with a unit axis of positions inserted. -/
def rowB (a : FVec F S8x2048 .f32) : FVec F S8x1x2048 .f32 := broadcastInDim S8x1x2048 ![0, 2] bcast_S8x2048_S8x1x2048_0_2 a

/-- ... and repeated at each of the 4096 positions. -/
def posB (a : FVec F S8x1x2048 .f32) : FVec F S8x4096x2048 .f32 :=
  broadcastInDim S8x4096x2048 ![0, 1, 2] bcast_S8x1x2048_S8x4096x2048_0_1_2 a

/-- (1 - a)·xl + a·xr, the gate repeated at every position. -/
def mix0R (a : FVec F S8x2048 .f32) (xl xr : FVec F S8x4096x2048 .f32) : FVec F S8x4096x2048 .f32 :=
  addf (mulf (posB (subf (broadcastInDim S8x1x2048 ![] bcast_S_S8x1x2048 (constant S_ .f32 0x3F800000#32)) (rowB a))) xl)
    (mulf (posB (rowB a)) xr)

/-- A scalar times an [8, 2048] array, repeated at every position. -/
def scaledB (s : FVec F S_ .f32) (x : FVec F S8x2048 .f32) : FVec F S8x4096x2048 .f32 :=
  posB (mulf (broadcastInDim S8x1x2048 ![] bcast_S_S8x1x2048 s) (rowB x))

/-- The mix with its two bias terms, added one after the other. -/
def mixR (a : FVec F S8x2048 .f32) (xl xr : FVec F S8x4096x2048 .f32) (fs : FVec F S_ .f32) (fus : FVec F S8x2048 .f32)
    (rs : FVec F S_ .f32) (refl : FVec F S8x2048 .f32) : FVec F S8x4096x2048 .f32 :=
  addf (addf (mix0R a xl xr) (scaledB fs fus)) (scaledB rs refl)

/-- An [8, 4096] array with a trailing unit axis. -/
def colB (r : FVec F S8x4096 .f32) : FVec F S8x4096x1 .f32 := broadcastInDim S8x4096x1 ![0, 1] bcast_S8x4096_S8x4096x1_0_1 r

/-- ... and repeated along the 2048 columns. -/
def lastB (m : FVec F S8x4096x1 .f32) : FVec F S8x4096x2048 .f32 :=
  broadcastInDim S8x4096x2048 ![0, 1, 2] bcast_S8x4096x1_S8x4096x2048_0_1_2 m

/-- The sum of each row of 2048 entries, from zero. -/
def rowSum (y : FVec F S8x4096x2048 .f32) : FVec F S8x4096 .f32 :=
  Host.reduceAdd y (constant S_ .f32 0x00000000#32) reducesTo_S8x4096x2048_S8x4096_d2 h_S_

/-- The mean of each row: its sum divided by the splat of 2048. -/
def rowMeanR (y : FVec F S8x4096x2048 .f32) : FVec F S8x4096x1 .f32 :=
  Host.divf (colB (rowSum y)) (broadcastInDim S8x4096x1 ![] bcast_S_S8x4096x1 (constant S_ .f32 0x45000000#32))

/-- The variance's divisor: 2048 less the integer zero converted to a float. -/
def ddofN : FVec F S_ .f32 := subf (constant S_ .f32 0x45000000#32) (sitofp .f32 (constantI S_ 32 0#32))

/-- The variance of each row: the sum of the squares of the centred row over the divisor where the divisor is
    positive, a constant elsewhere. -/
def varR (y : FVec F S8x4096x2048 .f32) : FVec F S8x4096x1 .f32 :=
  select (broadcastInDim S8x4096x1 ![] bcast_S_S8x4096x1 (cmpf .ogt (ddofN (F := F)) (constant S_ .f32 0x00000000#32)))
    (Host.divf (colB (rowSum (mulf (subf y (lastB (rowMeanR y))) (subf y (lastB (rowMeanR y))))))
      (broadcastInDim S8x4096x1 ![] bcast_S_S8x4096x1 (ddofN (F := F))))
    (broadcastInDim S8x4096x1 ![] bcast_S_S8x4096x1 (constant S_ .f32 0x7FC00000#32))

/-- A vector of 2048 entries repeated over every batch row and position. -/
def chanB (g : FVec F S2048 .f32) : FVec F S8x4096x2048 .f32 :=
  broadcastInDim S8x4096x2048 ![0, 1, 2] bcast_S1x1x2048_S8x4096x2048_0_1_2 (broadcastInDim S1x1x2048 ![2] bcast_S2048_S1x1x2048_2 g)

/-- The normalisation from a given mean and variance: ((y - μ)·rsqrt (σ² + ε))·γ + β. -/
def lnStage (y : FVec F S8x4096x2048 .f32) (mu var : FVec F S8x4096x1 .f32) (γ β : FVec F S2048 .f32) : FVec F S8x4096x2048 .f32 :=
  addf (mulf (mulf (subf y (lastB mu))
      (lastB (Host.rsqrt (addf var (broadcastInDim S8x4096x1 ![] bcast_S_S8x4096x1 (constant S_ .f32 0x3727C5AC#32))))))
    (chanB γ)) (chanB β)

/-- The layer normalisation of every row. -/
def lnR (y : FVec F S8x4096x2048 .f32) (γ β : FVec F S2048 .f32) : FVec F S8x4096x2048 .f32 :=
  lnStage y (rowMeanR y) (varR y) γ β

/-- The mean of the gate: its total sum from zero over 16384. -/
def gateMeanR (a : FVec F S8x2048 .f32) : FVec F S_ .f32 :=
  Host.divf (Host.reduceAdd a (constant S_ .f32 0x00000000#32) reducesTo_S8x2048_S_d0_1 h_S_) (constant S_ .f32 0x46800000#32)

/-- The first result as a function of the sixteen arguments. -/
def R76 (xl xr : FVec F S8x4096x2048 .f32) (Wg : FVec F S2048x4096 .f32) (bg : FVec F S2048 .f32)
    (W1 : FVec F S4096x4096 .f32) (b1 : FVec F S4096 .f32) (W2 : FVec F S2048x4096 .f32) (b2 : FVec F S2048 .f32)
    (W3 : FVec F S2048x2048 .f32) (b3 : FVec F S2048 .f32) (Wr : FVec F S2048x4096 .f32) (br : FVec F S2048 .f32)
    (γ β : FVec F S2048 .f32) (fs rs : FVec F S_ .f32) : FVec F S8x4096x2048 .f32 :=
  lnR (mixR (alphaR (hcatR xl xr) Wg bg) xl xr fs (fusionR (hcatR xl xr) W1 b1 W2 b2 W3 b3) rs (reflexR (hcatR xl xr) Wr br)) γ β

/-- The second result. -/
def R78 (xl xr : FVec F S8x4096x2048 .f32) (Wg : FVec F S2048x4096 .f32) (bg : FVec F S2048 .f32) : FVec F S_ .f32 :=
  gateMeanR (alphaR (hcatR xl xr) Wg bg)

end Cert.ReferenceIdeal.RefRun

end
-- ==== Proof.RefRun.lean ====
/-
  The reference's run: every weakly fair execution terminates with the two results at the composed values
  `R76` and `R78` of the sixteen argument arrays, and the arguments unchanged.  The values are read off the
  fold of the operations: an operation's result at its own buffer is its function of its operands' contents,
  and a buffer no operation writes keeps what the launch put there.
-/
import proofs.«129208_j55336358642849_2_alg».proof.Proof.RefMain
import proofs.«129208_j55336358642849_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists in a row. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## The arguments are written by no operation -/

/-- The buffers the operations write, in order. -/
abbrev opsW : List (Ref sig .tc) :=
  [main_cst, main_v0, main_cst_0, main_v1, main_v2, main_cst_1, main_v3, main_cst_2,
   main_v4, main_v5, main_v6, main_v7, main_v8, main_v9, main_v10, main_v11,
   main_v12, main_v13, main_cst_3, main_v14, main_v15, main_cst_4, main_v16, main_v17,
   main_v18, main_cst_5, main_v19, main_v20, main_v21, main_v22, main_v23, main_v24,
   main_v25, main_v26, main_v27, main_v28, main_v29, main_v30, main_call0.v0.ref, main_call0.v1.ref,
   main_call0.cst.ref, main_call0.v2.ref, main_call0.v3.ref, main_call0.cst_0.ref, main_call0.v4.ref, main_call0.v5.ref, main_call0.v6.ref, main_v32,
   main_v33, main_v34, main_v35, main_v36, main_call1.v0.ref, main_call1.v1.ref, main_call1.cst.ref, main_call1.v2.ref,
   main_call1.v3.ref, main_call1.cst_0.ref, main_call1.v4.ref, main_call1.v5.ref, main_call1.v6.ref, main_v38, main_v39, main_v40,
   main_v41, main_v42, main_v43, main_v44, main_v45, main_v46, main_v47, main_v48,
   main_v49, main_v50, main_v51, main_v52, main_v53, main_v54, main_v55, main_v56,
   main_v57, main_v58, main_cst_6, main_v59, main_v60, main_cst_7, main_v61, main_v62,
   main_c, main_call2.cst.ref, main_call2.v0.ref, main_call2.v1.ref, main_call2.cst_0.ref, main_call2.v2.ref, main_call2.v3.ref, main_call2.v4.ref,
   main_call2.v5.ref, main_call2.v6.ref, main_call2.v7.ref, main_call2.cst_1.ref, main_call2.v8.ref, main_call2.cst_2.ref, main_call2.v9.ref, main_call2.v10.ref,
   main_call2.v11.ref, main_call2.v12.ref, main_call2.cst_3.ref, main_call2.v13.ref, main_call2.cst_4.ref, main_call2.call0.v0.ref, main_call2.call0.v1.ref, main_call2.call0.v2.ref,
   main_v64, main_v65, main_cst_8, main_v66, main_v67, main_v68, main_v69, main_v70,
   main_v71, main_v72, main_v73, main_v74, main_v75, main_v76, main_cst_9, main_v77,
   main_cst_10, main_v78]

/-- A buffer of that list, as the one-element set an operation writes. -/
theorem wsub {y : Ref sig .tc} (h : y ∈ opsW) :
    ({Proc.devRef (τ := τ) .tc y} : Finset (DevRef τ sig)) ⊆ (opsW.map (Proc.devRef (τ := τ) .tc)).toFinset :=
  Finset.singleton_subset_iff.mpr (List.mem_toFinset.mpr (List.mem_map_of_mem h))

theorem opsPool_writes : (opsPool : List (HloOp τ sig (Elt F))).Forall fun op => op.writes ⊆ (opsW.map (Proc.devRef (τ := τ) .tc)).toFinset :=
  ⟨wsub (y := main_cst) (by decide),
    wsub (y := main_v0) (by decide),
    wsub (y := main_cst_0) (by decide),
    wsub (y := main_v1) (by decide),
    wsub (y := main_v2) (by decide),
    wsub (y := main_cst_1) (by decide),
    wsub (y := main_v3) (by decide),
    wsub (y := main_cst_2) (by decide),
    wsub (y := main_v4) (by decide),
    wsub (y := main_v5) (by decide),
    wsub (y := main_v6) (by decide)⟩

theorem opsGate_writes : (opsGate : List (HloOp τ sig (Elt F))).Forall fun op => op.writes ⊆ (opsW.map (Proc.devRef (τ := τ) .tc)).toFinset :=
  ⟨wsub (y := main_v7) (by decide),
    wsub (y := main_v8) (by decide),
    wsub (y := main_v9) (by decide),
    wsub (y := main_v10) (by decide),
    wsub (y := main_v11) (by decide),
    wsub (y := main_v12) (by decide),
    wsub (y := main_v13) (by decide),
    wsub (y := main_cst_3) (by decide),
    wsub (y := main_v14) (by decide),
    wsub (y := main_v15) (by decide),
    wsub (y := main_cst_4) (by decide),
    wsub (y := main_v16) (by decide),
    wsub (y := main_v17) (by decide)⟩

theorem opsMix_writes : (opsMix : List (HloOp τ sig (Elt F))).Forall fun op => op.writes ⊆ (opsW.map (Proc.devRef (τ := τ) .tc)).toFinset :=
  ⟨wsub (y := main_v18) (by decide),
    wsub (y := main_cst_5) (by decide),
    wsub (y := main_v19) (by decide),
    wsub (y := main_v20) (by decide),
    wsub (y := main_v21) (by decide),
    wsub (y := main_v22) (by decide),
    wsub (y := main_v23) (by decide),
    wsub (y := main_v24) (by decide),
    wsub (y := main_v25) (by decide)⟩

theorem opsFusionA_writes : (opsFusionA : List (HloOp τ sig (Elt F))).Forall fun op => op.writes ⊆ (opsW.map (Proc.devRef (τ := τ) .tc)).toFinset :=
  ⟨wsub (y := main_v26) (by decide),
    wsub (y := main_v27) (by decide),
    wsub (y := main_v28) (by decide),
    wsub (y := main_v29) (by decide),
    wsub (y := main_v30) (by decide),
    wsub (y := main_call0.v0.ref) (by decide),
    wsub (y := main_call0.v1.ref) (by decide),
    wsub (y := main_call0.cst.ref) (by decide),
    wsub (y := main_call0.v2.ref) (by decide),
    wsub (y := main_call0.v3.ref) (by decide),
    wsub (y := main_call0.cst_0.ref) (by decide),
    wsub (y := main_call0.v4.ref) (by decide),
    wsub (y := main_call0.v5.ref) (by decide),
    wsub (y := main_call0.v6.ref) (by decide)⟩

theorem opsFusionB_writes : (opsFusionB : List (HloOp τ sig (Elt F))).Forall fun op => op.writes ⊆ (opsW.map (Proc.devRef (τ := τ) .tc)).toFinset :=
  ⟨wsub (y := main_v32) (by decide),
    wsub (y := main_v33) (by decide),
    wsub (y := main_v34) (by decide),
    wsub (y := main_v35) (by decide),
    wsub (y := main_v36) (by decide),
    wsub (y := main_call1.v0.ref) (by decide),
    wsub (y := main_call1.v1.ref) (by decide),
    wsub (y := main_call1.cst.ref) (by decide),
    wsub (y := main_call1.v2.ref) (by decide),
    wsub (y := main_call1.v3.ref) (by decide),
    wsub (y := main_call1.cst_0.ref) (by decide),
    wsub (y := main_call1.v4.ref) (by decide),
    wsub (y := main_call1.v5.ref) (by decide),
    wsub (y := main_call1.v6.ref) (by decide)⟩

theorem opsFusionC_writes : (opsFusionC : List (HloOp τ sig (Elt F))).Forall fun op => op.writes ⊆ (opsW.map (Proc.devRef (τ := τ) .tc)).toFinset :=
  ⟨wsub (y := main_v38) (by decide),
    wsub (y := main_v39) (by decide),
    wsub (y := main_v40) (by decide),
    wsub (y := main_v41) (by decide),
    wsub (y := main_v42) (by decide)⟩

theorem opsReflex_writes : (opsReflex : List (HloOp τ sig (Elt F))).Forall fun op => op.writes ⊆ (opsW.map (Proc.devRef (τ := τ) .tc)).toFinset :=
  ⟨wsub (y := main_v43) (by decide),
    wsub (y := main_v44) (by decide),
    wsub (y := main_v45) (by decide),
    wsub (y := main_v46) (by decide),
    wsub (y := main_v47) (by decide),
    wsub (y := main_v48) (by decide)⟩

theorem opsBiasA_writes : (opsBiasA : List (HloOp τ sig (Elt F))).Forall fun op => op.writes ⊆ (opsW.map (Proc.devRef (τ := τ) .tc)).toFinset :=
  ⟨wsub (y := main_v49) (by decide),
    wsub (y := main_v50) (by decide),
    wsub (y := main_v51) (by decide),
    wsub (y := main_v52) (by decide)⟩

theorem opsBiasB_writes : (opsBiasB : List (HloOp τ sig (Elt F))).Forall fun op => op.writes ⊆ (opsW.map (Proc.devRef (τ := τ) .tc)).toFinset :=
  ⟨wsub (y := main_v53) (by decide),
    wsub (y := main_v54) (by decide),
    wsub (y := main_v55) (by decide),
    wsub (y := main_v56) (by decide),
    wsub (y := main_v57) (by decide),
    wsub (y := main_v58) (by decide)⟩

theorem opsRowMean_writes : (opsRowMean : List (HloOp τ sig (Elt F))).Forall fun op => op.writes ⊆ (opsW.map (Proc.devRef (τ := τ) .tc)).toFinset :=
  ⟨wsub (y := main_cst_6) (by decide),
    wsub (y := main_v59) (by decide),
    wsub (y := main_v60) (by decide),
    wsub (y := main_cst_7) (by decide),
    wsub (y := main_v61) (by decide),
    wsub (y := main_v62) (by decide)⟩

theorem opsVar_writes : (opsVar : List (HloOp τ sig (Elt F))).Forall fun op => op.writes ⊆ (opsW.map (Proc.devRef (τ := τ) .tc)).toFinset :=
  ⟨wsub (y := main_c) (by decide),
    wsub (y := main_call2.cst.ref) (by decide),
    wsub (y := main_call2.v0.ref) (by decide),
    wsub (y := main_call2.v1.ref) (by decide),
    wsub (y := main_call2.cst_0.ref) (by decide),
    wsub (y := main_call2.v2.ref) (by decide),
    wsub (y := main_call2.v3.ref) (by decide),
    wsub (y := main_call2.v4.ref) (by decide),
    wsub (y := main_call2.v5.ref) (by decide),
    wsub (y := main_call2.v6.ref) (by decide),
    wsub (y := main_call2.v7.ref) (by decide),
    wsub (y := main_call2.cst_1.ref) (by decide),
    wsub (y := main_call2.v8.ref) (by decide),
    wsub (y := main_call2.cst_2.ref) (by decide),
    wsub (y := main_call2.v9.ref) (by decide),
    wsub (y := main_call2.v10.ref) (by decide),
    wsub (y := main_call2.v11.ref) (by decide),
    wsub (y := main_call2.v12.ref) (by decide),
    wsub (y := main_call2.cst_3.ref) (by decide),
    wsub (y := main_call2.v13.ref) (by decide),
    wsub (y := main_call2.cst_4.ref) (by decide),
    wsub (y := main_call2.call0.v0.ref) (by decide),
    wsub (y := main_call2.call0.v1.ref) (by decide),
    wsub (y := main_call2.call0.v2.ref) (by decide)⟩

theorem opsLn_writes : (opsLn : List (HloOp τ sig (Elt F))).Forall fun op => op.writes ⊆ (opsW.map (Proc.devRef (τ := τ) .tc)).toFinset :=
  ⟨wsub (y := main_v64) (by decide),
    wsub (y := main_v65) (by decide),
    wsub (y := main_cst_8) (by decide),
    wsub (y := main_v66) (by decide),
    wsub (y := main_v67) (by decide),
    wsub (y := main_v68) (by decide),
    wsub (y := main_v69) (by decide),
    wsub (y := main_v70) (by decide),
    wsub (y := main_v71) (by decide),
    wsub (y := main_v72) (by decide),
    wsub (y := main_v73) (by decide),
    wsub (y := main_v74) (by decide),
    wsub (y := main_v75) (by decide),
    wsub (y := main_v76) (by decide)⟩

theorem opsGateMean_writes : (opsGateMean : List (HloOp τ sig (Elt F))).Forall fun op => op.writes ⊆ (opsW.map (Proc.devRef (τ := τ) .tc)).toFinset :=
  ⟨wsub (y := main_cst_9) (by decide),
    wsub (y := main_v77) (by decide),
    wsub (y := main_cst_10) (by decide),
    wsub (y := main_v78) (by decide)⟩

theorem ops_writes : (ops : List (HloOp τ sig (Elt F))).Forall fun op => op.writes ⊆ (opsW.map (Proc.devRef (τ := τ) .tc)).toFinset :=
  List.forall_iff_forall_mem.mpr fun op h => by
    simp only [ops, ops0, ops1, List.mem_append, or_assoc] at h
    rcases h with h | h | h | h | h | h | h | h | h | h | h | h | h
    exacts [List.forall_iff_forall_mem.mp opsPool_writes op h,
      List.forall_iff_forall_mem.mp opsGate_writes op h,
      List.forall_iff_forall_mem.mp opsMix_writes op h,
      List.forall_iff_forall_mem.mp opsFusionA_writes op h,
      List.forall_iff_forall_mem.mp opsFusionB_writes op h,
      List.forall_iff_forall_mem.mp opsFusionC_writes op h,
      List.forall_iff_forall_mem.mp opsReflex_writes op h,
      List.forall_iff_forall_mem.mp opsBiasA_writes op h,
      List.forall_iff_forall_mem.mp opsBiasB_writes op h,
      List.forall_iff_forall_mem.mp opsRowMean_writes op h,
      List.forall_iff_forall_mem.mp opsVar_writes op h,
      List.forall_iff_forall_mem.mp opsLn_writes op h,
      List.forall_iff_forall_mem.mp opsGateMean_writes op h]

/-- A buffer outside that list keeps its launch contents through the whole program. -/
theorem after_keep (V : Valuation τ sig (Elt F)) (r : Ref sig .tc) (h : r ∉ opsW) :
    after ops V (Proc.devRef .tc r) = V (Proc.devRef .tc r) :=
  after_of_writes_sub ops V ops_writes h

/-! ## The two results -/

set_option maxRecDepth 16384 in
set_option maxHeartbeats 8000000 in
/-- The first result's buffer after the program: the normalised mix, as composed from the arguments. -/
theorem after_v76 (V : Valuation τ sig (Elt F)) :
    after ops V (Proc.devRef .tc main_v76)
      = R76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops, ops0, ops1, after_app]
  simp only [opsPool, opsGate, opsMix, opsFusionA, opsFusionB, opsFusionC, opsReflex, opsBiasA, opsBiasB, opsRowMean, opsVar, opsLn, opsGateMean]
  after_results_simp
  rfl

set_option maxRecDepth 16384 in
set_option maxHeartbeats 4000000 in
/-- The second result's buffer after the program: the mean of the gate. -/
theorem after_v78 (V : Valuation τ sig (Elt F)) :
    after ops V (Proc.devRef .tc main_v78)
      = R78 (V (Proc.devRef .tc main_arg0)) (V (Proc.devRef .tc main_arg1)) (V (Proc.devRef .tc main_arg2)) (V (Proc.devRef .tc main_arg3)) := by
  simp only [ops, ops0, ops1, after_app]
  simp only [opsPool, opsGate, opsMix, opsFusionA, opsFusionB, opsFusionC, opsReflex, opsBiasA, opsBiasB, opsRowMean, opsVar, opsLn, opsGateMean]
  after_results_simp
  rfl

/-- The first result as a function of the launch memory. -/
def res76 (m : (ℓ : Loc nD τ sig) → Buf (Elt F) ℓ) (c : Dev nD) : Buf (Elt F) ((c.tc : Thread nD τ).loc main_v76) :=
  R76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The second result as a function of the launch memory. -/
def res78 (m : (ℓ : Loc nD τ sig) → Buf (Elt F) ℓ) (c : Dev nD) : Buf (Elt F) ((c.tc : Thread nD τ).loc main_v78) :=
  R78 (m ((c.tc : Thread nD τ).loc main_arg0)) (m ((c.tc : Thread nD τ).loc main_arg1)) (m ((c.tc : Thread nD τ).loc main_arg2)) (m ((c.tc : Thread nD τ).loc main_arg3))

/-- Every weakly fair execution of the reference terminates, without a fault, with the two results at `res76` and
    `res78` of the launch memory and the sixteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v76) = res76 m c
      ∧ r.2.mem ((c.tc : Thread nD τ).loc main_v78) = res78 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v76).trans (after_v76 _), (h c main_v78).trans (after_v78 _),
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide)),
      (h c main_arg12).trans (after_keep _ main_arg12 (by decide)),
      (h c main_arg13).trans (after_keep _ main_arg13 (by decide)),
      (h c main_arg14).trans (after_keep _ main_arg14 (by decide)),
      (h c main_arg15).trans (after_keep _ main_arg15 (by decide))⟩)
    (run_after m ρ)

/-- The same with the results dropped: the program runs and its arguments end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2.2) (run m ρ)

end Cert.ReferenceIdeal.RefRun

end
-- ==== Proof.KernelRun.lean ====
/-
  The kernel program's run with its two results named: every weakly fair execution terminates, the normalised array and
  the mean of the gate end at the last contents of the fold of buffer contents, and the arguments end as launched.
-/
import proofs.«129208_j55336358642849_2_alg».proof.Proof.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_values : θ_run defs (onTc (τ := τ) (main (F := F))) ⟨m, fun _ => 0, ρ⟩ (fun r => ∀ c : Dev nD,
      r.2.mem ((c.tc : Thread nD τ).loc main_v45) = W8 m ρ c main_v45
      ∧ r.2.mem ((c.tc : Thread nD τ).loc main_v47) = W8 m ρ c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v45 (by decide)), h c _ (mem_uc main_v47 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.KernelIdeal.Hand

end
-- ==== Proof.HostChain.Terms.lean ====
/-
  The host glue between the pooling region and the normalisation region, named as functions of an abstract pooled
  array `h` of shape [8, 4096] (row b: the 2048 pooled means of the left input, then those of the right).

  * `alphaK h Wg bg`: the gate, the logistic function 1 / (1 + exp (-(h · Wgᵀ + bg))), an [8, 2048] array.
  * `fusionK h W1 b1 W2 b2 W3 b3`: two layers x ↦ silu (x · Wᵀ + b), where silu x = x · (1 / (1 + exp (-x))),
    followed by a linear layer: [8, 4096] → [8, 4096] → [8, 2048] → [8, 2048].
  * `reflexK h Wr br`: tanh (h · Wrᵀ + br), an [8, 2048] array.
  * `chain W`: the buffers after the five stretches of host operations, from the buffers `W`.
  * `hK W`: the first region's [8, 1, 4096] result read as an [8, 4096] array.

  Every term is the composition of the program's own operations, in the program's order, so that the same glue applied
  by the other program to its own pooled array is the same term.
-/
import proofs.«129208_j55336358642849_2_alg».proof.Proof.Gen.KernelIdeal.Regions
import Idealize.ShloMosaic.Lib.StableHlo.Run

noncomputable section

namespace Cert.KernelIdeal.HostChain

open Cert.KernelIdeal Cert.KernelIdeal.Gen Idealize.ShloMosaic Idealize.ShloMosaic.TcCoe Idealize.SL.Sem

variable {F : FTy → Type} [FloatOps F]

/-- The gate: 1 / (1 + exp (-(h · Wgᵀ + bg))). -/
def alphaK (h : FVec F S8x4096 .f32) (Wg : FVec F S2048x4096 .f32) (bg : FVec F S2048 .f32) : FVec F S8x2048 .f32 :=
  (Host.divf (broadcastInDim S8x2048 ![] bcast_S_S8x2048 (constant S_ .f32 0x3F800000#32)) (addf (broadcastInDim S8x2048 ![] bcast_S_S8x2048 (constant S_ .f32 0x3F800000#32)) (Host.exp (Host.negf (addf (Host.dotGeneral dot_S8x4096_S4096x2048_S8x2048_1_0_0_1_n_n none h (transpose S4096x2048 [1, 0] Wg transposes_S2048x4096_S4096x2048_1_0)) (broadcastInDim S8x2048 ![0, 1] bcast_S1x2048_S8x2048_0_1 (broadcastInDim S1x2048 ![1] bcast_S2048_S1x2048_1 bg)))))))

/-- The fusion branch: silu (silu (h · W1ᵀ + b1) · W2ᵀ + b2) · W3ᵀ + b3, with silu x = x · (1 / (1 + exp (-x))). -/
def fusionK (h : FVec F S8x4096 .f32) (W1 : FVec F S4096x4096 .f32) (b1 : FVec F S4096 .f32)
    (W2 : FVec F S2048x4096 .f32) (b2 : FVec F S2048 .f32) (W3 : FVec F S2048x2048 .f32) (b3 : FVec F S2048 .f32) :
    FVec F S8x2048 .f32 :=
  (addf (Host.dotGeneral dot_S8x2048_S2048x2048_S8x2048_1_0_0_1_n_n none (mulf (addf (Host.dotGeneral dot_S8x4096_S4096x2048_S8x2048_1_0_0_1_n_n none (mulf (addf (Host.dotGeneral dot_S8x4096_S4096x4096_S8x4096_1_0_0_1_n_n none h (transpose S4096x4096 [1, 0] W1 transposes_S4096x4096_S4096x4096_1_0)) (broadcastInDim S8x4096 ![0, 1] bcast_S1x4096_S8x4096_0_1 (broadcastInDim S1x4096 ![1] bcast_S4096_S1x4096_1 b1))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none h (transpose S4096x4096 [1, 0] W1 transposes_S4096x4096_S4096x4096_1_0)) (broadcastInDim S8x4096 ![0, 1] bcast_S1x4096_S8x4096_0_1 (broadcastInDim S1x4096 ![1] bcast_S4096_S1x4096_1 b1)))))))) (transpose S4096x2048 [1, 0] W2 transposes_S2048x4096_S4096x2048_1_0)) (broadcastInDim S8x2048 ![0, 1] bcast_S1x2048_S8x2048_0_1 (broadcastInDim S1x2048 ![1] bcast_S2048_S1x2048_1 b2))) (Host.divf (broadcastInDim S8x2048 ![] bcast_S_S8x2048 (constant S_ .f32 0x3F800000#32)) (addf (broadcastInDim S8x2048 ![] bcast_S_S8x2048 (constant S_ .f32 0x3F800000#32)) (Host.exp (Host.negf (addf (Host.dotGeneral dot_S8x4096_S4096x2048_S8x2048_1_0_0_1_n_n none (mulf (addf (Host.dotGeneral dot_S8x4096_S4096x4096_S8x4096_1_0_0_1_n_n none h (transpose S4096x4096 [1, 0] W1 transposes_S4096x4096_S4096x4096_1_0)) (broadcastInDim S8x4096 ![0, 1] bcast_S1x4096_S8x4096_0_1 (broadcastInDim S1x4096 ![1] bcast_S4096_S1x4096_1 b1))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none h (transpose S4096x4096 [1, 0] W1 transposes_S4096x4096_S4096x4096_1_0)) (broadcastInDim S8x4096 ![0, 1] bcast_S1x4096_S8x4096_0_1 (broadcastInDim S1x4096 ![1] bcast_S4096_S1x4096_1 b1)))))))) (transpose S4096x2048 [1, 0] W2 transposes_S2048x4096_S4096x2048_1_0)) (broadcastInDim S8x2048 ![0, 1] bcast_S1x2048_S8x2048_0_1 (broadcastInDim S1x2048 ![1] bcast_S2048_S1x2048_1 b2)))))))) (transpose S2048x2048 [1, 0] W3 transposes_S2048x2048_S2048x2048_1_0)) (broadcastInDim S8x2048 ![0, 1] bcast_S1x2048_S8x2048_0_1 (broadcastInDim S1x2048 ![1] bcast_S2048_S1x2048_1 b3)))

/-- The reflex branch: tanh (h · Wrᵀ + br). -/
def reflexK (h : FVec F S8x4096 .f32) (Wr : FVec F S2048x4096 .f32) (br : FVec F S2048 .f32) : FVec F S8x2048 .f32 :=
  (Host.tanh (addf (Host.dotGeneral dot_S8x4096_S4096x2048_S8x2048_1_0_0_1_n_n none h (transpose S4096x2048 [1, 0] Wr transposes_S2048x4096_S4096x2048_1_0)) (broadcastInDim S8x2048 ![0, 1] bcast_S1x2048_S8x2048_0_1 (broadcastInDim S1x2048 ![1] bcast_S2048_S1x2048_1 br))))

/-- The buffers after the five stretches of host operations between the two regions. -/
abbrev chain (W : Valuation τ sig (Elt F)) : Valuation τ sig (Elt F) :=
  StableHlo.after hostOps1_4 (StableHlo.after hostOps1_3 (StableHlo.after hostOps1_2 (StableHlo.after hostOps1_1 (StableHlo.after hostOps1 W))))

/-- The first region's [8, 1, 4096] result read as an [8, 4096] array. -/
def hK (W : Valuation τ sig (Elt F)) : FVec F S8x4096 .f32 :=
  shapeCast S8x4096 (W (Proc.devRef .tc main_v0)) shapeCasts_S8x1x4096_S8x4096

end Cert.KernelIdeal.HostChain

end
-- ==== Proof.HostChain.Stretch1.lean ====
/-
  The first stretch of host operations (the gate, and the first layer of the fusion branch before its silu), read off
  the buffers it starts from.
-/
import proofs.«129208_j55336358642849_2_alg».proof.Proof.HostChain.Terms

noncomputable section

namespace Cert.KernelIdeal.HostChain

open Cert.KernelIdeal Cert.KernelIdeal.Gen Idealize.ShloMosaic Idealize.ShloMosaic.TcCoe Idealize.SL.Sem

variable {F : FTy → Type} [FloatOps F]

/-- After the first stretch `main_v1` holds the first region's result as an [8, 4096] array. -/
theorem stretch1_h (V : Valuation τ sig (Elt F)) :
    StableHlo.after hostOps1 V (Proc.devRef .tc main_v1) = hK V := by
  dsimp only [hostOps1]; after_results; rfl

/-- After the first stretch `main_v12` holds the gate of the pooled array. -/
theorem stretch1_alpha (V : Valuation τ sig (Elt F)) :
    StableHlo.after hostOps1 V (Proc.devRef .tc main_v12)
      = alphaK (hK V) (V (Proc.devRef .tc main_arg2)) (V (Proc.devRef .tc main_arg3)) := by
  dsimp only [hostOps1]; after_results; rfl

/-- After the first stretch `main_v17` holds the first fusion layer before its silu. -/
theorem stretch1_pre1 (V : Valuation τ sig (Elt F)) :
    StableHlo.after hostOps1 V (Proc.devRef .tc main_v17)
      = (addf (Host.dotGeneral dot_S8x4096_S4096x4096_S8x4096_1_0_0_1_n_n none (hK V) (transpose S4096x4096 [1, 0] (V (Proc.devRef .tc main_arg4)) transposes_S4096x4096_S4096x4096_1_0)) (broadcastInDim S8x4096 ![0, 1] bcast_S1x4096_S8x4096_0_1 (broadcastInDim S1x4096 ![1] bcast_S4096_S1x4096_1 (V (Proc.devRef .tc main_arg5))))) := by
  dsimp only [hostOps1]; after_results; rfl

end Cert.KernelIdeal.HostChain

end
-- ==== Proof.HostChain.Stretch2.lean ====
/-
  The second and the fourth stretch of host operations: the two silu functions x ↦ x · (1 / (1 + exp (-x))), on an
  [8, 4096] and on an [8, 2048] array, read off the buffers they start from.
-/
import proofs.«129208_j55336358642849_2_alg».proof.Proof.HostChain.Terms

noncomputable section

namespace Cert.KernelIdeal.HostChain

open Cert.KernelIdeal Cert.KernelIdeal.Gen Idealize.ShloMosaic Idealize.ShloMosaic.TcCoe Idealize.SL.Sem

variable {F : FTy → Type} [FloatOps F]

/-- After the second stretch `main_v18` holds the silu of `main_v17`. -/
theorem stretch2_silu (V : Valuation τ sig (Elt F)) :
    StableHlo.after hostOps1_1 V (Proc.devRef .tc main_v18)
      = (mulf (V (Proc.devRef .tc main_v17)) (Host.divf (broadcastInDim S8x4096 ![] bcast_S_S8x4096 (constant S_ .f32 0x3F800000#32)) (addf (broadcastInDim S8x4096 ![] bcast_S_S8x4096 (constant S_ .f32 0x3F800000#32)) (Host.exp (Host.negf (V (Proc.devRef .tc main_v17))))))) := by
  dsimp only [hostOps1_1]; after_results; rfl

/-- After the fourth stretch `main_v24` holds the silu of `main_v23`. -/
theorem stretch4_silu (V : Valuation τ sig (Elt F)) :
    StableHlo.after hostOps1_3 V (Proc.devRef .tc main_v24)
      = (mulf (V (Proc.devRef .tc main_v23)) (Host.divf (broadcastInDim S8x2048 ![] bcast_S_S8x2048 (constant S_ .f32 0x3F800000#32)) (addf (broadcastInDim S8x2048 ![] bcast_S_S8x2048 (constant S_ .f32 0x3F800000#32)) (Host.exp (Host.negf (V (Proc.devRef .tc main_v23))))))) := by
  dsimp only [hostOps1_3]; after_results; rfl

end Cert.KernelIdeal.HostChain

end
-- ==== Proof.HostChain.Stretch3.lean ====
/-
  The third stretch of host operations: the second fusion layer before its silu, read off the buffers it starts from.
-/
import proofs.«129208_j55336358642849_2_alg».proof.Proof.HostChain.Terms

noncomputable section

namespace Cert.KernelIdeal.HostChain

open Cert.KernelIdeal Cert.KernelIdeal.Gen Idealize.ShloMosaic Idealize.ShloMosaic.TcCoe Idealize.SL.Sem

variable {F : FTy → Type} [FloatOps F]

/-- After the third stretch `main_v23` holds `main_v18` · W2ᵀ + b2. -/
theorem stretch3_pre2 (V : Valuation τ sig (Elt F)) :
    StableHlo.after hostOps1_2 V (Proc.devRef .tc main_v23)
      = (addf (Host.dotGeneral dot_S8x4096_S4096x2048_S8x2048_1_0_0_1_n_n none (V (Proc.devRef .tc main_v18)) (transpose S4096x2048 [1, 0] (V (Proc.devRef .tc main_arg6)) transposes_S2048x4096_S4096x2048_1_0)) (broadcastInDim S8x2048 ![0, 1] bcast_S1x2048_S8x2048_0_1 (broadcastInDim S1x2048 ![1] bcast_S2048_S1x2048_1 (V (Proc.devRef .tc main_arg7))))) := by
  dsimp only [hostOps1_2]; after_results

end Cert.KernelIdeal.HostChain

end
-- ==== Proof.HostChain.Stretch5.lean ====
/-
  The fifth stretch of host operations: the last fusion layer, the reflex branch, the extra bias, and the four arrays
  the second region reads (the gate and the bias as [8, 1, 2048] arrays, the scale and the shift as [1, 1, 2048] arrays),
  read off the buffers the stretch starts from.
-/
import proofs.«129208_j55336358642849_2_alg».proof.Proof.HostChain.Terms

noncomputable section

namespace Cert.KernelIdeal.HostChain

open Cert.KernelIdeal Cert.KernelIdeal.Gen Idealize.ShloMosaic Idealize.ShloMosaic.TcCoe Idealize.SL.Sem

variable {F : FTy → Type} [FloatOps F]

/-- After the fifth stretch `main_v41` holds `main_v12` as an [8, 1, 2048] array. -/
theorem stretch5_gate (V : Valuation τ sig (Elt F)) :
    StableHlo.after hostOps1_4 V (Proc.devRef .tc main_v41)
      = (broadcastInDim S8x1x2048 ![0, 2] bcast_S8x2048_S8x1x2048_0_2 (V (Proc.devRef .tc main_v12))) := by
  dsimp only [hostOps1_4]; after_results <;> rfl

/-- After the fifth stretch `main_v42` holds the extra bias as an [8, 1, 2048] array. -/
theorem stretch5_bias (V : Valuation τ sig (Elt F)) :
    StableHlo.after hostOps1_4 V (Proc.devRef .tc main_v42)
      = (broadcastInDim S8x1x2048 ![0, 2] bcast_S8x2048_S8x1x2048_0_2 (addf (mulf (broadcastInDim S8x2048 ![] bcast_S_S8x2048 (V (Proc.devRef .tc main_arg14))) (addf (Host.dotGeneral dot_S8x2048_S2048x2048_S8x2048_1_0_0_1_n_n none (V (Proc.devRef .tc main_v24)) (transpose S2048x2048 [1, 0] (V (Proc.devRef .tc main_arg8)) transposes_S2048x2048_S2048x2048_1_0)) (broadcastInDim S8x2048 ![0, 1] bcast_S1x2048_S8x2048_0_1 (broadcastInDim S1x2048 ![1] bcast_S2048_S1x2048_1 (V (Proc.devRef .tc main_arg9)))))) (mulf (broadcastInDim S8x2048 ![] bcast_S_S8x2048 (V (Proc.devRef .tc main_arg15))) (Host.tanh (addf (Host.dotGeneral dot_S8x4096_S4096x2048_S8x2048_1_0_0_1_n_n none (V (Proc.devRef .tc main_v1)) (transpose S4096x2048 [1, 0] (V (Proc.devRef .tc main_arg10)) transposes_S2048x4096_S4096x2048_1_0)) (broadcastInDim S8x2048 ![0, 1] bcast_S1x2048_S8x2048_0_1 (broadcastInDim S1x2048 ![1] bcast_S2048_S1x2048_1 (V (Proc.devRef .tc main_arg11))))))))) := by
  dsimp only [hostOps1_4]; after_results_simp <;> rfl

/-- After the fifth stretch `main_v43` holds the scale as a [1, 1, 2048] array. -/
theorem stretch5_scale (V : Valuation τ sig (Elt F)) :
    StableHlo.after hostOps1_4 V (Proc.devRef .tc main_v43)
      = shapeCast S1x1x2048 (V (Proc.devRef .tc main_arg12)) shapeCasts_S2048_S1x1x2048 := by
  dsimp only [hostOps1_4]; after_results <;> rfl

/-- After the fifth stretch `main_v44` holds the shift as a [1, 1, 2048] array. -/
theorem stretch5_shift (V : Valuation τ sig (Elt F)) :
    StableHlo.after hostOps1_4 V (Proc.devRef .tc main_v44)
      = shapeCast S1x1x2048 (V (Proc.devRef .tc main_arg13)) shapeCasts_S2048_S1x1x2048 := by
  dsimp only [hostOps1_4]; after_results <;> rfl

end Cert.KernelIdeal.HostChain

end
-- ==== Proof.HostChain.Keep.lean ====
/-
  What the host operations leave alone: a buffer that no operation of a stretch writes holds after the stretch what it
  held before; and the mean of the gate the last stretch computes.
-/
import proofs.«129208_j55336358642849_2_alg».proof.Proof.HostChain.Terms

noncomputable section

namespace Cert.KernelIdeal.HostChain

open Cert.KernelIdeal Cert.KernelIdeal.Gen Idealize.ShloMosaic Idealize.ShloMosaic.TcCoe Idealize.SL.Sem

variable {F : FTy → Type} [FloatOps F]

/-- A buffer the first stretch does not write keeps its contents. -/
theorem keep1 (V : Valuation τ sig (Elt F)) {r : Ref sig .tc} (h : r ∉ hostOps1_W) :
    StableHlo.after hostOps1 V (Proc.devRef .tc r) = V (Proc.devRef .tc r) :=
  StableHlo.after_of_writes_sub hostOps1 V hostOps1_writes h

/-- A buffer the second stretch does not write keeps its contents. -/
theorem keep2 (V : Valuation τ sig (Elt F)) {r : Ref sig .tc} (h : r ∉ hostOps1_1_W) :
    StableHlo.after hostOps1_1 V (Proc.devRef .tc r) = V (Proc.devRef .tc r) :=
  StableHlo.after_of_writes_sub hostOps1_1 V hostOps1_1_writes h

/-- A buffer the third stretch does not write keeps its contents. -/
theorem keep3 (V : Valuation τ sig (Elt F)) {r : Ref sig .tc} (h : r ∉ hostOps1_2_W) :
    StableHlo.after hostOps1_2 V (Proc.devRef .tc r) = V (Proc.devRef .tc r) :=
  StableHlo.after_of_writes_sub hostOps1_2 V hostOps1_2_writes h

/-- A buffer the fourth stretch does not write keeps its contents. -/
theorem keep4 (V : Valuation τ sig (Elt F)) {r : Ref sig .tc} (h : r ∉ hostOps1_3_W) :
    StableHlo.after hostOps1_3 V (Proc.devRef .tc r) = V (Proc.devRef .tc r) :=
  StableHlo.after_of_writes_sub hostOps1_3 V hostOps1_3_writes h

/-- A buffer the fifth stretch does not write keeps its contents. -/
theorem keep5 (V : Valuation τ sig (Elt F)) {r : Ref sig .tc} (h : r ∉ hostOps1_4_W) :
    StableHlo.after hostOps1_4 V (Proc.devRef .tc r) = V (Proc.devRef .tc r) :=
  StableHlo.after_of_writes_sub hostOps1_4 V hostOps1_4_writes h

/-- A buffer none of the five stretches writes holds after them what it held before. -/
theorem chain_keep (W : Valuation τ sig (Elt F)) {r : Ref sig .tc} (h1 : r ∉ hostOps1_W) (h2 : r ∉ hostOps1_1_W)
    (h3 : r ∉ hostOps1_2_W) (h4 : r ∉ hostOps1_3_W) (h5 : r ∉ hostOps1_4_W) :
    chain W (Proc.devRef .tc r) = W (Proc.devRef .tc r) :=
  (keep5 _ h5).trans ((keep4 _ h4).trans ((keep3 _ h3).trans ((keep2 _ h2).trans (keep1 W h1))))

/-- The left input is as it was. -/
theorem chain_arg0 (W : Valuation τ sig (Elt F)) : chain W (Proc.devRef .tc main_arg0) = W (Proc.devRef .tc main_arg0) :=
  chain_keep W (by decide) (by decide) (by decide) (by decide) (by decide)

/-- The right input is as it was. -/
theorem chain_arg1 (W : Valuation τ sig (Elt F)) : chain W (Proc.devRef .tc main_arg1) = W (Proc.devRef .tc main_arg1) :=
  chain_keep W (by decide) (by decide) (by decide) (by decide) (by decide)

/-- A buffer the last stretch does not write keeps its contents. -/
theorem tail_keep (V : Valuation τ sig (Elt F)) {r : Ref sig .tc} (h : r ∉ hostOps2_W) :
    StableHlo.after hostOps2 V (Proc.devRef .tc r) = V (Proc.devRef .tc r) :=
  StableHlo.after_of_writes_sub hostOps2 V hostOps2_writes h

/-- After the last stretch `main_v47` holds the sum of all entries of `main_v12` (from the zero pattern) divided by
    the pattern of 16384. -/
theorem tail_mean (V : Valuation τ sig (Elt F)) :
    StableHlo.after hostOps2 V (Proc.devRef .tc main_v47)
      = Host.divf (Host.reduceAdd (V (Proc.devRef .tc main_v12)) (constant S_ .f32 0x00000000#32) reducesTo_S8x2048_S_d0_1 h_S_)
          (constant S_ .f32 0x46800000#32) := by
  dsimp only [hostOps2]; after_results

end Cert.KernelIdeal.HostChain

end
-- ==== Proof.HostChain.lean ====
/-
  The five stretches composed: what the buffers the second region reads, and the gate whose mean is the second result,
  hold after the host glue, as the gate, the fusion branch and the reflex branch of the first region's result.
-/
import proofs.«129208_j55336358642849_2_alg».proof.Proof.HostChain.Stretch1
import proofs.«129208_j55336358642849_2_alg».proof.Proof.HostChain.Stretch2
import proofs.«129208_j55336358642849_2_alg».proof.Proof.HostChain.Stretch3
import proofs.«129208_j55336358642849_2_alg».proof.Proof.HostChain.Stretch5
import proofs.«129208_j55336358642849_2_alg».proof.Proof.HostChain.Keep

noncomputable section

namespace Cert.KernelIdeal.HostChain

open Cert.KernelIdeal Cert.KernelIdeal.Gen Idealize.ShloMosaic Idealize.ShloMosaic.TcCoe Idealize.SL.Sem

variable {F : FTy → Type} [FloatOps F]

/-- The pooled array survives the later stretches. -/
theorem chain_h (W : Valuation τ sig (Elt F)) : chain W (Proc.devRef .tc main_v1) = hK W :=
  (keep5 _ (by decide)).trans ((keep4 _ (by decide)).trans ((keep3 _ (by decide)).trans ((keep2 _ (by decide)).trans (stretch1_h W))))

/-- After the glue `main_v12` holds the gate of the pooled array. -/
theorem chain_alpha (W : Valuation τ sig (Elt F)) :
    chain W (Proc.devRef .tc main_v12)
      = alphaK (hK W) (W (Proc.devRef .tc main_arg2)) (W (Proc.devRef .tc main_arg3)) :=
  (keep5 _ (by decide)).trans ((keep4 _ (by decide)).trans ((keep3 _ (by decide)).trans ((keep2 _ (by decide)).trans (stretch1_alpha W))))

/-- After the glue `main_v41` holds the gate as an [8, 1, 2048] array. -/
theorem chain_gate (W : Valuation τ sig (Elt F)) :
    chain W (Proc.devRef .tc main_v41)
      = (broadcastInDim S8x1x2048 ![0, 2] bcast_S8x2048_S8x1x2048_0_2 (alphaK (hK W) (W (Proc.devRef .tc main_arg2)) (W (Proc.devRef .tc main_arg3)))) := by
  unfold chain
  rw [stretch5_gate, keep4 _ (r := main_v12) (by decide), keep3 _ (r := main_v12) (by decide), keep2 _ (r := main_v12) (by decide), stretch1_alpha]

/-- After the second stretch `main_v18` holds the first fusion layer. -/
theorem at2_act1 (W : Valuation τ sig (Elt F)) :
    (StableHlo.after hostOps1_1 (StableHlo.after hostOps1 W)) (Proc.devRef .tc main_v18)
      = (mulf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5))))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5)))))))))) := by
  rw [stretch2_silu, stretch1_pre1]

/-- After the third stretch `main_v23` holds the second fusion layer before its silu. -/
theorem at3_pre2 (W : Valuation τ sig (Elt F)) :
    (StableHlo.after hostOps1_2 (StableHlo.after hostOps1_1 (StableHlo.after hostOps1 W))) (Proc.devRef .tc main_v23)
      = (addf (Host.dotGeneral dot_S8x4096_S4096x2048_S8x2048_1_0_0_1_n_n none (mulf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5))))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5)))))))))) (transpose S4096x2048 [1, 0] (W (Proc.devRef .tc main_arg6)) transposes_S2048x4096_S4096x2048_1_0)) (broadcastInDim S8x2048 ![0, 1] bcast_S1x2048_S8x2048_0_1 (broadcastInDim S1x2048 ![1] bcast_S2048_S1x2048_1 (W (Proc.devRef .tc main_arg7))))) := by
  rw [stretch3_pre2, at2_act1, keep2 _ (r := main_arg6) (by decide), keep1 _ (r := main_arg6) (by decide), keep2 _ (r := main_arg7) (by decide), keep1 _ (r := main_arg7) (by decide)]

/-- After the fourth stretch `main_v24` holds the second fusion layer. -/
theorem at4_act2 (W : Valuation τ sig (Elt F)) :
    (StableHlo.after hostOps1_3 (StableHlo.after hostOps1_2 (StableHlo.after hostOps1_1 (StableHlo.after hostOps1 W)))) (Proc.devRef .tc main_v24)
      = (mulf (addf (Host.dotGeneral dot_S8x4096_S4096x2048_S8x2048_1_0_0_1_n_n none (mulf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5))))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5)))))))))) (transpose S4096x2048 [1, 0] (W (Proc.devRef .tc main_arg6)) transposes_S2048x4096_S4096x2048_1_0)) (broadcastInDim S8x2048 ![0, 1] bcast_S1x2048_S8x2048_0_1 (broadcastInDim S1x2048 ![1] bcast_S2048_S1x2048_1 (W (Proc.devRef .tc main_arg7))))) (Host.divf (broadcastInDim S8x2048 ![] bcast_S_S8x2048 (constant S_ .f32 0x3F800000#32)) (addf (broadcastInDim S8x2048 ![] bcast_S_S8x2048 (constant S_ .f32 0x3F800000#32)) (Host.exp (Host.negf (addf (Host.dotGeneral dot_S8x4096_S4096x2048_S8x2048_1_0_0_1_n_n none (mulf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5))))) (Host.divf (broadcastInDim S8x4096 ![] bcast_S_S8x4096 (constant S_ .f32 0x3F800000#32)) (addf (broadcastInDim S8x4096 ![] bcast_S_S8x4096 (constant S_ .f32 0x3F800000#32)) (Host.exp (Host.negf (addf (Host.dotGeneral dot_S8x4096_S4096x4096_S8x4096_1_0_0_1_n_n none (hK W) (transpose S4096x4096 [1, 0] (W (Proc.devRef .tc main_arg4)) transposes_S4096x4096_S4096x4096_1_0)) (broadcastInDim S8x4096 ![0, 1] bcast_S1x4096_S8x4096_0_1 (broadcastInDim S1x4096 ![1] bcast_S4096_S1x4096_1 (W (Proc.devRef .tc main_arg5)))))))))) (transpose S4096x2048 [1, 0] (W (Proc.devRef .tc main_arg6)) transposes_S2048x4096_S4096x2048_1_0)) (broadcastInDim S8x2048 ![0, 1] bcast_S1x2048_S8x2048_0_1 (broadcastInDim S1x2048 ![1] bcast_S2048_S1x2048_1 (W (Proc.devRef .tc main_arg7)))))))))) := by
  rw [stretch4_silu, at3_pre2]

/-- After the glue `main_v42` holds the extra bias, the fusion branch times its scale plus the reflex branch times its
    scale, as an [8, 1, 2048] array. -/
theorem chain_bias (W : Valuation τ sig (Elt F)) :
    chain W (Proc.devRef .tc main_v42)
      = (broadcastInDim S8x1x2048 ![0, 2] bcast_S8x2048_S8x1x2048_0_2 (addf (mulf (broadcastInDim S8x2048 ![] bcast_S_S8x2048 (W (Proc.devRef .tc main_arg14))) (fusionK (hK W) (W (Proc.devRef .tc main_arg4)) (W (Proc.devRef .tc main_arg5)) (W (Proc.devRef .tc main_arg6)) (W (Proc.devRef .tc main_arg7)) (W (Proc.devRef .tc main_arg8)) (W (Proc.devRef .tc main_arg9)))) (mulf (broadcastInDim S8x2048 ![] bcast_S_S8x2048 (W (Proc.devRef .tc main_arg15))) (reflexK (hK W) (W (Proc.devRef .tc main_arg10)) (W (Proc.devRef .tc main_arg11)))))) := by
  unfold chain
  rw [stretch5_bias, at4_act2,
    keep4 _ (r := main_arg14) (by decide), keep3 _ (r := main_arg14) (by decide), keep2 _ (r := main_arg14) (by decide), keep1 _ (r := main_arg14) (by decide),
    keep4 _ (r := main_arg8) (by decide), keep3 _ (r := main_arg8) (by decide), keep2 _ (r := main_arg8) (by decide), keep1 _ (r := main_arg8) (by decide),
    keep4 _ (r := main_arg9) (by decide), keep3 _ (r := main_arg9) (by decide), keep2 _ (r := main_arg9) (by decide), keep1 _ (r := main_arg9) (by decide),
    keep4 _ (r := main_arg15) (by decide), keep3 _ (r := main_arg15) (by decide), keep2 _ (r := main_arg15) (by decide), keep1 _ (r := main_arg15) (by decide),
    keep4 _ (r := main_arg10) (by decide), keep3 _ (r := main_arg10) (by decide), keep2 _ (r := main_arg10) (by decide), keep1 _ (r := main_arg10) (by decide),
    keep4 _ (r := main_arg11) (by decide), keep3 _ (r := main_arg11) (by decide), keep2 _ (r := main_arg11) (by decide), keep1 _ (r := main_arg11) (by decide),
    keep4 _ (r := main_v1) (by decide), keep3 _ (r := main_v1) (by decide), keep2 _ (r := main_v1) (by decide), stretch1_h]
  rfl

/-- After the glue `main_v43` holds the scale as a [1, 1, 2048] array. -/
theorem chain_scale (W : Valuation τ sig (Elt F)) :
    chain W (Proc.devRef .tc main_v43) = shapeCast S1x1x2048 (W (Proc.devRef .tc main_arg12)) shapeCasts_S2048_S1x1x2048 := by
  unfold chain
  rw [stretch5_scale, keep4 _ (r := main_arg12) (by decide), keep3 _ (r := main_arg12) (by decide), keep2 _ (r := main_arg12) (by decide), keep1 _ (r := main_arg12) (by decide)]

/-- After the glue `main_v44` holds the shift as a [1, 1, 2048] array. -/
theorem chain_shift (W : Valuation τ sig (Elt F)) :
    chain W (Proc.devRef .tc main_v44) = shapeCast S1x1x2048 (W (Proc.devRef .tc main_arg13)) shapeCasts_S2048_S1x1x2048 := by
  unfold chain
  rw [stretch5_shift, keep4 _ (r := main_arg13) (by decide), keep3 _ (r := main_arg13) (by decide), keep2 _ (r := main_arg13) (by decide), keep1 _ (r := main_arg13) (by decide)]

end Cert.KernelIdeal.HostChain

end
-- ==== Proof.HostValue.lean ====
/-
  The arrays the second region reads, entry by entry, on the extended reals: the gate and the extra bias at (b, 0, j),
  the scale and the shift at (0, 0, j), and the pooled array at (b, k) as the first region's result at (b, 0, k).
  A broadcast along a unit axis reads its operand at the remaining coordinates; a reshape that only adds or drops unit
  axes reads its operand at the same row-major position.
-/
import proofs.«129208_j55336358642849_2_alg».proof.Proof.HostChain
import Idealize.ShloMosaic.PureOps.Ideal
import Idealize.ShloMosaic.Lib.ValueIdx
import Idealize.ShloMosaic.Lib.Pipeline.Value

noncomputable section

namespace Cert.KernelIdeal.HostValue

open Cert.KernelIdeal Cert.KernelIdeal.Gen Cert.KernelIdeal.HostChain
open Idealize.ShloMosaic Idealize.ShloMosaic.TcCoe Idealize.SL.Sem Idealize.ShloMosaic.ValueIdx

/-- An [8, 2048] array spread to [8, 1, 2048] reads at (b, 0, j) the operand at (b, j). -/
theorem spread_apply (x : S8x2048.Idx → EReal) (b : Fin 8) (j : Fin 2048) :
    broadcastInDim S8x1x2048 ![0, 2] bcast_S8x2048_S8x1x2048_0_2 x (ix3 b (0 : Fin 1) j) = x (ix2 b j) :=
  broadcastInDim_apply _ _ x _ (ix2 b j) fun a => match a with | ⟨0, _⟩ => rfl | ⟨1, _⟩ => rfl

/-- A scalar spread to [8, 2048] reads everywhere the scalar. -/
theorem splat_apply (x : S_.Idx → EReal) (i : S8x2048.Idx) :
    broadcastInDim S8x2048 ![] bcast_S_S8x2048 x i = x ix0 :=
  broadcastInDim_apply _ _ x _ ix0 fun a => a.elim0

/-- A [2048] array read as [1, 1, 2048] has at (0, 0, j) the operand's entry j. -/
theorem row_apply (x : S2048.Idx → EReal) (j : Fin 2048) :
    shapeCast S1x1x2048 x shapeCasts_S2048_S1x1x2048 (ix3 (0 : Fin 1) (0 : Fin 1) j) = x (ix1 j) :=
  shapeCast_apply x _ _ _ (by
    rw [Shape.rowMajor_val_one, Shape.rowMajor_val_three]
    show j.val = (0 * 1 + 0) * 2048 + j.val
    omega)

/-- The gate the second region reads, at (b, 0, j). -/
theorem gate_apply (W : Valuation τ sig (Elt Ideal)) (b : Fin 8) (j : Fin 2048) :
    (chain W (Proc.devRef .tc main_v41) : S8x1x2048.Idx → EReal) (ix3 b (0 : Fin 1) j)
      = alphaK (hK W) (W (Proc.devRef .tc main_arg2)) (W (Proc.devRef .tc main_arg3)) (ix2 b j) := by
  rw [chain_gate]; exact spread_apply _ b j

/-- The extra bias the second region reads, at (b, 0, j): the fusion branch times its scale plus the reflex branch times
    its scale, the two scales `fs`, `rs` being the contents of `main_arg14` and `main_arg15`. -/
theorem bias_apply (W : Valuation τ sig (Elt Ideal)) (fs rs : S_.Idx → EReal)
    (hfs : W (Proc.devRef .tc main_arg14) = fs) (hrs : W (Proc.devRef .tc main_arg15) = rs) (b : Fin 8) (j : Fin 2048) :
    (chain W (Proc.devRef .tc main_v42) : S8x1x2048.Idx → EReal) (ix3 b (0 : Fin 1) j)
      = fs ix0
          * fusionK (hK W) (W (Proc.devRef .tc main_arg4)) (W (Proc.devRef .tc main_arg5)) (W (Proc.devRef .tc main_arg6))
              (W (Proc.devRef .tc main_arg7)) (W (Proc.devRef .tc main_arg8)) (W (Proc.devRef .tc main_arg9)) (ix2 b j)
        + rs ix0
          * reflexK (hK W) (W (Proc.devRef .tc main_arg10)) (W (Proc.devRef .tc main_arg11)) (ix2 b j) := by
  rw [chain_bias, hfs, hrs]
  refine (spread_apply _ b j).trans ?_
  rw [addf_apply, mulf_apply, mulf_apply, splat_apply, splat_apply]

/-- The scale the second region reads, at (0, 0, j). -/
theorem scale_apply (W : Valuation τ sig (Elt Ideal)) (j : Fin 2048) :
    (chain W (Proc.devRef .tc main_v43) : S1x1x2048.Idx → EReal) (ix3 (0 : Fin 1) (0 : Fin 1) j)
      = (W (Proc.devRef .tc main_arg12) : S2048.Idx → EReal) (ix1 j) := by
  rw [chain_scale]; exact row_apply _ j

/-- The shift the second region reads, at (0, 0, j). -/
theorem shift_apply (W : Valuation τ sig (Elt Ideal)) (j : Fin 2048) :
    (chain W (Proc.devRef .tc main_v44) : S1x1x2048.Idx → EReal) (ix3 (0 : Fin 1) (0 : Fin 1) j)
      = (W (Proc.devRef .tc main_arg13) : S2048.Idx → EReal) (ix1 j) := by
  rw [chain_shift]; exact row_apply _ j

/-- An [8, 1, 4096] array read as [8, 4096] has at (b, k) the operand's entry (b, 0, k). -/
theorem flat_apply (x : S8x1x4096.Idx → EReal) (b : Fin 8) (k : Fin 4096) :
    shapeCast S8x4096 x shapeCasts_S8x1x4096_S8x4096 (ix2 b k) = x (ix3 b (0 : Fin 1) k) :=
  shapeCast_apply x _ _ _ (by
    rw [Shape.rowMajor_val_three, Shape.rowMajor_val_two]
    show (b.val * 1 + 0) * 4096 + k.val = b.val * 4096 + k.val
    omega)

/-- The pooled array at (b, k) is the first region's result at (b, 0, k). -/
theorem hK_apply (W : Valuation τ sig (Elt Ideal)) (b : Fin 8) (k : Fin 4096) :
    (hK W : S8x4096.Idx → EReal) (ix2 b k)
      = (W (Proc.devRef .tc main_v0) : S8x1x4096.Idx → EReal) (ix3 b (0 : Fin 1) k) :=
  flat_apply _ b k

end Cert.KernelIdeal.HostValue

end
-- ==== Proof.Spec.lean ====
/-
  The mathematics both programs are compared through, on the extended reals, index by index, over literal shapes.

  * `pool x b j`: the mean over the 4096 positions of column `j` of batch row `b` of an [8, 4096, 2048] array.
  * `hcat xl xr`: the [8, 4096] array whose row `b` is the pooled means of `xl` followed by those of `xr`.
  * `mix a xl xr bias`: the gated mix `(1 - a)·xl + a·xr` plus a bias.
  * `mean`, `var`, `ln`: the mean, the centred (two-pass) variance and the layer normalisation of a row of 2048
    entries with scale `γ` and shift `β`.
  * `out`: the whole result array: entry (b, l, j) is the layer normalisation, at column j, of the row
    k ↦ mix (a b k) (xl b l k) (xr b l k) (bias b k).

  Float literals stay as their bit patterns: the same pattern on both sides is never evaluated.
-/
import Idealize.ShloMosaic.PureOps.Ideal
import Idealize.ShloMosaic.Lib.ValueIdx

noncomputable section

namespace Cert.Spec

open Idealize.ShloMosaic Idealize.ShloMosaic.ValueIdx

abbrev S3 : Shape := ⟨3, ![8, 4096, 2048]⟩
abbrev S2h : Shape := ⟨2, ![8, 4096]⟩
abbrev S2 : Shape := ⟨2, ![8, 2048]⟩

/-- The f32 patterns of 1, 2048, 4096 and of the normalisation's epsilon. -/
abbrev one : EReal := Ideal.ofBits .f32 0x3F800000#32
abbrev n2048 : EReal := Ideal.ofBits .f32 0x45000000#32
abbrev n4096 : EReal := Ideal.ofBits .f32 0x45800000#32
abbrev eps : EReal := Ideal.ofBits .f32 0x3727C5AC#32

/-- The mean over the 4096 positions of one column of one batch row. -/
def pool (x : S3.Idx → EReal) (b : Fin 8) (j : Fin 2048) : EReal :=
  Ideal.div (∑ l : Fin 4096, x (ix3 b l j)) n4096

/-- Row `b`: the pooled means of `xl`, then those of `xr`. -/
def hcat (xl xr : S3.Idx → EReal) : S2h.Idx → EReal := fun i =>
  if h : (i 1).val < 2048 then pool xl (i 0) ⟨(i 1).val, h⟩
  else pool xr (i 0) ⟨(i 1).val - 2048, by have := (i 1).isLt; simp only [Matrix.cons_val_one, Matrix.cons_val_zero] at this; omega⟩

/-- The gated mix of the two inputs plus a bias. -/
def mix (a xl xr bias : EReal) : EReal := ((one - a) * xl + a * xr) + bias

/-- The mean of a row of 2048 entries. -/
def mean (row : Fin 2048 → EReal) : EReal := Ideal.div (∑ k, row k) n2048

/-- Its centred variance. -/
def var (row : Fin 2048 → EReal) : EReal := Ideal.div (∑ k, (row k - mean row) * (row k - mean row)) n2048

/-- Its layer normalisation with scale `γ` and shift `β`, at column `j`. -/
def ln (row γ β : Fin 2048 → EReal) (j : Fin 2048) : EReal :=
  ((row j - mean row) * Ideal.rsqrt (var row + eps)) * γ j + β j

/-- The whole result: entry (b, l, j). -/
def out (xl xr : S3.Idx → EReal) (a bias : S2.Idx → EReal) (γ β : Fin 2048 → EReal) : S3.Idx → EReal := fun i =>
  ln (fun k => mix (a (ix2 (i 0) k)) (xl (ix3 (i 0) (i 1) k)) (xr (ix3 (i 0) (i 1) k)) (bias (ix2 (i 0) k))) γ β (i 2)

end Cert.Spec

end
-- ==== Proof.R1Value.lean ====
/-
  What the second region's body leaves in its output block, entry by entry, on the extended reals.

  The body forms the gated mix m = (1 - a)·xl + a·xr + bias of the two [1, 1024, 2048] input blocks with the gate
  row a and the bias row (each a [1, 1, 2048] row laid over the 1024 rows), takes for each row r the mean over the 2048
  lanes (the lane sum divided by 2048), the centred block m - mean, the mean of its square over the lanes, adds the
  epsilon, takes the reciprocal square root, and stores (m - mean)·rsqrt(var + eps)·γ + β, the scale γ and shift β
  again rows laid over the block. So entry (0, r, j) of the output block is the layer normalisation, at lane j, of
  the row k ↦ mix(a k, xl (r, k), xr (r, k), bias k).

  The steps that are not entry-by-entry: a row laid over the rows reads the row's entry j; a column laid over the
  lanes reads the column's entry r; a [1, 1024] array viewed as a column keeps its entries; the lane sum at row r is
  the plain sum over the 2048 lanes.
-/
import proofs.«129208_j55336358642849_2_alg».proof.Proof.R1Frame
import proofs.«129208_j55336358642849_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- A [1, 1, 2048] row laid over the 1024 rows of a [1, 1024, 2048] block: entry (0, r, j) is the row's entry j. -/
theorem rowOver_apply {α : Type} (v : S1x1x2048.Idx → α) (h : S1x1x2048.Broadcasts S1x1024x2048) (r : Fin 1024) (j : Fin 2048) :
    broadcastTo S1x1024x2048 v h (ix3 (0 : Fin 1) r j) = v (ix3 (0 : Fin 1) (0 : Fin 1) j) := by
  refine broadcastTo_apply v h (ix3 (0 : Fin 1) r j) (ix3 (0 : Fin 1) (0 : Fin 1) j) fun a => ?_
  match a with
  | ⟨0, _⟩ => rfl
  | ⟨1, _⟩ => rfl
  | ⟨2, _⟩ =>
    show j.val = if (2048 : ℕ) = 1 then 0 else j.val
    rw [if_neg (by decide)]

/-- A [1, 1024, 1] column laid over the 2048 lanes: entry (0, r, j) is the column's entry r. -/
theorem colOver_apply {α : Type} (v : S1x1024x1.Idx → α) (h : S1x1024x1.Broadcasts S1x1024x2048) (r : Fin 1024) (j : Fin 2048) :
    broadcastTo S1x1024x2048 v h (ix3 (0 : Fin 1) r j) = v (ix3 (0 : Fin 1) r (0 : Fin 1)) := by
  refine broadcastTo_apply v h (ix3 (0 : Fin 1) r j) (ix3 (0 : Fin 1) r (0 : Fin 1)) fun a => ?_
  match a with
  | ⟨0, _⟩ => rfl
  | ⟨1, _⟩ =>
    show r.val = if (1024 : ℕ) = 1 then 0 else r.val
    rw [if_neg (by decide)]
  | ⟨2, _⟩ => rfl

/-- A [1, 1024] array viewed as a [1, 1024, 1] column keeps its entries: both positions are r in row-major order. -/
theorem asCol_apply {α : Type} (v : S1x1024.Idx → α) (h : S1x1024.ShapeCasts S1x1024x1) (r : Fin 1024) :
    shapeCast S1x1024x1 v h (ix3 (0 : Fin 1) r (0 : Fin 1)) = v (ix2 (0 : Fin 1) r) :=
  shapeCast_apply v h _ _ (by
    rw [Shape.rowMajor_val_three, Shape.rowMajor_val_two]
    show 0 * 1024 + r.val = (0 * 1024 + r.val) * 1 + 0
    omega)

/-- The sum over the lanes of a [1, 1024, 2048] block, at row r: the plain sum of the 2048 entries of that row
    (the accumulator is the zero pattern, which the reading at the extended reals drops). -/
theorem laneSum_apply (src : FVec Ideal S1x1024x2048 .f32) (h : S1x1024x2048.Reduces [2] S1x1024) (hφ : FKind.Formats .f32)
    (hacc : (0x00000000#32 : BitVec 32) = 0x00000000#32) (r : Fin 1024) :
    multiReduction .add [2] S1x1024 src 0x00000000#32 h hφ hacc (ix2 (0 : Fin 1) r) = ∑ k : Fin 2048, src (ix3 (0 : Fin 1) r k) := by
  refine (Ideal.multiReduction_add_single src 0x00000000#32 h hφ hacc (ix2 (0 : Fin 1) r)).trans ?_
  refine Finset.sum_congr rfl fun k _ => congrArg src (funext fun a => ?_)
  match a with
  | ⟨0, _⟩ => exact Fin.ext rfl
  | ⟨1, _⟩ => exact Fin.ext rfl
  | ⟨2, _⟩ => exact Fin.ext rfl

/-- The reciprocal square root of a vector is taken entry by entry. -/
theorem rsqrt_at {s : Shape} {φ : FTy} (v : FVec Ideal s φ) (i : s.Idx) : rsqrt v i = Ideal.rsqrt (v i) := rfl

/-- THE OUTPUT BLOCK AT AN ENTRY: entry (0, r, j) of what the body leaves is the layer normalisation, at lane j, of the
    mixed row r of the two input blocks, with the scale and shift rows. The one store is of the whole block and the
    loads are of whole buffers, so the block is the store's value; the value is read at the entry by pushing the entry
    through the entry-by-entry operations and reading the two lane sums (the second one's summand contains the first)
    as plain sums. -/
theorem out1_6_apply (x0 x1 : Vec Ideal S1x1024x2048 .f32) (x2 x3 x4 x5 : Vec Ideal S1x1x2048 .f32) (r : Fin 1024) (j : Fin 2048) :
    out1_6 (F := Ideal) x0 x1 x2 x3 x4 x5 (ix3 0 r j)
      = Cert.Spec.ln (fun k => Cert.Spec.mix (x2 (ix3 0 0 k)) (x0 (ix3 0 r k)) (x1 (ix3 0 r k)) (x3 (ix3 0 0 k))) (fun k => x4 (ix3 0 0 k)) (fun k => x5 (ix3 0 0 k)) j := by
  have hz : (![0, 0, 0] : Fin 3 → Nat) = fun _ => 0 := funext fun a => by fin_cases a <;> rfl
  unfold out1_6
  rw [View.canon_unit_zero hz]
  simp only [View.ld_unit_zero (S := S1x1024x2048) hz, View.ld_unit_zero (S := S1x1x2048) hz]
  unfold k1_pay1 k1_pay2
  dsimp only
  -- the entry through the entry-by-entry operations, down to the two outer lane sums
  simp only [addf_apply, mulf_apply, subf_apply, divf_apply, rsqrt_at, broadcast_apply, rowOver_apply, colOver_apply,
    asCol_apply, shapeCast_self]
  rw [laneSum_apply, laneSum_apply]
  -- the summands; the variance's summand contains the mean's lane sum again
  simp only [addf_apply, mulf_apply, subf_apply, divf_apply, rsqrt_at, broadcast_apply, rowOver_apply, colOver_apply,
    asCol_apply, shapeCast_self]
  rw [laneSum_apply]
  simp only [addf_apply, mulf_apply, subf_apply, divf_apply, rsqrt_at, broadcast_apply, rowOver_apply, colOver_apply,
    asCol_apply, shapeCast_self]
  unfold Cert.Spec.ln Cert.Spec.var Cert.Spec.mean Cert.Spec.mix
  rfl

end Cert.KernelIdeal.Hand

end
-- ==== Proof.R1Array.lean ====
/-
  From the blocks to the array: what the second region leaves in its result array, as one function of the arrays the
  region finds, entry by entry.

  Point t of the 8 × 4 grid is (b, q) = (t / 4, t % 4). Its output block is rows 1024·q … 1024·q + 1023 of batch row b;
  the two input blocks are the same rows of the two inputs; the gate and bias blocks are row b of their [8, 1, 2048]
  arrays; the scale and shift blocks are the whole [1, 1, 2048] arrays. So entry (0, r, j) of what point t writes back
  is the layer normalisation, at lane j, of the mixed row (b, 1024·q + r) — entry (b, 1024·q + r, j) of one function
  of the whole arrays. Every entry (b, l, j) of the result lies in the block of the point 4·b + l / 1024, and every
  point writes its block back, so the array ends as that function.
-/
import proofs.«129208_j55336358642849_2_alg».proof.Proof.R1Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region1
variable (V : (c : Dev nD) → (b : Ref sig .tc) → Buf (Elt Ideal) ((c : Thread nD τ).loc b))

/-- The result array as one function of the arrays the region finds: entry (b, l, j) is the layer normalisation, at
    lane j, of the row k ↦ mix(gate (b, 0, k), left (b, l, k), right (b, l, k), bias (b, 0, k)) with the scale and
    shift rows. -/
def G1 (c : Dev nD) : S8x4096x2048.Idx → EReal := fun i =>
  Cert.Spec.ln (fun k => Cert.Spec.mix ((V c main_v41 : S8x1x2048.Idx → EReal) (ix3 (i 0) 0 k)) ((V c main_arg0 : S8x4096x2048.Idx → EReal) (ix3 (i 0) (i 1) k)) ((V c main_arg1 : S8x4096x2048.Idx → EReal) (ix3 (i 0) (i 1) k)) ((V c main_v42 : S8x1x2048.Idx → EReal) (ix3 (i 0) 0 k))) (fun k => (V c main_v43 : S1x1x2048.Idx → EReal) (ix3 0 0 k)) (fun k => (V c main_v44 : S1x1x2048.Idx → EReal) (ix3 0 0 k)) (i 2)

/-- Where each window's block sits at point t, decided over the 32 points: windows 6, 0, 1 at (t / 4, t % 4, 0),
    windows 2, 3 at (t / 4, 0, 0), windows 4, 5 at (0, 0, 0). -/
theorem where1 : ∀ t : Fin cfg1.N,
    win1_6.index t (0 : Fin 3) = t.val / 4 ∧ win1_6.index t (1 : Fin 3) = t.val % 4 ∧ win1_6.index t (2 : Fin 3) = 0
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 3) = 0 ∧ win1_5.index t (1 : Fin 3) = 0 ∧ win1_5.index t (2 : Fin 3) = 0 :=
  (by decide +kernel : ∀ t : Fin grid1.N, _)

/-- Window 0's block at point t, at row r and lane k, is the array's entry (t / 4, 1024·(t % 4) + r, k). -/
theorem blk1_0_at (c : Dev nD) (t : Fin cfg1.N) (r : Fin 1024) (k : Fin 2048) (b : Fin 8) (l : Fin 4096)
    (hb : b.val = t.val / 4) (hl : l.val = 1024 * (t.val % 4) + r.val) :
    (iblk1 V c 0 t : Vec Ideal S1x1024x2048 .f32) (ix3 (0 : Fin 1) r k) = (V c main_arg0 : S8x4096x2048.Idx → EReal) (ix3 b l k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_arg0 _ = V c main_arg0 _
  congr 1
  funext a
  apply Fin.ext
  match a with
  | ⟨0, _⟩ => show win1_0.index t (0 : Fin 3) * 1 + 1 * 0 = b.val; omega
  | ⟨1, _⟩ => show win1_0.index t (1 : Fin 3) * 1024 + 1 * r.val = l.val; omega
  | ⟨2, _⟩ => show win1_0.index t (2 : Fin 3) * 2048 + 1 * k.val = k.val; omega

/-- Window 1's block at point t, at row r and lane k, is the array's entry (t / 4, 1024·(t % 4) + r, k). -/
theorem blk1_1_at (c : Dev nD) (t : Fin cfg1.N) (r : Fin 1024) (k : Fin 2048) (b : Fin 8) (l : Fin 4096)
    (hb : b.val = t.val / 4) (hl : l.val = 1024 * (t.val % 4) + r.val) :
    (iblk1 V c 1 t : Vec Ideal S1x1024x2048 .f32) (ix3 (0 : Fin 1) r k) = (V c main_arg1 : S8x4096x2048.Idx → EReal) (ix3 b l k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_arg1 _ = V c main_arg1 _
  congr 1
  funext a
  apply Fin.ext
  match a with
  | ⟨0, _⟩ => show win1_1.index t (0 : Fin 3) * 1 + 1 * 0 = b.val; omega
  | ⟨1, _⟩ => show win1_1.index t (1 : Fin 3) * 1024 + 1 * r.val = l.val; omega
  | ⟨2, _⟩ => show win1_1.index t (2 : Fin 3) * 2048 + 1 * k.val = k.val; omega

/-- Window 2's block at point t, at lane k, is the array's entry (t / 4, 0, k). -/
theorem blk1_2_at (c : Dev nD) (t : Fin cfg1.N) (k : Fin 2048) (b : Fin 8) (hb : b.val = t.val / 4) :
    (iblk1 V c 2 t : Vec Ideal S1x1x2048 .f32) (ix3 (0 : Fin 1) (0 : Fin 1) k) = (V c main_v41 : S8x1x2048.Idx → EReal) (ix3 b (0 : Fin 1) k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_v41 _ = V c main_v41 _
  congr 1
  funext a
  apply Fin.ext
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 2048 + 1 * k.val = k.val; omega

/-- Window 3's block at point t, at lane k, is the array's entry (t / 4, 0, k). -/
theorem blk1_3_at (c : Dev nD) (t : Fin cfg1.N) (k : Fin 2048) (b : Fin 8) (hb : b.val = t.val / 4) :
    (iblk1 V c 3 t : Vec Ideal S1x1x2048 .f32) (ix3 (0 : Fin 1) (0 : Fin 1) k) = (V c main_v42 : S8x1x2048.Idx → EReal) (ix3 b (0 : Fin 1) k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_v42 _ = V c main_v42 _
  congr 1
  funext a
  apply Fin.ext
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 2048 + 1 * k.val = k.val; omega

/-- Window 4's block at any point, at lane k, is the array's entry (0, 0, k). -/
theorem blk1_4_at (c : Dev nD) (t : Fin cfg1.N) (k : Fin 2048) :
    (iblk1 V c 4 t : Vec Ideal S1x1x2048 .f32) (ix3 (0 : Fin 1) (0 : Fin 1) k) = (V c main_v43 : S1x1x2048.Idx → EReal) (ix3 (0 : Fin 1) (0 : Fin 1) k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_v43 _ = V c main_v43 _
  congr 1
  funext a
  apply Fin.ext
  match a with
  | ⟨0, _⟩ => show win1_4.index t (0 : Fin 3) * 1 + 1 * 0 = 0; omega
  | ⟨1, _⟩ => show win1_4.index t (1 : Fin 3) * 1 + 1 * 0 = 0; omega
  | ⟨2, _⟩ => show win1_4.index t (2 : Fin 3) * 2048 + 1 * k.val = k.val; omega

/-- Window 5's block at any point, at lane k, is the array's entry (0, 0, k). -/
theorem blk1_5_at (c : Dev nD) (t : Fin cfg1.N) (k : Fin 2048) :
    (iblk1 V c 5 t : Vec Ideal S1x1x2048 .f32) (ix3 (0 : Fin 1) (0 : Fin 1) k) = (V c main_v44 : S1x1x2048.Idx → EReal) (ix3 (0 : Fin 1) (0 : Fin 1) k) := by
  obtain ⟨e6_0, e6_1, e6_2, e0_0, e0_1, e0_2, e1_0, e1_1, e1_2, e2_0, e2_1, e2_2, e3_0, e3_1, e3_2, e4_0, e4_1, e4_2, e5_0, e5_1, e5_2⟩ := where1 t
  unfold iblk1
  rw [View.read_apply]
  show V c main_v44 _ = V c main_v44 _
  congr 1
  funext a
  apply Fin.ext
  match a with
  | ⟨0, _⟩ => show win1_5.index t (0 : Fin 3) * 1 + 1 * 0 = 0; omega
  | ⟨1, _⟩ => show win1_5.index t (1 : Fin 3) * 1 + 1 * 0 = 0; omega
  | ⟨2, _⟩ => show win1_5.index t (2 : Fin 3) * 2048 + 1 * k.val = k.val; omega

/-- What the body leaves at block position y of point t is the function's entry i, when i is the array position of
    y in the block: (t / 4, 1024·(t % 4) + y 1, y 2). -/
theorem entry1_6 (c : Dev nD) (t : Fin cfg1.N) (y : S1x1024x2048.Idx) (i : S8x4096x2048.Idx)
    (h0 : (i 0).val = t.val / 4) (h1 : (i 1).val = 1024 * (t.val % 4) + (y 1).val) (h2 : (i 2).val = (y 2).val) :
    out1_6 (F := Ideal) (iblk1 V c 0 t) (iblk1 V c 1 t) (iblk1 V c 2 t) (iblk1 V c 3 t) (iblk1 V c 4 t) (iblk1 V c 5 t) y = G1 V c i := by
  obtain ⟨u, r, j, rfl⟩ : ∃ (u : Fin 1) (r : Fin 1024) (j : Fin 2048), y = ix3 u r j := ⟨y 0, y 1, y 2, eq_ix3 y⟩
  obtain ⟨b, l, j', rfl⟩ : ∃ (b : Fin 8) (l : Fin 4096) (j' : Fin 2048), i = ix3 b l j' := ⟨i 0, i 1, i 2, eq_ix3 i⟩
  obtain rfl : u = 0 := Subsingleton.elim _ _
  have hb : b.val = t.val / 4 := h0
  have hl : l.val = 1024 * (t.val % 4) + r.val := h1
  obtain rfl : j = j' := (Fin.ext h2).symm
  refine (out1_6_apply (iblk1 V c 0 t) (iblk1 V c 1 t) (iblk1 V c 2 t) (iblk1 V c 3 t) (iblk1 V c 4 t) (iblk1 V c 5 t) r j).trans ?_
  show _ = Cert.Spec.ln (fun k => Cert.Spec.mix ((V c main_v41 : S8x1x2048.Idx → EReal) (ix3 b (0 : Fin 1) k)) ((V c main_arg0 : S8x4096x2048.Idx → EReal) (ix3 b l k)) ((V c main_arg1 : S8x4096x2048.Idx → EReal) (ix3 b l k)) ((V c main_v42 : S8x1x2048.Idx → EReal) (ix3 b (0 : Fin 1) k))) (fun k => (V c main_v43 : S1x1x2048.Idx → EReal) (ix3 (0 : Fin 1) (0 : Fin 1) k)) (fun k => (V c main_v44 : S1x1x2048.Idx → EReal) (ix3 (0 : Fin 1) (0 : Fin 1) k)) j
  have hrow : (fun k : Fin 2048 => Cert.Spec.mix ((iblk1 V c 2 t : Vec Ideal S1x1x2048 .f32) (ix3 0 0 k)) ((iblk1 V c 0 t : Vec Ideal S1x1024x2048 .f32) (ix3 0 r k)) ((iblk1 V c 1 t : Vec Ideal S1x1024x2048 .f32) (ix3 0 r k)) ((iblk1 V c 3 t : Vec Ideal S1x1x2048 .f32) (ix3 0 0 k)))
      = fun k : Fin 2048 => Cert.Spec.mix ((V c main_v41 : S8x1x2048.Idx → EReal) (ix3 b (0 : Fin 1) k)) ((V c main_arg0 : S8x4096x2048.Idx → EReal) (ix3 b l k)) ((V c main_arg1 : S8x4096x2048.Idx → EReal) (ix3 b l k)) ((V c main_v42 : S8x1x2048.Idx → EReal) (ix3 b (0 : Fin 1) k)) :=
    funext fun k => by
      rw [blk1_2_at V c t k b hb, blk1_0_at V c t r k b l hb hl, blk1_1_at V c t r k b l hb hl, blk1_3_at V c t k b hb]
  have hγ : (fun k : Fin 2048 => (iblk1 V c 4 t : Vec Ideal S1x1x2048 .f32) (ix3 0 0 k)) = fun k : Fin 2048 => (V c main_v43 : S1x1x2048.Idx → EReal) (ix3 (0 : Fin 1) (0 : Fin 1) k) :=
    funext fun k => blk1_4_at V c t k
  have hβ : (fun k : Fin 2048 => (iblk1 V c 5 t : Vec Ideal S1x1x2048 .f32) (ix3 0 0 k)) = fun k : Fin 2048 => (V c main_v44 : S1x1x2048.Idx → EReal) (ix3 (0 : Fin 1) (0 : Fin 1) k) :=
    funext fun k => blk1_5_at V c t k
  rw [hrow, hγ, hβ]

/-- WHAT POINT t WRITES BACK is block t of the function. -/
theorem flushed1_6_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  obtain ⟨e6_0, e6_1, e6_2, e0_0, e0_1, e0_2, e1_0, e1_1, e1_2, e2_0, e2_1, e2_2, e3_0, e3_1, e3_2, e4_0, e4_1, e4_2, e5_0, e5_1, e5_2⟩ := where1 t
  funext y
  show out1_6 (F := Ideal) (iblk1 V c 0 t) (iblk1 V c 1 t) (iblk1 V c 2 t) (iblk1 V c 3 t) (iblk1 V c 4 t) (iblk1 V c 5 t) y = G1 V c (((cfg1.win 6).blk t).view.emb y)
  refine entry1_6 V c t y (((cfg1.win 6).blk t).view.emb y) ?_ ?_ ?_
  · show win1_6.index t (0 : Fin 3) * 1 + 1 * (y 0).val = t.val / 4
    have hy : (y 0).val < 1 := (y 0).isLt
    omega
  · show win1_6.index t (1 : Fin 3) * 1024 + 1 * (y 1).val = 1024 * (t.val % 4) + (y 1).val
    omega
  · show win1_6.index t (2 : Fin 3) * 2048 + 1 * (y 2).val = (y 2).val
    omega

/-- An entry of the array is in point t's block iff each coordinate is in the block's range on its axis. -/
theorem mem_blk1_6 (t : Fin cfg1.N) (i : S8x4096x2048.Idx) :
    i ∈ ((cfg1.win 6).blk t).view.set ↔ ∀ a : Fin 3, win1_6.index t a * S1x1024x2048.size a ≤ (i a).val ∧ (i a).val < win1_6.index t a * S1x1024x2048.size a + S1x1024x2048.size a := by
  show i ∈ ((View.whole main_v45).slice (win1_6.rect t)).set ↔ _
  rw [View.set_slice_whole, Rect.mem_set_unit]
  exact Iff.rfl

/-- Every entry (b, l, j) of the array is in the block of the point 4·b + l / 1024, which writes it back. -/
theorem covered1_6 (i : S8x4096x2048.Idx) :
    ∃ t : Fin cfg1.N, (cfg1.win 6).flush t = true ∧ i ∈ ((cfg1.win 6).blk t).view.set := by
  have hi0 : (i 0).val < 8 := (i 0).isLt
  have hi1 : (i 1).val < 4096 := (i 1).isLt
  have hi2 : (i 2).val < 2048 := (i 2).isLt
  have hN : cfg1.N = 32 := N_1
  obtain ⟨t, ht⟩ : ∃ t : Fin cfg1.N, t.val = 4 * (i 0).val + (i 1).val / 1024 :=
    ⟨⟨4 * (i 0).val + (i 1).val / 1024, by rw [hN]; omega⟩, rfl⟩
  obtain ⟨e6_0, e6_1, e6_2, e0_0, e0_1, e0_2, e1_0, e1_1, e1_2, e2_0, e2_1, e2_2, e3_0, e3_1, e3_2, e4_0, e4_1, e4_2, e5_0, e5_1, e5_2⟩ := where1 t
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 2048 ≤ (i 2).val ∧ (i 2).val < win1_6.index t (2 : Fin 3) * 2048 + 2048; omega

/-- THE RESULT ARRAY after the region: the function, everywhere. -/
theorem final1_6 (c : Dev nD) : (dat1 (F := Ideal) V c).arrAt 6 cfg1.N = G1 V c :=
  (dat1 (F := Ideal) V c).arrAt_eq_of_cover 6 (G1 V c) (fun t _ => flushed1_6_eq V c t) (covered1_6)

end Region1

end Cert.KernelIdeal.Hand

end
-- ==== Proof.KernelValue.lean ====
/-
  The kernel program's two results as the specification's functions of the launch memory.

  The second region's result array is, entry by entry, the layer normalisation of the gated mix of the arrays the
  region finds (the region's value, from blocks to the array). What it finds: the two inputs, untouched by the first
  region and by the host operations between; the gate and the extra bias, which those operations compute from the
  first region's pooled array and the weights; the scale and shift rows. Reading each at an entry, with the pooled
  array being the specification's pooled array (the hypothesis, the first region's value), gives the specification's
  whole result. The last host operations then take the mean of the gate: the second result.
-/
import proofs.«129208_j55336358642849_2_alg».proof.Proof.Run
import proofs.«129208_j55336358642849_2_alg».proof.Proof.HostValue
import proofs.«129208_j55336358642849_2_alg».proof.Proof.R1Array
import proofs.«129208_j55336358642849_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The region's function of the arrays it finds is the specification's whole result, once each array it reads is
    identified entry by entry: the two inputs, the gate and the bias at (b, 0, k) as [8, 2048] arrays at (b, k), the
    scale and the shift at (0, 0, k) as rows at k. -/
theorem G1_eq_out (V : (c : Dev nD) → (b : Ref sig .tc) → Buf (Elt Ideal) ((c : Thread nD τ).loc b)) (c : Dev nD)
    (xl xr : S8x4096x2048.Idx → EReal) (a bias : S8x2048.Idx → EReal) (γ β : Fin 2048 → EReal)
    (h0 : (V c main_arg0 : S8x4096x2048.Idx → EReal) = xl) (h1 : (V c main_arg1 : S8x4096x2048.Idx → EReal) = xr)
    (ha : ∀ (b : Fin 8) (k : Fin 2048), (V c main_v41 : S8x1x2048.Idx → EReal) (ix3 b (0 : Fin 1) k) = a (ix2 b k))
    (hb : ∀ (b : Fin 8) (k : Fin 2048), (V c main_v42 : S8x1x2048.Idx → EReal) (ix3 b (0 : Fin 1) k) = bias (ix2 b k))
    (hγ : ∀ k : Fin 2048, (V c main_v43 : S1x1x2048.Idx → EReal) (ix3 (0 : Fin 1) (0 : Fin 1) k) = γ k)
    (hβ : ∀ k : Fin 2048, (V c main_v44 : S1x1x2048.Idx → EReal) (ix3 (0 : Fin 1) (0 : Fin 1) k) = β k) :
    G1 V c = Cert.Spec.out xl xr a bias γ β := by
  subst h0 h1
  funext i
  obtain ⟨b, l, j, rfl⟩ : ∃ (b : Fin 8) (l : Fin 4096) (j : Fin 2048), i = ix3 b l j := ⟨i 0, i 1, i 2, eq_ix3 i⟩
  unfold G1 Cert.Spec.out
  show Cert.Spec.ln (fun k => Cert.Spec.mix ((V c main_v41 : S8x1x2048.Idx → EReal) (ix3 b (0 : Fin 1) k)) ((V c main_arg0 : S8x4096x2048.Idx → EReal) (ix3 b l k)) ((V c main_arg1 : S8x4096x2048.Idx → EReal) (ix3 b l k)) ((V c main_v42 : S8x1x2048.Idx → EReal) (ix3 b (0 : Fin 1) k))) (fun k => (V c main_v43 : S1x1x2048.Idx → EReal) (ix3 (0 : Fin 1) (0 : Fin 1) k)) (fun k => (V c main_v44 : S1x1x2048.Idx → EReal) (ix3 (0 : Fin 1) (0 : Fin 1) k)) j
    = Cert.Spec.ln (fun k => Cert.Spec.mix (a (ix2 b k)) ((V c main_arg0 : S8x4096x2048.Idx → EReal) (ix3 b l k)) ((V c main_arg1 : S8x4096x2048.Idx → EReal) (ix3 b l k)) (bias (ix2 b k))) γ β j
  have hrow : (fun k : Fin 2048 => Cert.Spec.mix ((V c main_v41 : S8x1x2048.Idx → EReal) (ix3 b (0 : Fin 1) k)) ((V c main_arg0 : S8x4096x2048.Idx → EReal) (ix3 b l k)) ((V c main_arg1 : S8x4096x2048.Idx → EReal) (ix3 b l k)) ((V c main_v42 : S8x1x2048.Idx → EReal) (ix3 b (0 : Fin 1) k)))
      = fun k : Fin 2048 => Cert.Spec.mix (a (ix2 b k)) ((V c main_arg0 : S8x4096x2048.Idx → EReal) (ix3 b l k)) ((V c main_arg1 : S8x4096x2048.Idx → EReal) (ix3 b l k)) (bias (ix2 b k)) :=
    funext fun k => by rw [ha b k, hb b k]
  have hγ' : (fun k : Fin 2048 => (V c main_v43 : S1x1x2048.Idx → EReal) (ix3 (0 : Fin 1) (0 : Fin 1) k)) = γ := funext hγ
  have hβ' : (fun k : Fin 2048 => (V c main_v44 : S1x1x2048.Idx → EReal) (ix3 (0 : Fin 1) (0 : Fin 1) k)) = β := funext hβ
  rw [hrow, hγ', hβ']

/-- The one entry of an array with no axes. -/
abbrev scalar (x : S_.Idx → EReal) : EReal := x ix0

section Launch
variable (m : (ℓ : Loc nD τ sig) → Buf (Elt Ideal) ℓ) (ρ : Dev nD → PrngReg) (c : Dev nD)

/-- After the first region the two inputs, which it only reads, are as launched; -/
theorem W1_main_arg0 : W1 m ρ c main_arg0 = m ((c.tc : Thread nD τ).loc main_arg0) :=
  ((W1_arr m ρ c 0).trans (((dat0 (V0 m ρ) c).arrAt_in 0 rfl _).trans (A_eq0 (V0 m ρ) c 0))).trans rfl
theorem W1_main_arg1 : W1 m ρ c main_arg1 = m ((c.tc : Thread nD τ).loc main_arg1) :=
  ((W1_arr m ρ c 1).trans (((dat0 (V0 m ρ) c).arrAt_in 1 rfl _).trans (A_eq0 (V0 m ρ) c 1))).trans rfl
/-- and so is every other argument, which it does not touch. -/
theorem W1_main_arg2 : W1 m ρ c main_arg2 = m ((c.tc : Thread nD τ).loc main_arg2) :=
  (W1_of_ne m ρ c main_arg2 (by decide)).trans rfl
theorem W1_main_arg3 : W1 m ρ c main_arg3 = m ((c.tc : Thread nD τ).loc main_arg3) :=
  (W1_of_ne m ρ c main_arg3 (by decide)).trans rfl
theorem W1_main_arg4 : W1 m ρ c main_arg4 = m ((c.tc : Thread nD τ).loc main_arg4) :=
  (W1_of_ne m ρ c main_arg4 (by decide)).trans rfl
theorem W1_main_arg5 : W1 m ρ c main_arg5 = m ((c.tc : Thread nD τ).loc main_arg5) :=
  (W1_of_ne m ρ c main_arg5 (by decide)).trans rfl
theorem W1_main_arg6 : W1 m ρ c main_arg6 = m ((c.tc : Thread nD τ).loc main_arg6) :=
  (W1_of_ne m ρ c main_arg6 (by decide)).trans rfl
theorem W1_main_arg7 : W1 m ρ c main_arg7 = m ((c.tc : Thread nD τ).loc main_arg7) :=
  (W1_of_ne m ρ c main_arg7 (by decide)).trans rfl
theorem W1_main_arg8 : W1 m ρ c main_arg8 = m ((c.tc : Thread nD τ).loc main_arg8) :=
  (W1_of_ne m ρ c main_arg8 (by decide)).trans rfl
theorem W1_main_arg9 : W1 m ρ c main_arg9 = m ((c.tc : Thread nD τ).loc main_arg9) :=
  (W1_of_ne m ρ c main_arg9 (by decide)).trans rfl
theorem W1_main_arg10 : W1 m ρ c main_arg10 = m ((c.tc : Thread nD τ).loc main_arg10) :=
  (W1_of_ne m ρ c main_arg10 (by decide)).trans rfl
theorem W1_main_arg11 : W1 m ρ c main_arg11 = m ((c.tc : Thread nD τ).loc main_arg11) :=
  (W1_of_ne m ρ c main_arg11 (by decide)).trans rfl
theorem W1_main_arg12 : W1 m ρ c main_arg12 = m ((c.tc : Thread nD τ).loc main_arg12) :=
  (W1_of_ne m ρ c main_arg12 (by decide)).trans rfl
theorem W1_main_arg13 : W1 m ρ c main_arg13 = m ((c.tc : Thread nD τ).loc main_arg13) :=
  (W1_of_ne m ρ c main_arg13 (by decide)).trans rfl
theorem W1_main_arg14 : W1 m ρ c main_arg14 = m ((c.tc : Thread nD τ).loc main_arg14) :=
  (W1_of_ne m ρ c main_arg14 (by decide)).trans rfl
theorem W1_main_arg15 : W1 m ρ c main_arg15 = m ((c.tc : Thread nD τ).loc main_arg15) :=
  (W1_of_ne m ρ c main_arg15 (by decide)).trans rfl

/-- THE FIRST RESULT: the second region's result array, which the last host operations leave alone, is the
    specification's whole result of the launch memory, given that the pooled array the host operations read is the
    specification's. -/
theorem kernel_v45 (hpool : HostChain.hK (W1 m ρ c) = Cert.Spec.hcat (m ((c.tc : Thread nD τ).loc main_arg0)) (m ((c.tc : Thread nD τ).loc main_arg1))) :
    (W8 m ρ c main_v45 : S8x4096x2048.Idx → EReal)
      = Cert.Spec.out (m ((c.tc : Thread nD τ).loc main_arg0)) (m ((c.tc : Thread nD τ).loc main_arg1)) (HostChain.alphaK (F := Ideal) (Cert.Spec.hcat (m ((c.tc : Thread nD τ).loc main_arg0)) (m ((c.tc : Thread nD τ).loc main_arg1))) (m ((c.tc : Thread nD τ).loc main_arg2)) (m ((c.tc : Thread nD τ).loc main_arg3))) (fun i => scalar (m ((c.tc : Thread nD τ).loc main_arg14)) * HostChain.fusionK (F := Ideal) (Cert.Spec.hcat (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i + scalar (m ((c.tc : Thread nD τ).loc main_arg15)) * HostChain.reflexK (F := Ideal) (Cert.Spec.hcat (m ((c.tc : Thread nD τ).loc main_arg0)) (m ((c.tc : Thread nD τ).loc main_arg1))) (m ((c.tc : Thread nD τ).loc main_arg10)) (m ((c.tc : Thread nD τ).loc main_arg11)) i) (fun k => ((m ((c.tc : Thread nD τ).loc main_arg12)) : S2048.Idx → EReal) (ix1 k)) (fun k => ((m ((c.tc : Thread nD τ).loc main_arg13)) : S2048.Idx → EReal) (ix1 k)) := by
  have e1 : W8 m ρ c main_v45 = G1 (V6 m ρ) c :=
    (HostChain.tail_keep (W7 m ρ c) (r := main_v45) (by decide)).trans ((W7_arr m ρ c 6).trans (final1_6 (V6 m ρ) c))
  refine e1.trans (G1_eq_out (V6 m ρ) c _ _ _ _ _ _ ?_ ?_ ?_ ?_ ?_ ?_)
  · exact (HostChain.chain_arg0 (W1 m ρ c)).trans (W1_main_arg0 m ρ c)
  · exact (HostChain.chain_arg1 (W1 m ρ c)).trans (W1_main_arg1 m ρ c)
  · intro b k
    refine (HostValue.gate_apply (W1 m ρ c) b k).trans ?_
    rw [hpool, W1_main_arg2 m ρ c, W1_main_arg3 m ρ c]
  · intro b k
    refine (HostValue.bias_apply (W1 m ρ c) _ _ rfl rfl b k).trans ?_
    rw [hpool, W1_main_arg4 m ρ c, W1_main_arg5 m ρ c, W1_main_arg6 m ρ c, W1_main_arg7 m ρ c, W1_main_arg8 m ρ c,
      W1_main_arg9 m ρ c, W1_main_arg10 m ρ c, W1_main_arg11 m ρ c, W1_main_arg14 m ρ c, W1_main_arg15 m ρ c]
  · intro k
    refine (HostValue.scale_apply (W1 m ρ c) k).trans ?_
    rw [W1_main_arg12 m ρ c]
  · intro k
    refine (HostValue.shift_apply (W1 m ρ c) k).trans ?_
    rw [W1_main_arg13 m ρ c]

/-- THE SECOND RESULT: the mean of the gate over its 8 · 2048 entries, as the last host operations compute it. -/
theorem kernel_v47 (hpool : HostChain.hK (W1 m ρ c) = Cert.Spec.hcat (m ((c.tc : Thread nD τ).loc main_arg0)) (m ((c.tc : Thread nD τ).loc main_arg1))) :
    W8 m ρ c main_v47
      = Host.divf (F := Ideal) (Host.reduceAdd (F := Ideal) (HostChain.alphaK (F := Ideal) (Cert.Spec.hcat (m ((c.tc : Thread nD τ).loc main_arg0)) (m ((c.tc : Thread nD τ).loc main_arg1))) (m ((c.tc : Thread nD τ).loc main_arg2)) (m ((c.tc : Thread nD τ).loc main_arg3))) (constant (F := Ideal) S_ .f32 0x00000000#32) reducesTo_S8x2048_S_d0_1 h_S_) (constant (F := Ideal) S_ .f32 0x46800000#32) := by
  have e12 : W7 m ρ c (Proc.devRef .tc main_v12) = (HostChain.alphaK (F := Ideal) (Cert.Spec.hcat (m ((c.tc : Thread nD τ).loc main_arg0)) (m ((c.tc : Thread nD τ).loc main_arg1))) (m ((c.tc : Thread nD τ).loc main_arg2)) (m ((c.tc : Thread nD τ).loc main_arg3))) := by
    refine (W7_of_ne m ρ c main_v12 (by decide)).trans ((HostChain.chain_alpha (W1 m ρ c)).trans ?_)
    rw [hpool, W1_main_arg2 m ρ c, W1_main_arg3 m ρ c]
  refine (HostChain.tail_mean (W7 m ρ c)).trans ?_
  rw [e12]

end Launch

end Cert.KernelIdeal.Hand

end
-- ==== Proof.LibCanonUnit.lean ====
/-
  The contents a list of writes leaves, read at an entry, when the newest write goes through a unit-stride rectangle.
  With the writes listed last first: an entry inside the newest rectangle holds that write's value at the entry's
  position within the rectangle (coordinate = offset + position on every axis); an entry outside it on some axis
  (below the offset, or at or past offset + size) holds what the earlier writes left. General: nothing here depends
  on a particular program.
-/
import Idealize.ShloMosaic.Lib.Pipeline.FrameBody

namespace Idealize.ShloMosaic.View

open Idealize.ShloMosaic

variable {s : Shape} {e : EltTy} {Val : EltTy → Type}

/-- An entry at position `x` of the newest write's rectangle holds that write's value at `x`. -/
theorem canon_cons_unit_of_mem [∀ e, Nonempty (Val e)] {off off' size : Fin s.rank → ℕ} (inb : ∀ a, off a + size a ≤ s.size a)
    (w : (Rect.unit off size inb).shape.Idx → Val e) (L : List (Piece Val s e)) (y : s.Idx)
    (x : (Rect.unit off size inb).shape.Idx) (heq : off = off') (hx : ∀ a, (y a).val = off' a + (x a).val) :
    canon ((⟨Rect.unit off size inb, w⟩ : Piece Val s e) :: L) y = w x := by
  subst heq
  have hy : (Rect.unit off size inb).emb x = y := funext fun a => Fin.ext (by
    show off a + 1 * (x a).val = (y a).val
    rw [hx a, Nat.one_mul])
  exact (congrArg (canon ((⟨Rect.unit off size inb, w⟩ : Piece Val s e) :: L)) hy.symm).trans
    (canon_cons_emb (Rect.unit off size inb) w L x)

/-- An entry outside the newest write's rectangle on axis `a` holds what the earlier writes left. -/
theorem canon_cons_unit_of_not_mem [∀ e, Nonempty (Val e)] {off off' size : Fin s.rank → ℕ} (inb : ∀ a, off a + size a ≤ s.size a)
    (w : (Rect.unit off size inb).shape.Idx → Val e) (L : List (Piece Val s e)) (y : s.Idx) (heq : off = off')
    (a : Fin s.rank) (ha : (y a).val < off' a ∨ off' a + size a ≤ (y a).val) :
    canon ((⟨Rect.unit off size inb, w⟩ : Piece Val s e) :: L) y = canon L y := by
  subst heq
  refine canon_cons_of_not_mem _ L ?_
  intro hm
  have hm' : y ∈ (Rect.unit off size inb).set := hm
  have h := (Rect.mem_set_unit (inb := inb)).mp hm' a
  omega

/-- The same with the rectangle's offsets as they stand: an entry at position `x` of the newest write's rectangle. -/
theorem canon_cons_unit_hit [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x :=
  canon_cons_unit_of_mem inb w L y x rfl hx
/-- The same with the rectangle's offsets as they stand: an entry outside the newest write's rectangle on axis `a`. -/
theorem canon_cons_unit_skip [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y :=
  canon_cons_unit_of_not_mem inb w L y rfl a ha

end Idealize.ShloMosaic.View
-- ==== Proof.R0Value.lean ====
/-
  The pooling region: each control case's found stores read back as values, generic in the float instance.

  Tile 0 leaves in the left accumulator the zero block plus the tile's column sums of the left block, and likewise on
  the right; a later tile leaves what it found plus its tile's column sums; tile 3 moreover leaves in the output buffer
  the left accumulator times 1/4096 in columns 0 to 2047 and the right one in columns 2048 to 4095. The accumulators'
  arithmetic is the payloads `k0_pay1` … `k0_pay6` of the body.
-/
import proofs.«129208_j55336358642849_2_alg».proof.Proof.R0Acc
import proofs.«129208_j55336358642849_2_alg».proof.Proof.LibCanonUnit
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## Tile 0 -/

theorem sout_A_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) :
    sout0_A_0 c i arg2 harg2 arg3 harg3 arg4 harg4 arg5 harg5 arg6 harg6 hc0 hc1 x0 x1 = k0_pay3 (k0_pay1 (F := F)) x0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x1x2048) hz3, View.readCov_unit_zero (S := S1x1x2048) _ hz3]
  simp only [View.readAt_eq_ld, harg2.read_unread, harg3.read_unread, harg5.read_unread, harg6.read_unread, View.ld_unit_zero (S := S1x1x2048) hz3, View.ld_unit_zero (S := S1x1024x2048) hz3]

theorem sout_A_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i) (x0 x1 : Vec F S1x1024x2048 .f32) :
    sout0_A_1 c i arg2 harg2 arg3 harg3 arg4 harg4 arg5 harg5 arg6 harg6 hc0 hc1 x0 x1 = k0_pay4 (k0_pay2 (F := F)) x1 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1x2048) hz3, View.readCov_unit_zero (S := S1x1x2048) _ hz3]
  simp only [View.readAt_eq_ld, harg2.read_unread, harg3.read_unread, harg5.read_unread, harg6.read_unread, View.ld_unit_zero (S := S1x1x2048) hz3, View.ld_unit_zero (S := S1x1024x2048) hz3]

/-! ## Tiles 1 and 2 -/

theorem sout_B_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) :
    sout0_B_0 c i arg2 harg2 arg3 harg3 arg4 harg4 arg5 harg5 arg6 harg6 hc0 hc1 x0 x1 xs0 xs1 = k0_pay3 xs0 x0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz3]
  simp only [View.readAt_eq_ld, harg2.read_unread, harg3.read_unread, harg5.read_unread, harg6.read_unread, View.ld_unit_zero (S := S1x1x2048) hz3, View.ld_unit_zero (S := S1x1024x2048) hz3]

theorem sout_B_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i) (x0 x1 : Vec F S1x1024x2048 .f32) (xs0 xs1 : Vec F S1x1x2048 .f32) :
    sout0_B_1 c i arg2 harg2 arg3 harg3 arg4 harg4 arg5 harg5 arg6 harg6 hc0 hc1 x0 x1 xs0 xs1 = k0_pay4 xs1 x1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz3]
  simp only [View.readAt_eq_ld, harg2.read_unread, harg3.read_unread, harg5.read_unread, harg6.read_unread, View.ld_unit_zero (S := S1x1x2048) hz3, View.ld_unit_zero (S := S1x1024x2048) hz3]

/-! ## Tile 3 -/

theorem sout_C_0 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) :
    sout0_C_0 c i arg2 harg2 arg3 harg3 arg4 harg4 arg5 harg5 arg6 harg6 hc0 hc1 x0 x1 xs0 xs1 = k0_pay3 xs0 x0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg2.read_unread, harg3.read_unread, harg5.read_unread, harg6.read_unread, View.ld_unit_zero (S := S1x1x2048) hz3, View.ld_unit_zero (S := S1x1024x2048) hz3]

theorem sout_C_1 (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32) :
    sout0_C_1 c i arg2 harg2 arg3 harg3 arg4 harg4 arg5 harg5 arg6 harg6 hc0 hc1 x0 x1 xs0 xs1 = k0_pay4 xs1 x1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg2.read_unread, harg3.read_unread, harg5.read_unread, harg6.read_unread, View.ld_unit_zero (S := S1x1x2048) hz3, View.ld_unit_zero (S := S1x1024x2048) hz3]

/-- The output buffer after tile 3, columns 0 to 2047: the left accumulator's final sums, scaled. -/
theorem out_C_2_lo (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32)
    (y : S1x1x4096.Idx) (j : Fin 2048) (h2 : (y 2).val = j.val) :
    out0_C_2 c i arg2 harg2 arg3 harg3 arg4 harg4 arg5 harg5 arg6 harg6 hc0 hc1 x0 x1 xs0 xs1 y = k0_pay5 (k0_pay3 xs0 x0) (Idealize.ShloMosaic.ValueIdx.ix3 0 0 j) := by
  have h0 : (y 0).val = 0 := by have := (y 0).isLt; simp only [Matrix.cons_val_zero] at this; omega
  have h1 : (y 1).val = 0 := by have := (y 1).isLt; simp only [Matrix.cons_val_one, Matrix.cons_val_zero] at this; omega
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_cons_unit_skip _ _ _ y 2 (Or.inl (by show (y 2).val < 2048; have := j.isLt; omega))]
  refine (View.canon_cons_unit_hit _ _ _ y ?x ?hx).trans ?_
  case x => exact Idealize.ShloMosaic.ValueIdx.ix3 (0 : Fin 1) (0 : Fin 1) j
  case hx =>
    intro a
    match a with
    | ⟨0, _⟩ => exact h0
    | ⟨1, _⟩ => exact h1
    | ⟨2, _⟩ => show (y 2).val = 0 + j.val; omega
  rw [View.readCov_unit_zero (S := S1x1x2048) _ hz3]
  simp only [View.readAt_eq_ld, harg2.read_unread, harg3.read_unread, harg5.read_unread, harg6.read_unread, View.ld_unit_zero (S := S1x1x2048) hz3, View.ld_unit_zero (S := S1x1024x2048) hz3]

/-- Columns 2048 to 4095: the right accumulator's, scaled. -/
theorem out_C_2_hi (c : Dev nD) (i : grid0.Coords) (arg2 : Memref sig .tc .vmem S1x1024x2048 .f32) (harg2 : arg2.IsWhole) (arg3 : Memref sig .tc .vmem S1x1024x2048 .f32) (harg3 : arg3.IsWhole) (arg4 : Memref sig .tc .vmem S1x1x4096 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i) (x0 x1 : Vec F S1x1024x2048 .f32) (xs0 xs1 : Vec F S1x1x2048 .f32)
    (y : S1x1x4096.Idx) (j : Fin 2048) (h2 : (y 2).val = 2048 + j.val) :
    out0_C_2 c i arg2 harg2 arg3 harg3 arg4 harg4 arg5 harg5 arg6 harg6 hc0 hc1 x0 x1 xs0 xs1 y = k0_pay6 (k0_pay4 xs1 x1) (Idealize.ShloMosaic.ValueIdx.ix3 0 0 j) := by
  have h0 : (y 0).val = 0 := by have := (y 0).isLt; simp only [Matrix.cons_val_zero] at this; omega
  have h1 : (y 1).val = 0 := by have := (y 1).isLt; simp only [Matrix.cons_val_one, Matrix.cons_val_zero] at this; omega
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  refine (View.canon_cons_unit_hit _ _ _ y ?x ?hx).trans ?_
  case x => exact Idealize.ShloMosaic.ValueIdx.ix3 (0 : Fin 1) (0 : Fin 1) j
  case hx =>
    intro a
    match a with
    | ⟨0, _⟩ => exact h0
    | ⟨1, _⟩ => exact h1
    | ⟨2, _⟩ => show (y 2).val = 2048 + j.val; omega
  rw [View.readCov_unit_zero (S := S1x1x2048) _ hz3]
  simp only [View.readAt_eq_ld, harg2.read_unread, harg3.read_unread, harg5.read_unread, harg6.read_unread, View.ld_unit_zero (S := S1x1x2048) hz3, View.ld_unit_zero (S := S1x1024x2048) hz3]

end Cert.KernelIdeal.Hand

end
-- ==== Proof.R0Chain.lean ====
/-
  The pooling region: the two accumulators in closed form, by induction on the grid point.

  `accL n` is the left accumulator after point n: at a tile 0 the zero block plus the tile's column sums of the left
  input's block, at a later tile what the point before left plus the tile's column sums; `accR n` likewise on the
  right. What the region's recursion `outsAt0` carries in its accumulator components is exactly this pair, and at a
  tile-3 point its output component holds, in columns 0 to 2047, the left accumulator scaled by 1/4096 and, in columns
  2048 to 4095, the right one.
-/
import proofs.«129208_j55336358642849_2_alg».proof.Proof.R0Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The left accumulator after point `n`. -/
def accL (c : Dev nD) : (n : ℕ) → n < cfg0.N → Vec F S1x1x2048 .f32
  | 0, h => k0_pay3 (k0_pay1 (F := F)) (iblk0 V c 0 ⟨0, h⟩)
  | n + 1, h => if (n + 1) % 4 = 0 then k0_pay3 (k0_pay1 (F := F)) (iblk0 V c 0 ⟨n + 1, h⟩)
      else k0_pay3 (accL c n (Nat.lt_of_succ_lt h)) (iblk0 V c 0 ⟨n + 1, h⟩)

/-- The right accumulator after point `n`. -/
def accR (c : Dev nD) : (n : ℕ) → n < cfg0.N → Vec F S1x1x2048 .f32
  | 0, h => k0_pay4 (k0_pay2 (F := F)) (iblk0 V c 1 ⟨0, h⟩)
  | n + 1, h => if (n + 1) % 4 = 0 then k0_pay4 (k0_pay2 (F := F)) (iblk0 V c 1 ⟨n + 1, h⟩)
      else k0_pay4 (accR c n (Nat.lt_of_succ_lt h)) (iblk0 V c 1 ⟨n + 1, h⟩)

theorem accL_succ_zero (c : Dev nD) (n : ℕ) (h : n + 1 < cfg0.N) (h0 : (n + 1) % 4 = 0) :
    accL V c (n + 1) h = k0_pay3 (k0_pay1 (F := F)) (iblk0 V c 0 ⟨n + 1, h⟩) := by
  rw [accL, if_pos h0]
theorem accL_succ_pos (c : Dev nD) (n : ℕ) (h : n + 1 < cfg0.N) (h0 : ¬(n + 1) % 4 = 0) :
    accL V c (n + 1) h = k0_pay3 (accL V c n (Nat.lt_of_succ_lt h)) (iblk0 V c 0 ⟨n + 1, h⟩) := by
  rw [accL, if_neg h0]
theorem accR_succ_zero (c : Dev nD) (n : ℕ) (h : n + 1 < cfg0.N) (h0 : (n + 1) % 4 = 0) :
    accR V c (n + 1) h = k0_pay4 (k0_pay2 (F := F)) (iblk0 V c 1 ⟨n + 1, h⟩) := by
  rw [accR, if_pos h0]
theorem accR_succ_pos (c : Dev nD) (n : ℕ) (h : n + 1 < cfg0.N) (h0 : ¬(n + 1) % 4 = 0) :
    accR V c (n + 1) h = k0_pay4 (accR V c n (Nat.lt_of_succ_lt h)) (iblk0 V c 1 ⟨n + 1, h⟩) := by
  rw [accR, if_neg h0]

/-- One point, accumulator components: tile 0 restarts from zero, a later tile adds to what it is handed. -/
theorem stepAt0_acc (c : Dev nD) (t : Fin cfg0.N) (prev : Vec F S1x1x2048 .f32 × Vec F S1x1x2048 .f32) :
    (stepAt0 V c t prev).2 = if t.val % 4 = 0 then (k0_pay3 (k0_pay1 (F := F)) (iblk0 V c 0 t), k0_pay4 (k0_pay2 (F := F)) (iblk0 V c 1 t))
      else (k0_pay3 prev.1 (iblk0 V c 0 t), k0_pay4 prev.2 (iblk0 V c 1 t)) := by
  by_cases h0 : t.val % 4 = 0
  · rw [if_pos h0, show stepAt0 V c t prev = _ from dif_pos h0]
    dsimp only
    rw [sout_A_0, sout_A_1]
  · rw [if_neg h0]
    by_cases h1 : t.val % 4 = 3
    · rw [show stepAt0 V c t prev = _ from (dif_neg h0).trans (dif_pos h1)]
      dsimp only
      rw [sout_C_0, sout_C_1]
    · rw [show stepAt0 V c t prev = _ from (dif_neg h0).trans (dif_neg h1)]
      dsimp only
      rw [sout_B_0, sout_B_1]

/-- The recursion's accumulator components ARE the closed forms. -/
theorem acc_eq (c : Dev nD) : ∀ (n : ℕ) (h : n < cfg0.N), (outsAt0 V c n h).2 = (accL V c n h, accR V c n h)
  | 0, h => by
    show (stepAt0 V c ⟨0, h⟩ (junkS, junkS)).2 = _
    rw [stepAt0_acc, if_pos (by rfl : (⟨0, h⟩ : Fin cfg0.N).val % 4 = 0)]
    rfl
  | n + 1, h => by
    show (stepAt0 V c ⟨n + 1, h⟩ (outsAt0 V c n (Nat.lt_of_succ_lt h)).2).2 = _
    rw [stepAt0_acc, acc_eq c n (Nat.lt_of_succ_lt h)]
    by_cases h0 : (n + 1) % 4 = 0
    · rw [if_pos (by exact h0), accL_succ_zero V c n h h0, accR_succ_zero V c n h h0]
    · rw [if_neg (by exact h0), accL_succ_pos V c n h h0, accR_succ_pos V c n h h0]

/-- At a tile-3 point the output buffer holds the scaled left accumulator in its low half, -/
theorem out_lo (c : Dev nD) (t : Fin cfg0.N) (h1 : t.val % 4 = 3) (y : S1x1x4096.Idx) (j : Fin 2048) (h2 : (y 2).val = j.val) :
    (outsAt0 V c t.val t.isLt).1 y = k0_pay5 (accL V c t.val t.isLt) (Idealize.ShloMosaic.ValueIdx.ix3 (0 : Fin 1) (0 : Fin 1) j) := by
  have h0 : ¬ t.val % 4 = 0 := by omega
  have hacc := acc_eq V c t.val t.isLt
  rw [outsAt0_eq V c t] at hacc ⊢
  rw [stepAt0_acc, if_neg h0] at hacc
  rw [show stepAt0 V c t (prevAt0 V c t) = _ from (dif_neg h0).trans (dif_pos h1)]
  dsimp only
  rw [out_C_2_lo _ _ _ _ _ _ _ _ _ _ _ _ _ _ _ _ _ _ y j h2, (Prod.mk.inj hacc).1]

/-- and the scaled right accumulator in its high half. -/
theorem out_hi (c : Dev nD) (t : Fin cfg0.N) (h1 : t.val % 4 = 3) (y : S1x1x4096.Idx) (j : Fin 2048) (h2 : (y 2).val = 2048 + j.val) :
    (outsAt0 V c t.val t.isLt).1 y = k0_pay6 (accR V c t.val t.isLt) (Idealize.ShloMosaic.ValueIdx.ix3 (0 : Fin 1) (0 : Fin 1) j) := by
  have h0 : ¬ t.val % 4 = 0 := by omega
  have hacc := acc_eq V c t.val t.isLt
  rw [outsAt0_eq V c t] at hacc ⊢
  rw [stepAt0_acc, if_neg h0] at hacc
  rw [show stepAt0 V c t (prevAt0 V c t) = _ from (dif_neg h0).trans (dif_pos h1)]
  dsimp only
  rw [out_C_2_hi _ _ _ _ _ _ _ _ _ _ _ _ _ _ _ _ _ _ y j h2, (Prod.mk.inj hacc).2]

end Region

end Cert.KernelIdeal.Hand

end
-- ==== Proof.R0Array.lean ====
/-
  The pooling region's output array after the region: one function of the two inputs, entry by entry.

  Entry (b, 0, k) is, for k < 2048, the left accumulator after the last tile of batch row b (point 4b + 3) at column k,
  scaled by 1/4096, and for k ≥ 2048 the right accumulator at column k - 2048, scaled. Only the tile-3 points write
  the output window back; the block of row b is written at point 4b + 3 and is row b of this function; the eight
  blocks cover the array.
-/
import proofs.«129208_j55336358642849_2_alg».proof.Proof.R0Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem lastTile_lt (b : Fin 8) : 4 * b.val + 3 < cfg0.N := by
  have := b.isLt; have hN : cfg0.N = 32 := N_0; omega

theorem accL_congr (c : Dev nD) (n n' : ℕ) (h : n < cfg0.N) (h' : n' < cfg0.N) (e : n = n') : accL V c n h = accL V c n' h' := by
  subst e; rfl
theorem accR_congr (c : Dev nD) (n n' : ℕ) (h : n < cfg0.N) (h' : n' < cfg0.N) (e : n = n') : accR V c n h = accR V c n' h' := by
  subst e; rfl

/-- Entry (b, k) of the pooled array. -/
def pooledK (c : Dev nD) (b : Fin 8) (k : Fin 4096) : Elt F .f32 :=
  if h : k.val < 2048 then k0_pay5 (accL V c (4 * b.val + 3) (lastTile_lt b)) (Idealize.ShloMosaic.ValueIdx.ix3 (0 : Fin 1) (0 : Fin 1) ⟨k.val, h⟩)
  else k0_pay6 (accR V c (4 * b.val + 3) (lastTile_lt b)) (Idealize.ShloMosaic.ValueIdx.ix3 (0 : Fin 1) (0 : Fin 1) ⟨k.val - 2048, by have := k.isLt; omega⟩)

/-- The pooled array. -/
def G0 (c : Dev nD) : S8x1x4096.Idx → Elt F .f32 := fun i => pooledK V c (i 0) (i 2)

theorem pooledK_lo (c : Dev nD) (b : Fin 8) (k : Fin 4096) (t : Fin cfg0.N) (ht : t.val = 4 * b.val + 3) (j : Fin 2048) (hk : k.val = j.val) :
    pooledK V c b k = k0_pay5 (accL V c t.val t.isLt) (Idealize.ShloMosaic.ValueIdx.ix3 (0 : Fin 1) (0 : Fin 1) j) := by
  unfold pooledK
  rw [dif_pos (by have := j.isLt; omega), accL_congr V c _ _ _ t.isLt ht.symm]
  congr 2
  exact Fin.ext hk

theorem pooledK_hi (c : Dev nD) (b : Fin 8) (k : Fin 4096) (t : Fin cfg0.N) (ht : t.val = 4 * b.val + 3) (j : Fin 2048) (hk : k.val = 2048 + j.val) :
    pooledK V c b k = k0_pay6 (accR V c t.val t.isLt) (Idealize.ShloMosaic.ValueIdx.ix3 (0 : Fin 1) (0 : Fin 1) j) := by
  unfold pooledK
  rw [dif_neg (by omega), accR_congr V c _ _ _ t.isLt ht.symm]
  congr 2
  exact Fin.ext (by show k.val - 2048 = j.val; omega)

/-- The output window's index map, decided over the grid: block (t / 4, 0, 0). -/
theorem idx_facts0_2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- WHAT A TILE-3 POINT WRITES BACK is its block of the pooled array. -/
theorem flushed0_2 (c : Dev nD) (t : Fin cfg0.N) (hf : (cfg0.win 2).flush t = true) :
    (dat0 V c).flushed 2 t = ((cfg0.win 2).blk t).view.read (Elt F) (G0 V c) := by
  have h3 : t.val % 4 = 3 := (flush0_2 t).mp hf
  obtain ⟨e0, e1, e2⟩ := idx_facts0_2 t
  show (cfg0.win 2).cut (grid0.coords t) ((dat0 V c).after 2 t) = _
  rw [after0_2]
  funext y
  show (outsAt0 V c t.val t.isLt).1 y = pooledK V c ((((cfg0.win 2).blk t).view.emb y) 0) ((((cfg0.win 2).blk t).view.emb y) 2)
  have hy0 : (y 0).val = 0 := by have h1 : (y 0).val < 1 := (y 0).isLt; omega
  have c0 : ((((cfg0.win 2).blk t).view.emb y) 0).val = t.val / 4 := by
    show win0_2.index t (0 : Fin 3) * 1 + 1 * (y 0).val = t.val / 4; omega
  have c2 : ((((cfg0.win 2).blk t).view.emb y) 2).val = (y 2).val := by
    show win0_2.index t (2 : Fin 3) * 4096 + 1 * (y 2).val = (y 2).val; omega
  have hy2 : (y 2).val < 4096 := (y 2).isLt
  by_cases hlo : (y 2).val < 2048
  · rw [out_lo V c t h3 y ⟨(y 2).val, hlo⟩ rfl]
    exact (pooledK_lo V c _ _ t (by omega) ⟨(y 2).val, hlo⟩ c2).symm
  · rw [out_hi V c t h3 y ⟨(y 2).val - 2048, by omega⟩ (by show (y 2).val = 2048 + ((y 2).val - 2048); omega)]
    exact (pooledK_hi V c _ _ t (by omega) ⟨(y 2).val - 2048, by omega⟩ (by show _ = 2048 + ((y 2).val - 2048); omega)).symm

theorem mem_blk0_2 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0).slice (win0_2.rect t)).set ↔ _
  rw [View.set_slice_whole, Rect.mem_set_unit]
  exact Iff.rfl

/-- THE ARRAY after the region. -/
theorem final0_2 (c : Dev nD) : (dat0 V c).arrAt 2 cfg0.N = G0 V c :=
  (dat0 V c).arrAt_eq_of_cover 2 (G0 V c) (flushed0_2 V c) fun i => by
    have hi0 : (i 0).val < 8 := (i 0).isLt
    have hi1 : (i 1).val < 1 := (i 1).isLt
    have hi2 : (i 2).val < 4096 := (i 2).isLt
    have hN : cfg0.N = 32 := N_0
    refine ⟨⟨4 * (i 0).val + 3, by omega⟩, (flush0_2 _).mpr (by show (4 * (i 0).val + 3) % 4 = 3; omega), ?_⟩
    rw [mem_blk0_2]
    obtain ⟨e0, e1, e2⟩ := idx_facts0_2 ⟨4 * (i 0).val + 3, by omega⟩
    intro a
    match a with
    | ⟨0, _⟩ => show win0_2.index _ (0 : Fin 3) * 1 ≤ (i 0).val ∧ (i 0).val < win0_2.index _ (0 : Fin 3) * 1 + 1; rw [e0]; show (4 * (i 0).val + 3) / 4 * 1 ≤ _ ∧ _ < (4 * (i 0).val + 3) / 4 * 1 + 1; omega
    | ⟨1, _⟩ => show win0_2.index _ (1 : Fin 3) * 1 ≤ (i 1).val ∧ (i 1).val < win0_2.index _ (1 : Fin 3) * 1 + 1; rw [e1]; omega
    | ⟨2, _⟩ => show win0_2.index _ (2 : Fin 3) * 4096 ≤ (i 2).val ∧ (i 2).val < win0_2.index _ (2 : Fin 3) * 4096 + 4096; rw [e2]; omega

end Region

end Cert.KernelIdeal.Hand

end
-- ==== Proof.R0Blocks.lean ====
/-
  The pooling region's input blocks, entry by entry, on the extended reals.

  At the first tile of a batch row each accumulator restarts from zero. The block of an input at grid point t is
  rows 1024·(t mod 4) to 1024·(t mod 4) + 1023 of batch row t / 4: read at (0, r, j) it is the input at
  (t / 4, 1024·(t mod 4) + r, j).
-/
import proofs.«129208_j55336358642849_2_alg».proof.Proof.R0Chain
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section Region
variable (V : (c : Dev nD) → (b : Ref sig .tc) → Buf (Elt Ideal) ((c : Thread nD τ).loc b))

/-- At a tile 0 the accumulators restart from zero; at a later tile they add to the point before. -/
theorem accL_tile0 (c : Dev nD) : ∀ (n : ℕ) (h : n < cfg0.N), n % 4 = 0 → accL V c n h = k0_pay3 (k0_pay1 (F := Ideal)) (iblk0 V c 0 ⟨n, h⟩)
  | 0, _, _ => rfl
  | n + 1, h, h0 => accL_succ_zero V c n h h0
theorem accR_tile0 (c : Dev nD) : ∀ (n : ℕ) (h : n < cfg0.N), n % 4 = 0 → accR V c n h = k0_pay4 (k0_pay2 (F := Ideal)) (iblk0 V c 1 ⟨n, h⟩)
  | 0, _, _ => rfl
  | n + 1, h, h0 => accR_succ_zero V c n h h0

/-- The input windows' index maps, decided over the grid: block (t / 4, t % 4, 0). -/
theorem idx_facts0_in : ∀ t : Fin cfg0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0 :=
  (by decide +kernel : ∀ t : Fin grid0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0)

/-- The left input's block at point t, read at (0, r, j): the input at (t / 4, 1024·(t % 4) + r, j). -/
theorem iblk0_0_apply (c : Dev nD) (t : Fin cfg0.N) (r : Fin 1024) (j : Fin 2048) (b : Fin 8) (l : Fin 4096)
    (hb : b.val = t.val / 4) (hl : l.val = 1024 * (t.val % 4) + r.val) :
    (iblk0 V c 0 t : S1x1024x2048.Idx → EReal) (ix3 (0 : Fin 1) r j) = (V c main_arg0 : S8x4096x2048.Idx → EReal) (ix3 b l j) := by
  obtain ⟨e0, e1, e2, -, -, -⟩ := idx_facts0_in t
  unfold iblk0
  rw [View.read_apply]
  show V c main_arg0 (((cfg0.win 0).blk t).view.emb (ix3 (0 : Fin 1) r j)) = V c main_arg0 (ix3 b l j)
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = l.val; omega
  | ⟨2, _⟩ => show win0_0.index t (2 : Fin 3) * 2048 + 1 * j.val = j.val; omega

/-- The same for the right input. -/
theorem iblk0_1_apply (c : Dev nD) (t : Fin cfg0.N) (r : Fin 1024) (j : Fin 2048) (b : Fin 8) (l : Fin 4096)
    (hb : b.val = t.val / 4) (hl : l.val = 1024 * (t.val % 4) + r.val) :
    (iblk0 V c 1 t : S1x1024x2048.Idx → EReal) (ix3 (0 : Fin 1) r j) = (V c main_arg1 : S8x4096x2048.Idx → EReal) (ix3 b l j) := by
  obtain ⟨-, -, -, e0, e1, e2⟩ := idx_facts0_in t
  unfold iblk0
  rw [View.read_apply]
  show V c main_arg1 (((cfg0.win 1).blk t).view.emb (ix3 (0 : Fin 1) r j)) = V c main_arg1 (ix3 b l j)
  congr 1
  funext a
  apply Fin.ext
  match a with
  | ⟨0, _⟩ => show win0_1.index t (0 : Fin 3) * 1 + 1 * 0 = b.val; omega
  | ⟨1, _⟩ => show win0_1.index t (1 : Fin 3) * 1024 + 1 * r.val = l.val; omega
  | ⟨2, _⟩ => show win0_1.index t (2 : Fin 3) * 2048 + 1 * j.val = j.val; omega

end Region

end Cert.KernelIdeal.Hand

end
-- ==== Proof.R0Pay.lean ====
/-
  What the pooling body's stores hold, entry by entry, on the extended reals.

  The body keeps two [1, 1, 2048] accumulators, one per input. At the first tile of a batch row it stores zero in each.
  At every tile it adds to each accumulator, lane by lane, the sum over the 1024 rows of the [1, 1024, 2048] tile of
  its input (the row axis reduced, the [1, 2048] result viewed as [1, 1, 2048]). At the last tile it stores each
  accumulator times the pattern of 1/4096 in its half of the [1, 1, 4096] output block.

  The steps that are not entry-by-entry: the sum over the rows of a tile at lane j is the plain sum of the 1024
  entries of that lane (the accumulator of the reduction is the zero pattern, which the reading at the extended reals
  drops); a [1, 2048] array viewed as [1, 1, 2048] keeps its entries; a cast to the same shape is the identity.
-/
import proofs.«129208_j55336358642849_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- A [1, 2048] array viewed as [1, 1, 2048] keeps its entries: both positions are j in row-major order. -/
theorem asRow_apply {α : Type} (v : S1x2048.Idx → α) (h : S1x2048.ShapeCasts S1x1x2048) (j : Fin 2048) :
    shapeCast S1x1x2048 v h (ix3 (0 : Fin 1) (0 : Fin 1) j) = v (ix2 (0 : Fin 1) j) :=
  shapeCast_apply v h _ _ (by
    rw [Shape.rowMajor_val_three, Shape.rowMajor_val_two]
    show 0 * 2048 + j.val = (0 * 1 + 0) * 2048 + j.val
    omega)

/-- The sum over the rows of a [1, 1024, 2048] tile, at lane j: the plain sum of the 1024 entries of that lane. -/
theorem tileSum_apply (src : FVec Ideal S1x1024x2048 .f32) (h : S1x1024x2048.Reduces [1] S1x2048) (hφ : FKind.Formats .f32)
    (hacc : (0x00000000#32 : BitVec 32) = 0x00000000#32) (j : Fin 2048) :
    multiReduction .add [1] S1x2048 src 0x00000000#32 h hφ hacc (ix2 (0 : Fin 1) j) = ∑ r : Fin 1024, src (ix3 (0 : Fin 1) r j) := by
  refine (Ideal.multiReduction_add_single src 0x00000000#32 h hφ hacc (ix2 (0 : Fin 1) j)).trans ?_
  refine Finset.sum_congr rfl fun r _ => congrArg src (funext fun a => ?_)
  match a with
  | ⟨0, _⟩ => exact Fin.ext rfl
  | ⟨1, _⟩ => exact Fin.ext rfl
  | ⟨2, _⟩ => exact Fin.ext rfl

/-- The first accumulator's initial store: zero at every lane. -/
theorem k0_pay1_apply (j : Fin 2048) :
    k0_pay1 (F := Ideal) (ix3 (0 : Fin 1) (0 : Fin 1) j) = Ideal.ofBits .f32 0x00000000#32 := by
  unfold k0_pay1
  rw [shapeCast_self]
  rfl

/-- The second accumulator's initial store: zero at every lane. -/
theorem k0_pay2_apply (j : Fin 2048) :
    k0_pay2 (F := Ideal) (ix3 (0 : Fin 1) (0 : Fin 1) j) = Ideal.ofBits .f32 0x00000000#32 := by
  unfold k0_pay2
  rw [shapeCast_self]
  rfl

/-- The first accumulator's update: at lane j, the accumulator plus the sum over the tile's 1024 rows. -/
theorem k0_pay3_apply (v3 : Vec Ideal S1x1x2048 .f32) (v4 : Vec Ideal S1x1024x2048 .f32) (j : Fin 2048) :
    k0_pay3 v3 v4 (ix3 (0 : Fin 1) (0 : Fin 1) j)
      = v3 (ix3 (0 : Fin 1) (0 : Fin 1) j) + ∑ r : Fin 1024, v4 (ix3 (0 : Fin 1) r j) := by
  unfold k0_pay3
  dsimp only
  rw [shapeCast_self, addf_apply, asRow_apply, tileSum_apply]

/-- The second accumulator's update: at lane j, the accumulator plus the sum over the tile's 1024 rows. -/
theorem k0_pay4_apply (v11 : Vec Ideal S1x1x2048 .f32) (v12 : Vec Ideal S1x1024x2048 .f32) (j : Fin 2048) :
    k0_pay4 v11 v12 (ix3 (0 : Fin 1) (0 : Fin 1) j)
      = v11 (ix3 (0 : Fin 1) (0 : Fin 1) j) + ∑ r : Fin 1024, v12 (ix3 (0 : Fin 1) r j) := by
  unfold k0_pay4
  dsimp only
  rw [shapeCast_self, addf_apply, asRow_apply, tileSum_apply]

/-- The first half of the output block: at lane j, the first accumulator times the pattern of 1/4096. -/
theorem k0_pay5_apply (v : Vec Ideal S1x1x2048 .f32) (j : Fin 2048) :
    k0_pay5 v (ix3 (0 : Fin 1) (0 : Fin 1) j) = v (ix3 (0 : Fin 1) (0 : Fin 1) j) * Ideal.ofBits .f32 0x39800000#32 := by
  unfold k0_pay5
  rfl

/-- The second half of the output block: at lane j, the second accumulator times the pattern of 1/4096. -/
theorem k0_pay6_apply (v : Vec Ideal S1x1x2048 .f32) (j : Fin 2048) :
    k0_pay6 v (ix3 (0 : Fin 1) (0 : Fin 1) j) = v (ix3 (0 : Fin 1) (0 : Fin 1) j) * Ideal.ofBits .f32 0x39800000#32 := by
  unfold k0_pay6
  rfl

end Cert.KernelIdeal.Hand

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.PoolMath.lean ====
/-
  The pooled mean two ways, on the extended reals. An accumulator that starts at zero, adds the sums of four
  consecutive blocks of 1024 terms in order, and is then multiplied by 1/4096 holds the sum of all 4096 terms divided
  by 4096: the four block sums added from the left are the whole sum (addition of extended reals is commutative and
  associative, so no finiteness is needed), and division by the nonzero real 4096 is multiplication by its reciprocal,
  at the infinities too. The two float patterns denote exactly 4096 and 1/4096 (both are powers of two).
-/
import Idealize.ShloMosaic.PureOps.Ideal
import Idealize.ShloMosaic.PureOps.Ideal.Laws
import proofs.«129208_j55336358642849_2_alg».proof.Proof.LibBlockSum

noncomputable section

namespace Cert.PoolMath

open Idealize.ShloMosaic

/-- The pattern 0x45800000 denotes the real 4096. -/
theorem ofBits_4096 : Ideal.ofBits .f32 0x45800000#32 = ((4096 : ℝ) : EReal) := by
  simp [Ideal.ofBits, Ideal.ieee, -EReal.coe_mul]; norm_num

/-- The pattern 0x39800000 denotes the real 1/4096. -/
theorem ofBits_inv4096 : Ideal.ofBits .f32 0x39800000#32 = ((1 / 4096 : ℝ) : EReal) := by
  simp [Ideal.ofBits, Ideal.ieee, -EReal.coe_mul]; norm_num

/-- Zero, plus four block sums in order, times 1/4096, is the whole sum divided by 4096. -/
theorem pooled_eq (f : Fin 4096 → EReal) :
    ((((Ideal.ofBits .f32 0x00000000#32 + ∑ r : Fin 1024, f ⟨r.val, by omega⟩) + ∑ r : Fin 1024, f ⟨1024 + r.val, by omega⟩)
        + ∑ r : Fin 1024, f ⟨2048 + r.val, by omega⟩) + ∑ r : Fin 1024, f ⟨3072 + r.val, by omega⟩)
        * Ideal.ofBits .f32 0x39800000#32
      = Ideal.div (∑ l : Fin 4096, f l) (Ideal.ofBits .f32 0x45800000#32) := by
  rw [Ideal.ofBits_zero_f32, ofBits_inv4096, ofBits_4096, Ideal.div_coe (by norm_num : (4096 : ℝ) ≠ 0),
    LibBlockSum.sum_four_1024 f]

end Cert.PoolMath

end
-- ==== Proof.R0Ideal.lean ====
/-
  The pooling region at the ideal instance: its output array is the specification's pooled array.

  The accumulator after the last tile of batch row b is zero plus the four tiles' column sums, in tile order; a tile's
  block of an input read at (0, r, j) is the input at (b, 1024·tile + r, j); so the accumulator at column j is the
  zero-started, four-block sum of the 4096 entries of column j of row b, and scaled by 1/4096 it is their mean
  (`Cert.PoolMath.pooled_eq`). Columns 0 to 2047 of the output row pool the left input, columns 2048 to 4095 the
  right one: the array is `Cert.Spec.hcat` of the two inputs.
-/
import proofs.«129208_j55336358642849_2_alg».proof.Proof.R0Array
import proofs.«129208_j55336358642849_2_alg».proof.Proof.R0Blocks
import proofs.«129208_j55336358642849_2_alg».proof.Proof.R0Pay
import proofs.«129208_j55336358642849_2_alg».proof.Proof.PoolMath
import proofs.«129208_j55336358642849_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- A [1, 1024, 2048] block as a function to the extended reals. -/
abbrev blkE (x : S1x1024x2048.Idx → EReal) : S1x1024x2048.Idx → EReal := x

/-- An [8, 4096, 2048] array as a function to the extended reals. -/
abbrev inE (x : S8x4096x2048.Idx → EReal) : S8x4096x2048.Idx → EReal := x

section Region
variable (V : (c : Dev nD) → (b : Ref sig .tc) → Buf (Elt Ideal) ((c : Thread nD τ).loc b))

/-- The left accumulator at the first tile of a batch row, at lane j: zero plus the tile's sum. -/
theorem accL_start (c : Dev nD) (n : ℕ) (h : n < cfg0.N) (h0 : n % 4 = 0) (j : Fin 2048) :
    accL V c n h (ix3 (0 : Fin 1) (0 : Fin 1) j)
      = Ideal.ofBits .f32 0x00000000#32 + ∑ r : Fin 1024, blkE (iblk0 V c 0 ⟨n, h⟩) (ix3 (0 : Fin 1) r j) := by
  rw [accL_tile0 V c n h h0]
  refine (k0_pay3_apply (k0_pay1 (F := Ideal)) (iblk0 V c 0 ⟨n, h⟩) j).trans ?_
  rw [k0_pay1_apply]

/-- The left accumulator at a later tile, at lane j: what the point before left plus the tile's sum. -/
theorem accL_step (c : Dev nD) (n : ℕ) (h : n + 1 < cfg0.N) (h0 : ¬(n + 1) % 4 = 0) (j : Fin 2048) :
    accL V c (n + 1) h (ix3 (0 : Fin 1) (0 : Fin 1) j)
      = accL V c n (Nat.lt_of_succ_lt h) (ix3 (0 : Fin 1) (0 : Fin 1) j) + ∑ r : Fin 1024, blkE (iblk0 V c 0 ⟨n + 1, h⟩) (ix3 (0 : Fin 1) r j) := by
  rw [accL_succ_pos V c n h h0]
  exact k0_pay3_apply (accL V c n (Nat.lt_of_succ_lt h)) (iblk0 V c 0 ⟨n + 1, h⟩) j

/-- The left accumulator after the four tiles of batch row b (the points n, n + 1, n + 2, n + 3 with n = 4b), at lane
    j, times the pattern of 1/4096: the pooled mean of the left input. -/
theorem accL_pool (c : Dev nD) (n : ℕ) (h3 : n + 1 + 1 + 1 < cfg0.N) (b : Fin 8) (hnb : n = 4 * b.val) (j : Fin 2048) :
    accL V c (n + 1 + 1 + 1) h3 (ix3 (0 : Fin 1) (0 : Fin 1) j) * Ideal.ofBits .f32 0x39800000#32
      = Cert.Spec.pool (V c main_arg0 : S8x4096x2048.Idx → EReal) b j := by
  have h2 : n + 1 + 1 < cfg0.N := Nat.lt_of_succ_lt h3
  have h1 : n + 1 < cfg0.N := Nat.lt_of_succ_lt h2
  have h0 : n < cfg0.N := Nat.lt_of_succ_lt h1
  have hb := b.isLt
  have s0 : ∑ r : Fin 1024, blkE (iblk0 V c 0 ⟨n, h0⟩) (ix3 (0 : Fin 1) r j)
      = ∑ r : Fin 1024, inE (V c main_arg0) (ix3 b ⟨r.val, by omega⟩ j) :=
    Finset.sum_congr rfl fun r _ => iblk0_0_apply V c ⟨n, h0⟩ r j b ⟨r.val, by omega⟩
      (by show b.val = (n) / 4; omega) (by show r.val = 1024 * ((n) % 4) + r.val; omega)
  have s1 : ∑ r : Fin 1024, blkE (iblk0 V c 0 ⟨n + 1, h1⟩) (ix3 (0 : Fin 1) r j)
      = ∑ r : Fin 1024, inE (V c main_arg0) (ix3 b ⟨1024 + r.val, by omega⟩ j) :=
    Finset.sum_congr rfl fun r _ => iblk0_0_apply V c ⟨n + 1, h1⟩ r j b ⟨1024 + r.val, by omega⟩
      (by show b.val = (n + 1) / 4; omega) (by show 1024 + r.val = 1024 * ((n + 1) % 4) + r.val; omega)
  have s2 : ∑ r : Fin 1024, blkE (iblk0 V c 0 ⟨n + 1 + 1, h2⟩) (ix3 (0 : Fin 1) r j)
      = ∑ r : Fin 1024, inE (V c main_arg0) (ix3 b ⟨2048 + r.val, by omega⟩ j) :=
    Finset.sum_congr rfl fun r _ => iblk0_0_apply V c ⟨n + 1 + 1, h2⟩ r j b ⟨2048 + r.val, by omega⟩
      (by show b.val = (n + 1 + 1) / 4; omega) (by show 2048 + r.val = 1024 * ((n + 1 + 1) % 4) + r.val; omega)
  have s3 : ∑ r : Fin 1024, blkE (iblk0 V c 0 ⟨n + 1 + 1 + 1, h3⟩) (ix3 (0 : Fin 1) r j)
      = ∑ r : Fin 1024, inE (V c main_arg0) (ix3 b ⟨3072 + r.val, by omega⟩ j) :=
    Finset.sum_congr rfl fun r _ => iblk0_0_apply V c ⟨n + 1 + 1 + 1, h3⟩ r j b ⟨3072 + r.val, by omega⟩
      (by show b.val = (n + 1 + 1 + 1) / 4; omega) (by show 3072 + r.val = 1024 * ((n + 1 + 1 + 1) % 4) + r.val; omega)
  rw [accL_step V c (n + 1 + 1) h3 (by omega) j, accL_step V c (n + 1) h2 (by omega) j, accL_step V c n h1 (by omega) j,
    accL_start V c n h0 (by omega) j, s0, s1, s2, s3]
  unfold Cert.Spec.pool
  exact Cert.PoolMath.pooled_eq (fun l => inE (V c main_arg0) (ix3 b l j))

/-- The scaled left accumulator after the last tile of row b, at column j: the pooled mean of the left input. -/
theorem pooled_left (c : Dev nD) (b : Fin 8) (j : Fin 2048) :
    k0_pay5 (accL V c (4 * b.val + 3) (lastTile_lt b)) (ix3 (0 : Fin 1) (0 : Fin 1) j)
      = Cert.Spec.pool (V c main_arg0 : S8x4096x2048.Idx → EReal) b j := by
  have hb := b.isLt
  have hN : cfg0.N = 32 := N_0
  have h3 : 4 * b.val + 1 + 1 + 1 < cfg0.N := by omega
  refine (k0_pay5_apply (accL V c (4 * b.val + 3) (lastTile_lt b)) j).trans ?_
  rw [accL_congr V c (4 * b.val + 3) (4 * b.val + 1 + 1 + 1) (lastTile_lt b) h3 (by omega)]
  exact accL_pool V c (4 * b.val) h3 b rfl j

/-- The right accumulator at the first tile of a batch row, at lane j: zero plus the tile's sum. -/
theorem accR_start (c : Dev nD) (n : ℕ) (h : n < cfg0.N) (h0 : n % 4 = 0) (j : Fin 2048) :
    accR V c n h (ix3 (0 : Fin 1) (0 : Fin 1) j)
      = Ideal.ofBits .f32 0x00000000#32 + ∑ r : Fin 1024, blkE (iblk0 V c 1 ⟨n, h⟩) (ix3 (0 : Fin 1) r j) := by
  rw [accR_tile0 V c n h h0]
  refine (k0_pay4_apply (k0_pay2 (F := Ideal)) (iblk0 V c 1 ⟨n, h⟩) j).trans ?_
  rw [k0_pay2_apply]

/-- The right accumulator at a later tile, at lane j: what the point before left plus the tile's sum. -/
theorem accR_step (c : Dev nD) (n : ℕ) (h : n + 1 < cfg0.N) (h0 : ¬(n + 1) % 4 = 0) (j : Fin 2048) :
    accR V c (n + 1) h (ix3 (0 : Fin 1) (0 : Fin 1) j)
      = accR V c n (Nat.lt_of_succ_lt h) (ix3 (0 : Fin 1) (0 : Fin 1) j) + ∑ r : Fin 1024, blkE (iblk0 V c 1 ⟨n + 1, h⟩) (ix3 (0 : Fin 1) r j) := by
  rw [accR_succ_pos V c n h h0]
  exact k0_pay4_apply (accR V c n (Nat.lt_of_succ_lt h)) (iblk0 V c 1 ⟨n + 1, h⟩) j

/-- The right accumulator after the four tiles of batch row b (the points n, n + 1, n + 2, n + 3 with n = 4b), at lane
    j, times the pattern of 1/4096: the pooled mean of the right input. -/
theorem accR_pool (c : Dev nD) (n : ℕ) (h3 : n + 1 + 1 + 1 < cfg0.N) (b : Fin 8) (hnb : n = 4 * b.val) (j : Fin 2048) :
    accR V c (n + 1 + 1 + 1) h3 (ix3 (0 : Fin 1) (0 : Fin 1) j) * Ideal.ofBits .f32 0x39800000#32
      = Cert.Spec.pool (V c main_arg1 : S8x4096x2048.Idx → EReal) b j := by
  have h2 : n + 1 + 1 < cfg0.N := Nat.lt_of_succ_lt h3
  have h1 : n + 1 < cfg0.N := Nat.lt_of_succ_lt h2
  have h0 : n < cfg0.N := Nat.lt_of_succ_lt h1
  have hb := b.isLt
  have s0 : ∑ r : Fin 1024, blkE (iblk0 V c 1 ⟨n, h0⟩) (ix3 (0 : Fin 1) r j)
      = ∑ r : Fin 1024, inE (V c main_arg1) (ix3 b ⟨r.val, by omega⟩ j) :=
    Finset.sum_congr rfl fun r _ => iblk0_1_apply V c ⟨n, h0⟩ r j b ⟨r.val, by omega⟩
      (by show b.val = (n) / 4; omega) (by show r.val = 1024 * ((n) % 4) + r.val; omega)
  have s1 : ∑ r : Fin 1024, blkE (iblk0 V c 1 ⟨n + 1, h1⟩) (ix3 (0 : Fin 1) r j)
      = ∑ r : Fin 1024, inE (V c main_arg1) (ix3 b ⟨1024 + r.val, by omega⟩ j) :=
    Finset.sum_congr rfl fun r _ => iblk0_1_apply V c ⟨n + 1, h1⟩ r j b ⟨1024 + r.val, by omega⟩
      (by show b.val = (n + 1) / 4; omega) (by show 1024 + r.val = 1024 * ((n + 1) % 4) + r.val; omega)
  have s2 : ∑ r : Fin 1024, blkE (iblk0 V c 1 ⟨n + 1 + 1, h2⟩) (ix3 (0 : Fin 1) r j)
      = ∑ r : Fin 1024, inE (V c main_arg1) (ix3 b ⟨2048 + r.val, by omega⟩ j) :=
    Finset.sum_congr rfl fun r _ => iblk0_1_apply V c ⟨n + 1 + 1, h2⟩ r j b ⟨2048 + r.val, by omega⟩
      (by show b.val = (n + 1 + 1) / 4; omega) (by show 2048 + r.val = 1024 * ((n + 1 + 1) % 4) + r.val; omega)
  have s3 : ∑ r : Fin 1024, blkE (iblk0 V c 1 ⟨n + 1 + 1 + 1, h3⟩) (ix3 (0 : Fin 1) r j)
      = ∑ r : Fin 1024, inE (V c main_arg1) (ix3 b ⟨3072 + r.val, by omega⟩ j) :=
    Finset.sum_congr rfl fun r _ => iblk0_1_apply V c ⟨n + 1 + 1 + 1, h3⟩ r j b ⟨3072 + r.val, by omega⟩
      (by show b.val = (n + 1 + 1 + 1) / 4; omega) (by show 3072 + r.val = 1024 * ((n + 1 + 1 + 1) % 4) + r.val; omega)
  rw [accR_step V c (n + 1 + 1) h3 (by omega) j, accR_step V c (n + 1) h2 (by omega) j, accR_step V c n h1 (by omega) j,
    accR_start V c n h0 (by omega) j, s0, s1, s2, s3]
  unfold Cert.Spec.pool
  exact Cert.PoolMath.pooled_eq (fun l => inE (V c main_arg1) (ix3 b l j))

/-- The scaled right accumulator after the last tile of row b, at column j: the pooled mean of the right input. -/
theorem pooled_right (c : Dev nD) (b : Fin 8) (j : Fin 2048) :
    k0_pay6 (accR V c (4 * b.val + 3) (lastTile_lt b)) (ix3 (0 : Fin 1) (0 : Fin 1) j)
      = Cert.Spec.pool (V c main_arg1 : S8x4096x2048.Idx → EReal) b j := by
  have hb := b.isLt
  have hN : cfg0.N = 32 := N_0
  have h3 : 4 * b.val + 1 + 1 + 1 < cfg0.N := by omega
  refine (k0_pay6_apply (accR V c (4 * b.val + 3) (lastTile_lt b)) j).trans ?_
  rw [accR_congr V c (4 * b.val + 3) (4 * b.val + 1 + 1 + 1) (lastTile_lt b) h3 (by omega)]
  exact accR_pool V c (4 * b.val) h3 b rfl j

/-- The pooled array's entry in the left half: the scaled left accumulator. -/
theorem pooledK_of_lt (c : Dev nD) (b : Fin 8) (k : Fin 4096) (h : k.val < 2048) :
    pooledK V c b k = k0_pay5 (accL V c (4 * b.val + 3) (lastTile_lt b)) (ix3 (0 : Fin 1) (0 : Fin 1) ⟨k.val, h⟩) := by
  unfold pooledK; exact dif_pos h

/-- The pooled array's entry in the right half: the scaled right accumulator. -/
theorem pooledK_of_ge (c : Dev nD) (b : Fin 8) (k : Fin 4096) (h : ¬ k.val < 2048) :
    pooledK V c b k = k0_pay6 (accR V c (4 * b.val + 3) (lastTile_lt b))
      (ix3 (0 : Fin 1) (0 : Fin 1) ⟨k.val - 2048, by have := k.isLt; omega⟩) := by
  unfold pooledK; exact dif_neg h

/-- The specification's pooled row in the left half: the pooled mean of the left input. -/
theorem hcat_of_lt (xl xr : Cert.Spec.S3.Idx → EReal) (b : Fin 8) (k : Fin 4096) (h : k.val < 2048) :
    Cert.Spec.hcat xl xr (ix2 b k) = Cert.Spec.pool xl b ⟨k.val, h⟩ := by
  unfold Cert.Spec.hcat; exact dif_pos h

/-- The specification's pooled row in the right half: the pooled mean of the right input. -/
theorem hcat_of_ge (xl xr : Cert.Spec.S3.Idx → EReal) (b : Fin 8) (k : Fin 4096) (h : ¬ k.val < 2048) :
    Cert.Spec.hcat xl xr (ix2 b k) = Cert.Spec.pool xr b ⟨k.val - 2048, by have := k.isLt; omega⟩ := by
  unfold Cert.Spec.hcat; exact dif_neg h

/-- The pooled array at (b, 0, k) is the specification's pooled row b at column k. -/
theorem G0_apply (c : Dev nD) (b : Fin 8) (k : Fin 4096) :
    (G0 (F := Ideal) V c : S8x1x4096.Idx → EReal) (ix3 b (0 : Fin 1) k)
      = Cert.Spec.hcat (V c main_arg0) (V c main_arg1) (ix2 b k) := by
  show pooledK V c b k = _
  by_cases h : k.val < 2048
  · rw [pooledK_of_lt V c b k h, hcat_of_lt _ _ b k h]
    exact pooled_left V c b ⟨k.val, h⟩
  · rw [pooledK_of_ge V c b k h, hcat_of_ge _ _ b k h]
    exact pooled_right V c b ⟨k.val - 2048, by have := k.isLt; omega⟩

/-- The region's output array is the specification's pooled array, entry (b, 0, k) being row b, column k. -/
theorem G0_eq (c : Dev nD) :
    (G0 (F := Ideal) V c : S8x1x4096.Idx → EReal)
      = fun i => Cert.Spec.hcat (V c main_arg0) (V c main_arg1) (ix2 (i 0) (i 2)) := by
  funext i
  have hi1 : (i 1).val < 1 := (i 1).isLt
  have e : i = ix3 (i 0) (0 : Fin 1) (i 2) := by
    refine (eq_ix3 i).trans ?_
    congr 1
    exact Fin.ext (by show (i 1).val = 0; omega)
  rw [e]
  exact G0_apply V c (i 0) (i 2)

end Region

end Cert.KernelIdeal.Hand

end
-- ==== Proof.PoolValue.lean ====
/-
  The pooled array the host glue starts from is the specification's: after the pooling region, the region's output
  array holds, at (b, 0, k), the pooled row b at column k of the two inputs as launched, and the glue's first
  operation reads that array as an [8, 4096] array, entry (b, k) being entry (b, 0, k).
-/
import proofs.«129208_j55336358642849_2_alg».proof.Proof.R0Ideal
import proofs.«129208_j55336358642849_2_alg».proof.Proof.Run
import proofs.«129208_j55336358642849_2_alg».proof.Proof.HostValue

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

/-- After the pooling region, the pooled array the glue reads is the specification's pooled array of the inputs. -/
theorem hpool (m : (ℓ : Loc nD τ sig) → Buf (Elt Ideal) ℓ) (ρ : Dev nD → PrngReg) (c : Dev nD) :
    HostChain.hK (W1 m ρ c)
      = Cert.Spec.hcat (m ((c.tc : Thread nD τ).loc main_arg0)) (m ((c.tc : Thread nD τ).loc main_arg1)) := by
  funext i
  have e : W1 m ρ c (Proc.devRef .tc main_v0) = G0 (F := Ideal) (V0 m ρ) c :=
    (W1_arr m ρ c 2).trans (final0_2 (V0 m ρ) c)
  rw [eq_ix2 i]
  refine (HostValue.hK_apply (W1 m ρ c) (i 0) (i 1)).trans ?_
  refine (congrFun e (ix3 (i 0) (0 : Fin 1) (i 1))).trans ?_
  exact G0_apply (V0 m ρ) c (i 0) (i 1)

end Cert.KernelIdeal.Hand

end
-- ==== Proof.ChainMatch.lean ====
/-
  The host glue of the two programs is the same function. Both apply to a pooled array the same operations in the
  same order (a product with a transposed weight, the bias spread over the rows, the logistic function, x · logistic x,
  the hyperbolic tangent); the two texts differ only in which program's record of the product's dimensions and which
  program's side-condition facts they name. The records are the same literal structures and the facts are proofs of the
  same propositions, so the terms are equal without looking inside any operation.
-/
import proofs.«129208_j55336358642849_2_alg».proof.Proof.HostChain.Terms
import proofs.«129208_j55336358642849_2_alg».proof.Proof.RefStages

noncomputable section

namespace Cert.ChainMatch

open Idealize.ShloMosaic

variable {F : FTy → Type} [FloatOps F]

/-- The [8, 4096] · [4096, 2048] product's dimensions are the same record in both programs. -/
theorem dot_4096x2048_eq :
    Cert.KernelIdeal.dot_S8x4096_S4096x2048_S8x2048_1_0_0_1_n_n = Cert.ReferenceIdeal.dot_S8x4096_S4096x2048_S8x2048_1_0_0_1_n_n := rfl

/-- The [8, 4096] · [4096, 4096] product's dimensions are the same record in both programs. -/
theorem dot_4096x4096_eq :
    Cert.KernelIdeal.dot_S8x4096_S4096x4096_S8x4096_1_0_0_1_n_n = Cert.ReferenceIdeal.dot_S8x4096_S4096x4096_S8x4096_1_0_0_1_n_n := rfl

/-- The [8, 2048] · [2048, 2048] product's dimensions are the same record in both programs. -/
theorem dot_2048x2048_eq :
    Cert.KernelIdeal.dot_S8x2048_S2048x2048_S8x2048_1_0_0_1_n_n = Cert.ReferenceIdeal.dot_S8x2048_S2048x2048_S8x2048_1_0_0_1_n_n := rfl

/-- The gate is the same function of the pooled array, the weight and the bias in both programs. -/
theorem alpha_match (h : FVec F Cert.KernelIdeal.S8x4096 .f32) (Wg : FVec F Cert.KernelIdeal.S2048x4096 .f32)
    (bg : FVec F Cert.KernelIdeal.S2048 .f32) :
    Cert.KernelIdeal.HostChain.alphaK h Wg bg = Cert.ReferenceIdeal.RefRun.alphaR h Wg bg := by
  unfold Cert.KernelIdeal.HostChain.alphaK Cert.ReferenceIdeal.RefRun.alphaR Cert.ReferenceIdeal.RefRun.lin4096x2048
  rw [dot_4096x2048_eq]

/-- The fusion branch is the same function in both programs. -/
theorem fusion_match (h : FVec F Cert.KernelIdeal.S8x4096 .f32) (W1 : FVec F Cert.KernelIdeal.S4096x4096 .f32)
    (b1 : FVec F Cert.KernelIdeal.S4096 .f32) (W2 : FVec F Cert.KernelIdeal.S2048x4096 .f32) (b2 : FVec F Cert.KernelIdeal.S2048 .f32)
    (W3 : FVec F Cert.KernelIdeal.S2048x2048 .f32) (b3 : FVec F Cert.KernelIdeal.S2048 .f32) :
    Cert.KernelIdeal.HostChain.fusionK h W1 b1 W2 b2 W3 b3 = Cert.ReferenceIdeal.RefRun.fusionR h W1 b1 W2 b2 W3 b3 := by
  unfold Cert.KernelIdeal.HostChain.fusionK Cert.ReferenceIdeal.RefRun.fusionR Cert.ReferenceIdeal.RefRun.lin2048x2048
    Cert.ReferenceIdeal.RefRun.siluB Cert.ReferenceIdeal.RefRun.lin4096x2048 Cert.ReferenceIdeal.RefRun.siluA
    Cert.ReferenceIdeal.RefRun.lin4096x4096
  rw [dot_4096x2048_eq, dot_4096x4096_eq, dot_2048x2048_eq]

/-- The reflex branch is the same function in both programs. -/
theorem reflex_match (h : FVec F Cert.KernelIdeal.S8x4096 .f32) (Wr : FVec F Cert.KernelIdeal.S2048x4096 .f32)
    (br : FVec F Cert.KernelIdeal.S2048 .f32) :
    Cert.KernelIdeal.HostChain.reflexK h Wr br = Cert.ReferenceIdeal.RefRun.reflexR h Wr br := by
  unfold Cert.KernelIdeal.HostChain.reflexK Cert.ReferenceIdeal.RefRun.reflexR Cert.ReferenceIdeal.RefRun.lin4096x2048
  rw [dot_4096x2048_eq]

end Cert.ChainMatch

end
-- ==== Proof.RefRead.lean ====
/-
  The reference's layout operations and row sums read at an index, on the extended reals: a broadcast reads its
  operand at the coordinates it keeps, and a sum over the last axis from zero is the plain sum of the row.
-/
import proofs.«129208_j55336358642849_2_alg».proof.Proof.RefStages
import proofs.«129208_j55336358642849_2_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Broadcasts read at an index -/

theorem rowB_apply (a : FVec Ideal S8x2048 .f32) (b : Fin 8) (z : Fin 1) (j : Fin 2048) :
    rowB a (ix3 b z j) = a (ix2 b j) :=
  broadcastInDim_apply _ _ a (ix3 b z j) (ix2 b j) (by
    intro ax; match ax with | ⟨0, _⟩ => rfl | ⟨1, _⟩ => rfl)

theorem posB_apply (a : FVec Ideal S8x1x2048 .f32) (b : Fin 8) (l : Fin 4096) (j : Fin 2048) :
    posB a (ix3 b l j) = a (ix3 b 0 j) :=
  broadcastInDim_apply _ _ a (ix3 b l j) (ix3 b 0 j) (by
    intro ax; match ax with | ⟨0, _⟩ => rfl | ⟨1, _⟩ => rfl | ⟨2, _⟩ => rfl)

theorem colB_apply (r : FVec Ideal S8x4096 .f32) (b : Fin 8) (l : Fin 4096) (z : Fin 1) :
    colB r (ix3 b l z) = r (ix2 b l) :=
  broadcastInDim_apply _ _ r (ix3 b l z) (ix2 b l) (by
    intro ax; match ax with | ⟨0, _⟩ => rfl | ⟨1, _⟩ => rfl)

theorem lastB_apply (m : FVec Ideal S8x4096x1 .f32) (b : Fin 8) (l : Fin 4096) (j : Fin 2048) :
    lastB m (ix3 b l j) = m (ix3 b l 0) :=
  broadcastInDim_apply _ _ m (ix3 b l j) (ix3 b l 0) (by
    intro ax; match ax with | ⟨0, _⟩ => rfl | ⟨1, _⟩ => rfl | ⟨2, _⟩ => rfl)

theorem chanB_apply (g : FVec Ideal S2048 .f32) (b : Fin 8) (l : Fin 4096) (j : Fin 2048) :
    chanB g (ix3 b l j) = g (ix1 j) := by
  unfold chanB
  rw [broadcastInDim_apply _ _ _ (ix3 b l j) (ix3 (0 : Fin 1) (0 : Fin 1) j) (by
    intro ax; match ax with | ⟨0, _⟩ => rfl | ⟨1, _⟩ => rfl | ⟨2, _⟩ => rfl)]
  exact broadcastInDim_apply _ _ g _ (ix1 j) (by intro ax; match ax with | ⟨0, _⟩ => rfl)

/-! ## Row sums -/

theorem rowSum_apply (y : FVec Ideal S8x4096x2048 .f32) (b : Fin 8) (l : Fin 4096) :
    rowSum y (ix2 b l) = ∑ k : Fin 2048, y (ix3 b l k) := by
  unfold rowSum
  rw [hostReduceAdd_apply, Ideal.hostReduceAdd_single reducesTo_S8x4096x2048_S8x4096_d2 (by decide : S8x4096x2048.Reduces [2] S8x4096)]
  show Ideal.ofBits .f32 0x00000000#32 + _ = _
  rw [Ideal.ofBits_zero_f32, zero_add]
  refine Finset.sum_congr rfl fun k _ => congrArg y ?_
  funext ax; apply Fin.ext
  match ax with | ⟨0, _⟩ => rfl | ⟨1, _⟩ => rfl | ⟨2, _⟩ => rfl

end Cert.ReferenceIdeal.RefValue

end
-- ==== Proof.RefNorm.lean ====
/-
  The reference's values are the specification's, on the extended reals, index by index.
  * The pooled row: a sum from zero over the 4096 positions is the plain sum, the quotient by the splat of 4096 is the
    mean, and the two-piece concatenation reads its left piece below column 2048 and its right piece from there on.
  * The variance: its divisor is 2048 less the integer zero converted to a float, which is 2048; the pattern of 2048
    is the real 2048, above zero, so the guard selects the quotient and never the constant.
  * The mix: the reference adds the two bias terms one after the other where the specification adds their sum; the
    two agree by associativity of addition on the extended reals, which needs no finiteness.
-/
import proofs.«129208_j55336358642849_2_alg».proof.Proof.RefRead

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The constants the guard of the variance needs -/

/-- The f32 pattern of 2048 is the real 2048. -/
theorem n2048_eq : Cert.Spec.n2048 = ((2048 : ℝ) : EReal) := by
  show Ideal.ofBits .f32 0x45000000#32 = _
  simp [Ideal.ofBits, Ideal.ieee, -EReal.coe_mul]; norm_num

/-- The variance's divisor, 2048 less the converted integer zero, is 2048. -/
theorem ddofN_eq : (ddofN (F := Ideal)) ix0 = Cert.Spec.n2048 := by
  unfold ddofN
  rw [subf_apply, constant_apply, sitofp_apply]
  show Cert.Spec.n2048 - ((((0#32 : BitVec 32).toInt : ℤ) : ℝ) : EReal) = _
  simp

/-- It is above zero: the guard selects the quotient. -/
theorem guard_eq : cmpf .ogt (ddofN (F := Ideal)) (constant S_ .f32 0x00000000#32) ix0 = 1#1 := by
  rw [cmpf_apply, ddofN_eq, constant_apply, Ideal.ofBits_zero_f32, Ideal.cmpf_def, n2048_eq]
  unfold Ideal.cmp
  simp

/-! ## Mean, variance and normalisation of a row -/

theorem rowMeanR_apply (y : FVec Ideal S8x4096x2048 .f32) (b : Fin 8) (l : Fin 4096) :
    rowMeanR y (ix3 b l 0) = Cert.Spec.mean (fun k => y (ix3 b l k)) := by
  unfold rowMeanR Cert.Spec.mean
  rw [hostDivf_apply, colB_apply, rowSum_apply, broadcastInDim_scalar_apply]
  rfl

theorem varR_apply (y : FVec Ideal S8x4096x2048 .f32) (b : Fin 8) (l : Fin 4096) :
    varR y (ix3 b l 0) = Cert.Spec.var (fun k => y (ix3 b l k)) := by
  unfold varR Cert.Spec.var
  rw [select_apply, broadcastInDim_scalar_apply, guard_eq, select_one, hostDivf_apply, colB_apply, rowSum_apply,
    broadcastInDim_scalar_apply, ddofN_eq]
  refine congrArg (fun s => Ideal.div s Cert.Spec.n2048) (Finset.sum_congr rfl fun k _ => ?_)
  rw [mulf_apply, subf_apply, lastB_apply, rowMeanR_apply]

theorem lnR_apply (y : FVec Ideal S8x4096x2048 .f32) (γ β : FVec Ideal S2048 .f32) (b : Fin 8) (l : Fin 4096) (j : Fin 2048) :
    lnR y γ β (ix3 b l j)
      = Cert.Spec.ln (fun k => y (ix3 b l k)) (fun k => γ (ix1 k)) (fun k => β (ix1 k)) j := by
  unfold lnR lnStage Cert.Spec.ln
  rw [addf_apply, mulf_apply, mulf_apply, subf_apply, lastB_apply, lastB_apply, chanB_apply, chanB_apply, rowMeanR_apply]
  show ((_ - _) * Ideal.rsqrt (varR y (ix3 b l 0)
    + broadcastInDim S8x4096x1 ![] bcast_S_S8x4096x1 (constant (F := Ideal) S_ .f32 0x3727C5AC#32) (ix3 b l 0))) * _ + _ = _
  rw [broadcastInDim_scalar_apply, varR_apply]
  rfl

/-! ## The mix: the two bias terms one after the other are one bias -/

theorem mixR_apply (a : FVec Ideal S8x2048 .f32) (xl xr : FVec Ideal S8x4096x2048 .f32) (fs : FVec Ideal S_ .f32)
    (fus : FVec Ideal S8x2048 .f32) (rs : FVec Ideal S_ .f32) (refl : FVec Ideal S8x2048 .f32)
    (b : Fin 8) (l : Fin 4096) (j : Fin 2048) :
    mixR a xl xr fs fus rs refl (ix3 b l j)
      = Cert.Spec.mix (a (ix2 b j)) (xl (ix3 b l j)) (xr (ix3 b l j)) (fs ix0 * fus (ix2 b j) + rs ix0 * refl (ix2 b j)) := by
  unfold mixR mix0R scaledB Cert.Spec.mix
  simp only [addf_apply, mulf_apply, subf_apply, posB_apply, rowB_apply]
  rw [broadcastInDim_scalar_apply, broadcastInDim_scalar_apply, broadcastInDim_scalar_apply]
  exact add_assoc (G := EReal) _ _ _

/-- The normalised mix is the specification's result. -/
theorem lnR_mixR_eq (a : FVec Ideal S8x2048 .f32) (xl xr : FVec Ideal S8x4096x2048 .f32) (fs : FVec Ideal S_ .f32)
    (fus : FVec Ideal S8x2048 .f32) (rs : FVec Ideal S_ .f32) (refl : FVec Ideal S8x2048 .f32) (γ β : FVec Ideal S2048 .f32) :
    lnR (mixR a xl xr fs fus rs refl) γ β
      = Cert.Spec.out xl xr a (fun i => fs ix0 * fus i + rs ix0 * refl i) (fun k => γ (ix1 k)) (fun k => β (ix1 k)) := by
  funext i
  obtain ⟨b, l, j, rfl⟩ : ∃ (b : Fin 8) (l : Fin 4096) (j : Fin 2048), i = ix3 b l j := ⟨i 0, i 1, i 2, eq_ix3 i⟩
  rw [lnR_apply]
  unfold Cert.Spec.out
  simp only [mixR_apply]

/-! ## The pooled row -/

theorem pooledMean_apply (x : FVec Ideal S8x4096x2048 .f32) (b : Fin 8) (j : Fin 2048) :
    pooledMean x (ix2 b j) = Cert.Spec.pool x b j := by
  unfold pooledMean Cert.Spec.pool
  rw [hostDivf_apply, hostReduceAdd_apply,
    Ideal.hostReduceAdd_single reducesTo_S8x4096x2048_S8x2048_d1 (by decide : S8x4096x2048.Reduces [1] S8x2048),
    broadcastInDim_scalar_apply]
  show Ideal.div (Ideal.ofBits .f32 0x00000000#32 + _) _ = _
  rw [Ideal.ofBits_zero_f32, zero_add]
  refine congrArg (fun s => Ideal.div s Cert.Spec.n4096) (Finset.sum_congr rfl fun k _ => congrArg x ?_)
  funext ax; apply Fin.ext
  match ax with | ⟨0, _⟩ => rfl | ⟨1, _⟩ => rfl | ⟨2, _⟩ => rfl

theorem hcatR_eq (xl xr : FVec Ideal S8x4096x2048 .f32) : hcatR xl xr = Cert.Spec.hcat xl xr := by
  funext i
  unfold hcatR Cert.Spec.hcat
  by_cases h : (i 1).val < 2048
  · rw [dif_pos h, concatenate_pair_apply_left _ (pooledMean xl) (pooledMean xr) concatenates_S8x2048_S8x2048_S8x4096_d1 i rfl
      (ix2 (i 0) ⟨(i 1).val, h⟩) (by intro b; match b with | ⟨0, _⟩ => rfl | ⟨1, _⟩ => rfl)]
    exact pooledMean_apply xl _ _
  · have hlt : (i 1).val - 2048 < 2048 := by
      have := (i 1).isLt; simp only [Matrix.cons_val_one, Matrix.cons_val_zero] at this; omega
    rw [dif_neg h, concatenate_pair_apply_right _ (pooledMean xl) (pooledMean xr) concatenates_S8x2048_S8x2048_S8x4096_d1 i rfl rfl
      (ix2 (i 0) ⟨(i 1).val - 2048, hlt⟩)
      (by intro b hb; match b, hb with | ⟨0, _⟩, _ => rfl | ⟨1, _⟩, hb => exact absurd rfl hb)
      (by show (i 1).val - 2048 + 2048 = (i 1).val; omega)]
    exact pooledMean_apply xr _ _

end Cert.ReferenceIdeal.RefValue

end
-- ==== Proof.RefValue.lean ====
/-
  The reference's two results as the specification's functions of the launch memory: the first is the layer
  normalisation, row by row, of the gated mix plus the one bias (fusion scale times the fusion branch plus reflex
  scale times the reflex branch), the gate, the fusion branch and the reflex branch being the reference's own
  chains applied to the pooled row; the second is the mean of the gate.
-/
import proofs.«129208_j55336358642849_2_alg».proof.Proof.RefRun
import proofs.«129208_j55336358642849_2_alg».proof.Proof.RefNorm

noncomputable section

namespace Cert.ReferenceIdeal.RefValue

open Cert.ReferenceIdeal Cert.ReferenceIdeal.Gen Cert.ReferenceIdeal.RefRun Idealize.ShloMosaic Idealize.ShloMosaic.ValueIdx Idealize.SL.Sem

/-- The first result, from any sixteen arrays. -/
theorem R76_eq (xl xr : FVec Ideal S8x4096x2048 .f32) (Wg : FVec Ideal S2048x4096 .f32) (bg : FVec Ideal S2048 .f32)
    (W1 : FVec Ideal S4096x4096 .f32) (b1 : FVec Ideal S4096 .f32) (W2 : FVec Ideal S2048x4096 .f32) (b2 : FVec Ideal S2048 .f32)
    (W3 : FVec Ideal S2048x2048 .f32) (b3 : FVec Ideal S2048 .f32) (Wr : FVec Ideal S2048x4096 .f32) (br : FVec Ideal S2048 .f32)
    (γ β : FVec Ideal S2048 .f32) (fs rs : FVec Ideal S_ .f32) :
    R76 xl xr Wg bg W1 b1 W2 b2 W3 b3 Wr br γ β fs rs
      = Cert.Spec.out xl xr (alphaR (hcatR xl xr) Wg bg)
          (fun i => fs ix0 * fusionR (hcatR xl xr) W1 b1 W2 b2 W3 b3 i + rs ix0 * reflexR (hcatR xl xr) Wr br i)
          (fun k => γ (ix1 k)) (fun k => β (ix1 k)) :=
  lnR_mixR_eq _ _ _ _ _ _ _ _ _

/-- The same with the pooled row named by the specification: the reference's pooled row IS the specification's. -/
theorem R76_eq_pooled (xl xr : FVec Ideal S8x4096x2048 .f32) (Wg : FVec Ideal S2048x4096 .f32) (bg : FVec Ideal S2048 .f32)
    (W1 : FVec Ideal S4096x4096 .f32) (b1 : FVec Ideal S4096 .f32) (W2 : FVec Ideal S2048x4096 .f32) (b2 : FVec Ideal S2048 .f32)
    (W3 : FVec Ideal S2048x2048 .f32) (b3 : FVec Ideal S2048 .f32) (Wr : FVec Ideal S2048x4096 .f32) (br : FVec Ideal S2048 .f32)
    (γ β : FVec Ideal S2048 .f32) (fs rs : FVec Ideal S_ .f32) :
    R76 xl xr Wg bg W1 b1 W2 b2 W3 b3 Wr br γ β fs rs
      = Cert.Spec.out xl xr (alphaR (Cert.Spec.hcat xl xr) Wg bg)
          (fun i => fs ix0 * fusionR (Cert.Spec.hcat xl xr) W1 b1 W2 b2 W3 b3 i + rs ix0 * reflexR (Cert.Spec.hcat xl xr) Wr br i)
          (fun k => γ (ix1 k)) (fun k => β (ix1 k)) := by
  rw [R76_eq, hcatR_eq]

/-- The one bias of the specification: the fusion scale times the fusion branch plus the reflex scale times the reflex
    branch (the scales are rank-zero arrays, read at their one index). -/
abbrev biasR (fs rs : FVec Ideal S_ .f32) (fus refl : FVec Ideal S8x2048 .f32) : S8x2048.Idx → EReal :=
  fun i => fs ix0 * fus i + rs ix0 * refl i

/-- A vector of 2048 entries as a function of its one coordinate. -/
abbrev vecR (g : FVec Ideal S2048 .f32) : Fin 2048 → EReal := fun k => g (ix1 k)

/-- The first result of the run. -/
theorem res76_eq (m : (ℓ : Loc nD τ sig) → Buf (Elt Ideal) ℓ) (c : Dev nD) :
    (res76 m c : S8x4096x2048.Idx → EReal)
      = Cert.Spec.out (m ((c.tc : Thread nD τ).loc main_arg0)) (m ((c.tc : Thread nD τ).loc main_arg1))
          (alphaR (F := Ideal) (hcatR (F := Ideal) (m ((c.tc : Thread nD τ).loc main_arg0)) (m ((c.tc : Thread nD τ).loc main_arg1))) (m ((c.tc : Thread nD τ).loc main_arg2)) (m ((c.tc : Thread nD τ).loc main_arg3)))
          (biasR (m ((c.tc : Thread nD τ).loc main_arg14)) (m ((c.tc : Thread nD τ).loc main_arg15))
            (fusionR (F := Ideal) (hcatR (F := Ideal) (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
            (reflexR (F := Ideal) (hcatR (F := Ideal) (m ((c.tc : Thread nD τ).loc main_arg0)) (m ((c.tc : Thread nD τ).loc main_arg1))) (m ((c.tc : Thread nD τ).loc main_arg10)) (m ((c.tc : Thread nD τ).loc main_arg11))))
          (vecR (m ((c.tc : Thread nD τ).loc main_arg12))) (vecR (m ((c.tc : Thread nD τ).loc main_arg13))) :=
  R76_eq _ _ _ _ _ _ _ _ _ _ _ _ _ _ _ _

/-- The second result of the run: the printed last two operations applied to the gate. -/
theorem res78_eq (m : (ℓ : Loc nD τ sig) → Buf (Elt Ideal) ℓ) (c : Dev nD) :
    (res78 m c : S_.Idx → EReal)
      = Host.divf (F := Ideal) (Host.reduceAdd (alphaR (F := Ideal) (hcatR (F := Ideal) (m ((c.tc : Thread nD τ).loc main_arg0)) (m ((c.tc : Thread nD τ).loc main_arg1))) (m ((c.tc : Thread nD τ).loc main_arg2)) (m ((c.tc : Thread nD τ).loc main_arg3)))
          (constant S_ .f32 0x00000000#32) reducesTo_S8x2048_S_d0_1 h_S_) (constant S_ .f32 0x46800000#32) := rfl

end Cert.ReferenceIdeal.RefValue

end
-- ==== Proof.Algebraic.lean ====
/-
  The two idealized programs end with equal results.

  The kernel's normalised array is the specification's `out` of the two inputs, of the gate and bias layers applied
  to the pooled array the first region leaves, and of the scale and shift vectors; the reference's is the same `out`
  of the same layers applied to its own pooled array. Both pooled arrays are the specification's `hcat`, the layers
  are the same host operations term for term, and the arguments agree: the two arrays are equal. The second result,
  the mean of the gate, is the same two host operations applied to the same gate.
-/
import proofs.«129208_j55336358642849_2_alg».proof.Defs
import proofs.«129208_j55336358642849_2_alg».proof.Proof.Gen.Pre_finite_inputs
import proofs.«129208_j55336358642849_2_alg».proof.Proof.KernelRun
import proofs.«129208_j55336358642849_2_alg».proof.Proof.KernelValue
import proofs.«129208_j55336358642849_2_alg».proof.Proof.PoolValue
import proofs.«129208_j55336358642849_2_alg».proof.Proof.ChainMatch
import proofs.«129208_j55336358642849_2_alg».proof.Proof.RefRun
import proofs.«129208_j55336358642849_2_alg».proof.Proof.RefValue

noncomputable section

namespace Cert.Proof.Bridge

open Idealize.ShloMosaic Idealize.ShloMosaic.TcCoe Idealize.SL.Sem Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_values (F := Ideal) m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · obtain ⟨e0, e1, e2, e3, e4, e5, e6, e7, e8, e9, e10, e11, e12, e13, e14, e15⟩ := hagree c
    rw [Cert.ReferenceIdeal.RefValue.res76_eq m' c, Cert.KernelIdeal.Hand.kernel_v45 m ρ c (Cert.KernelIdeal.Hand.hpool m ρ c)]
    rw [e0, e1, e2, e3, e4, e5, e6, e7, e8, e9, e10, e11, e12, e13, e14, e15]
    rw [Cert.ReferenceIdeal.RefValue.hcatR_eq, ← Cert.ChainMatch.alpha_match, ← Cert.ChainMatch.fusion_match, ← Cert.ChainMatch.reflex_match]
  · obtain ⟨e0, e1, e2, e3, -⟩ := hagree c
    rw [Cert.ReferenceIdeal.RefValue.res78_eq m' c, Cert.KernelIdeal.Hand.kernel_v47 m ρ c (Cert.KernelIdeal.Hand.hpool m ρ c)]
    rw [e0, e1, e2, e3, Cert.ReferenceIdeal.RefValue.hcatR_eq, ← Cert.ChainMatch.alpha_match]

end Cert.Proof.Bridge

end
-- ==== Proof.lean ====
/-
  The pooling-and-normalisation forward pass, as two TensorCore regions with host glue between them, against its plain
  reference: the certificate's five claims.

  Frames. @main is the pooling region, five stretches of host operations, the normalisation region and a last stretch.
  The pooling region keeps two accumulators across the four tiles of a batch row; its invariant after a point says what
  they hold. The run is the fold of the unscoped buffers' contents through those eight segments; nothing writes an
  argument, so the arguments end as launched. The same text at the word-level instance gives the printed kernel's
  frame; the reference is a straight line of host operations.

  Values, on the extended reals. The pooled array the first region leaves is, column by column, the mean over the 4096
  positions: zero plus four tiles' sums, times 1/4096, against the whole sum divided by 4096 (regrouping a finite sum,
  and 1/4096 an exact dyadic). The gate, fusion and reflex layers are the same host operations on both sides. The
  normalised output is, row by row, the layer normalisation of the gated mix plus one bias; the reference adds the
  bias's two terms one after the other, which is associativity of addition. No finiteness of the inputs is used.
-/
import proofs.«129208_j55336358642849_2_alg».proof.Defs
import proofs.«129208_j55336358642849_2_alg».proof.Proof.Gen.Kernel
import proofs.«129208_j55336358642849_2_alg».proof.Proof.Gen.KernelIdeal
import proofs.«129208_j55336358642849_2_alg».proof.Proof.Gen.ReferenceIdeal
import proofs.«129208_j55336358642849_2_alg».proof.Proof.Gen.Pre_finite_inputs
import proofs.«129208_j55336358642849_2_alg».proof.Proof.Bits.Frame
import proofs.«129208_j55336358642849_2_alg».proof.Proof.Frame
import proofs.«129208_j55336358642849_2_alg».proof.Proof.RefRun
import proofs.«129208_j55336358642849_2_alg».proof.Proof.Algebraic
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference. -/
theorem frame_reference : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.Bridge.algebraic⟩

end Cert.Proof

end
